-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x5x512 : Shape := ⟨4, ![16, 512, 5, 512]⟩
abbrev S512x512 : Shape := ⟨2, ![512, 512]⟩
abbrev S512 : Shape := ⟨1, ![512]⟩
abbrev S2000x512 : Shape := ⟨2, ![2000, 512]⟩
abbrev S2000 : Shape := ⟨1, ![2000]⟩
abbrev S_ : Shape := ⟨0, ![]⟩

class Facts : Prop where
  bcast_S_S16x512x5x512 : S_.BroadcastsInDim S16x512x5x512 (![] : Fin 0 → Fin S16x512x5x512.rank)
  reducesTo_S16x512x5x512_S_d0_1_2_3 : S16x512x5x512.ReducesTo [0, 1, 2, 3] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S2000x512 : S_.BroadcastsInDim S2000x512 (![] : Fin 0 → Fin S2000x512.rank)
  reducesTo_S2000x512_S_d0_1 : S2000x512.ReducesTo [0, 1] S_
  bcast_S_S2000 : S_.BroadcastsInDim S2000 (![] : Fin 0 → Fin S2000.rank)
  reducesTo_S2000_S_d0 : S2000.ReducesTo [0] S_

variable [Facts]

def fn_part5 {F : FTy → Type} [FloatOps F] (main_arg18 : FVec F S2000x512 .f32) (main_arg19 : FVec F S2000 .f32) (main_v83 : IVec S_ 1) (main_v84 : FVec F S512 .f32) (main_cst_32 : FVec F S_ .f32) : IVec S_ 1 :=
  let main_v85 : FVec F S512 .f32 := broadcastInDim S512 ![] bcast_S_S512 main_cst_32
  let main_v86 : IVec S512 1 := cmpf .olt main_v84 main_v85
  let main_c_33 : IVec S_ 1 := constantI S_ 1 1#1
  let main_v87 : IVec S_ 1 := (fun x v => Host.reduce IntOp.andi x v reducesTo_S512_S_d0 h_S_) main_v86 main_c_33
  let main_v88 : IVec S_ 1 := andi main_v83 main_v87
  let main_v89 : FVec F S2000x512 .f32 := Host.absf main_arg18
  let main_cst_34 : FVec F S_ .f32 := constant S_ .f32 0x7F800000#32
  let main_v90 : FVec F S2000x512 .f32 := broadcastInDim S2000x512 ![] bcast_S_S2000x512 main_cst_34
  let main_v91 : IVec S2000x512 1 := cmpf .olt main_v89 main_v90
  let main_c_35 : IVec S_ 1 := constantI S_ 1 1#1
  let main_v92 : IVec S_ 1 := (fun x v => Host.reduce IntOp.andi x v reducesTo_S2000x512_S_d0_1 h_S_) main_v91 main_c_35
  let main_v93 : IVec S_ 1 := andi main_v88 main_v92
  let main_v94 : FVec F S2000 .f32 := Host.absf main_arg19
  let main_cst_36 : FVec F S_ .f32 := constant S_ .f32 0x7F800000#32
  let main_v95 : FVec F S2000 .f32 := broadcastInDim S2000 ![] bcast_S_S2000 main_cst_36
  let main_v96 : IVec S2000 1 := cmpf .olt main_v94 main_v95
  let main_c_37 : IVec S_ 1 := constantI S_ 1 1#1
  let main_v97 : IVec S_ 1 := (fun x v => Host.reduce IntOp.andi x v reducesTo_S2000_S_d0 h_S_) main_v96 main_c_37
  let main_v98 : IVec S_ 1 := andi main_v93 main_v97
  main_v98

def fn_part4 {F : FTy → Type} [FloatOps F] (main_arg14 : FVec F S512x512 .f32) (main_arg15 : FVec F S512 .f32) (main_arg16 : FVec F S512x512 .f32) (main_arg17 : FVec F S512 .f32) (main_arg18 : FVec F S2000x512 .f32) (main_arg19 : FVec F S2000 .f32) (main_v63 : IVec S_ 1) (main_v67 : IVec S_ 1) : IVec S_ 1 :=
  let main_v68 : IVec S_ 1 := andi main_v63 main_v67
  let main_v69 : FVec F S512x512 .f32 := Host.absf main_arg14
  let main_cst_26 : FVec F S_ .f32 := constant S_ .f32 0x7F800000#32
  let main_v70 : FVec F S512x512 .f32 := broadcastInDim S512x512 ![] bcast_S_S512x512 main_cst_26
  let main_v71 : IVec S512x512 1 := cmpf .olt main_v69 main_v70
  let main_c_27 : IVec S_ 1 := constantI S_ 1 1#1
  let main_v72 : IVec S_ 1 := (fun x v => Host.reduce IntOp.andi x v reducesTo_S512x512_S_d0_1 h_S_) main_v71 main_c_27
  let main_v73 : IVec S_ 1 := andi main_v68 main_v72
  let main_v74 : FVec F S512 .f32 := Host.absf main_arg15
  let main_cst_28 : FVec F S_ .f32 := constant S_ .f32 0x7F800000#32
  let main_v75 : FVec F S512 .f32 := broadcastInDim S512 ![] bcast_S_S512 main_cst_28
  let main_v76 : IVec S512 1 := cmpf .olt main_v74 main_v75
  let main_c_29 : IVec S_ 1 := constantI S_ 1 1#1
  let main_v77 : IVec S_ 1 := (fun x v => Host.reduce IntOp.andi x v reducesTo_S512_S_d0 h_S_) main_v76 main_c_29
  let main_v78 : IVec S_ 1 := andi main_v73 main_v77
  let main_v79 : FVec F S512x512 .f32 := Host.absf main_arg16
  let main_cst_30 : FVec F S_ .f32 := constant S_ .f32 0x7F800000#32
  let main_v80 : FVec F S512x512 .f32 := broadcastInDim S512x512 ![] bcast_S_S512x512 main_cst_30
  let main_v81 : IVec S512x512 1 := cmpf .olt main_v79 main_v80
  let main_c_31 : IVec S_ 1 := constantI S_ 1 1#1
  let main_v82 : IVec S_ 1 := (fun x v => Host.reduce IntOp.andi x v reducesTo_S512x512_S_d0_1 h_S_) main_v81 main_c_31
  let main_v83 : IVec S_ 1 := andi main_v78 main_v82
  let main_v84 : FVec F S512 .f32 := Host.absf main_arg17
  let main_cst_32 : FVec F S_ .f32 := constant S_ .f32 0x7F800000#32
  fn_part5 (F := F) main_arg18 main_arg19 main_v83 main_v84 main_cst_32

def fn_part3 {F : FTy → Type} [FloatOps F] (main_arg11 : FVec F S512 .f32) (main_arg12 : FVec F S512x512 .f32) (main_arg13 : FVec F S512 .f32) (main_arg14 : FVec F S512x512 .f32) (main_arg15 : FVec F S512 .f32) (main_arg16 : FVec F S512x512 .f32) (main_arg17 : FVec F S512 .f32) (main_arg18 : FVec F S2000x512 .f32) (main_arg19 : FVec F S2000 .f32) (main_v48 : IVec S_ 1) (main_v49 : FVec F S512x512 .f32) (main_v50 : FVec F S512x512 .f32) : IVec S_ 1 :=
  let main_v51 : IVec S512x512 1 := cmpf .olt main_v49 main_v50
  let main_c_19 : IVec S_ 1 := constantI S_ 1 1#1
  let main_v52 : IVec S_ 1 := (fun x v => Host.reduce IntOp.andi x v reducesTo_S512x512_S_d0_1 h_S_) main_v51 main_c_19
  let main_v53 : IVec S_ 1 := andi main_v48 main_v52
  let main_v54 : FVec F S512 .f32 := Host.absf main_arg11
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_v59 : FVec F S512x512 .f32 := Host.absf main_arg12
  let main_cst_22 : FVec F S_ .f32 := constant S_ .f32 0x7F800000#32
  let main_v60 : FVec F S512x512 .f32 := broadcastInDim S512x512 ![] bcast_S_S512x512 main_cst_22
  let main_v61 : IVec S512x512 1 := cmpf .olt main_v59 main_v60
  let main_c_23 : IVec S_ 1 := constantI S_ 1 1#1
  let main_v62 : IVec S_ 1 := (fun x v => Host.reduce IntOp.andi x v reducesTo_S512x512_S_d0_1 h_S_) main_v61 main_c_23
  let main_v63 : IVec S_ 1 := andi main_v58 main_v62
  let main_v64 : FVec F S512 .f32 := Host.absf main_arg13
  let main_cst_24 : FVec F S_ .f32 := constant S_ .f32 0x7F800000#32
  let main_v65 : FVec F S512 .f32 := broadcastInDim S512 ![] bcast_S_S512 main_cst_24
  let main_v66 : IVec S512 1 := cmpf .olt main_v64 main_v65
  let main_c_25 : IVec S_ 1 := constantI S_ 1 1#1
  let main_v67 : IVec S_ 1 := (fun x v => Host.reduce IntOp.andi x v reducesTo_S512_S_d0 h_S_) main_v66 main_c_25
  fn_part4 (F := F) main_arg14 main_arg15 main_arg16 main_arg17 main_arg18 main_arg19 main_v63 main_v67

def fn_part2 {F : FTy → Type} [FloatOps F] (main_arg7 : FVec F S512 .f32) (main_arg8 : FVec F S512 .f32) (main_arg9 : FVec F S512 .f32) (main_arg10 : FVec F S512x512 .f32) (main_arg11 : FVec F S512 .f32) (main_arg12 : FVec F S512x512 .f32) (main_arg13 : FVec F S512 .f32) (main_arg14 : FVec F S512x512 .f32) (main_arg15 : FVec F S512 .f32) (main_arg16 : FVec F S512x512 .f32) (main_arg17 : FVec F S512 .f32) (main_arg18 : FVec F S2000x512 .f32) (main_arg19 : FVec F S2000 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S512x512 .f32 := Host.absf main_arg10
  let main_cst_18 : FVec F S_ .f32 := constant S_ .f32 0x7F800000#32
  let main_v50 : FVec F S512x512 .f32 := broadcastInDim S512x512 ![] bcast_S_S512x512 main_cst_18
  fn_part3 (F := F) main_arg11 main_arg12 main_arg13 main_arg14 main_arg15 main_arg16 main_arg17 main_arg18 main_arg19 main_v48 main_v49 main_v50

def fn_part1 {F : FTy → Type} [FloatOps F] (main_arg4 : FVec F S512x512 .f32) (main_arg5 : FVec F S512 .f32) (main_arg6 : FVec F S512 .f32) (main_arg7 : FVec F S512 .f32) (main_arg8 : FVec F S512 .f32) (main_arg9 : FVec F S512 .f32) (main_arg10 : FVec F S512x512 .f32) (main_arg11 : FVec F S512 .f32) (main_arg12 : FVec F S512x512 .f32) (main_arg13 : FVec F S512 .f32) (main_arg14 : FVec F S512x512 .f32) (main_arg15 : FVec F S512 .f32) (main_arg16 : FVec F S512x512 .f32) (main_arg17 : FVec F S512 .f32) (main_arg18 : FVec F S2000x512 .f32) (main_arg19 : FVec F S2000 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_v33

def fn {F : FTy → Type} [FloatOps F] (main_arg0 : FVec F S16x512x5x512 .f32) (main_arg1 : FVec F S16x512x5x512 .f32) (main_arg2 : FVec F S512x512 .f32) (main_arg3 : FVec F S512 .f32) (main_arg4 : FVec F S512x512 .f32) (main_arg5 : FVec F S512 .f32) (main_arg6 : FVec F S512 .f32) (main_arg7 : FVec F S512 .f32) (main_arg8 : FVec F S512 .f32) (main_arg9 : FVec F S512 .f32) (main_arg10 : FVec F S512x512 .f32) (main_arg11 : FVec F S512 .f32) (main_arg12 : FVec F S512x512 .f32) (main_arg13 : FVec F S512 .f32) (main_arg14 : FVec F S512x512 .f32) (main_arg15 : FVec F S512 .f32) (main_arg16 : FVec F S512x512 .f32) (main_arg17 : FVec F S512 .f32) (main_arg18 : FVec F S2000x512 .f32) (main_arg19 : FVec F S2000 .f32) : IVec S_ 1 :=
  let main_v0 : FVec F S16x512x5x512 .f32 := Host.absf main_arg0
  let main_cst : FVec F S_ .f32 := constant S_ .f32 0x7F800000#32
  let main_v1 : FVec F S16x512x5x512 .f32 := broadcastInDim S16x512x5x512 ![] bcast_S_S16x512x5x512 main_cst
  let main_v2 : IVec S16x512x5x512 1 := cmpf .olt main_v0 main_v1
  let main_c : IVec S_ 1 := constantI S_ 1 1#1
  let main_v3 : IVec S_ 1 := (fun x v => Host.reduce IntOp.andi x v reducesTo_S16x512x5x512_S_d0_1_2_3 h_S_) main_v2 main_c
  let main_v4 : FVec F S16x512x5x512 .f32 := Host.absf main_arg1
  let main_cst_0 : FVec F S_ .f32 := constant S_ .f32 0x7F800000#32
  let main_v5 : FVec F S16x512x5x512 .f32 := broadcastInDim S16x512x5x512 ![] bcast_S_S16x512x5x512 main_cst_0
  let main_v6 : IVec S16x512x5x512 1 := cmpf .olt main_v4 main_v5
  let main_c_1 : IVec S_ 1 := constantI S_ 1 1#1
  let main_v7 : IVec S_ 1 := (fun x v => Host.reduce IntOp.andi x v reducesTo_S16x512x5x512_S_d0_1_2_3 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_v13 main_v16
-- ==== Kernel.lean ====
abbrev S16x512x5x512 : Shape := ⟨4, ![16, 512, 5, 512]⟩
abbrev S512x512 : Shape := ⟨2, ![512, 512]⟩
abbrev S512 : Shape := ⟨1, ![512]⟩
abbrev S2000x512 : Shape := ⟨2, ![2000, 512]⟩
abbrev S2000 : Shape := ⟨1, ![2000]⟩
abbrev S40960x512 : Shape := ⟨2, ![40960, 512]⟩
abbrev S512x2000 : Shape := ⟨2, ![512, 2000]⟩
abbrev S512x1 : Shape := ⟨2, ![512, 1]⟩
abbrev S8 : Shape := ⟨1, ![8]⟩
abbrev S1x8 : Shape := ⟨2, ![1, 8]⟩
abbrev S_ : Shape := ⟨0, ![]⟩
abbrev S512x8 : Shape := ⟨2, ![512, 8]⟩
abbrev S8x512 : Shape := ⟨2, ![8, 512]⟩
abbrev S1x512 : Shape := ⟨2, ![1, 512]⟩
abbrev S1x2000 : Shape := ⟨2, ![1, 2000]⟩
abbrev S40960x2000 : Shape := ⟨2, ![40960, 2000]⟩
abbrev S16x512x5x2000 : Shape := ⟨4, ![16, 512, 5, 2000]⟩

abbrev nBuf : Space → Nat
  | .hbm => 76
  | .vmem => 26
  | .smem => 0
  | _ => 0

abbrev bufTy : (tb : Table) → Fin (tcTables nBuf tb) → BufTy
  | .hbm, ⟨0, _⟩ => ⟨S16x512x5x512, .f32⟩
  | .hbm, ⟨1, _⟩ => ⟨S16x512x5x512, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512, .f32⟩
  | .hbm, ⟨7, _⟩ => ⟨S512, .f32⟩
  | .hbm, ⟨8, _⟩ => ⟨S512, .f32⟩
  | .hbm, ⟨9, _⟩ => ⟨S512, .f32⟩
  | .hbm, ⟨10, _⟩ => ⟨S512x512, .f32⟩
  | .hbm, ⟨11, _⟩ => ⟨S512, .f32⟩
  | .hbm, ⟨12, _⟩ => ⟨S512x512, .f32⟩
  | .hbm, ⟨13, _⟩ => ⟨S512, .f32⟩
  | .hbm, ⟨14, _⟩ => ⟨S512x512, .f32⟩
  | .hbm, ⟨15, _⟩ => ⟨S512, .f32⟩
  | .hbm, ⟨16, _⟩ => ⟨S512x512, .f32⟩
  | .hbm, ⟨17, _⟩ => ⟨S512, .f32⟩
  | .hbm, ⟨18, _⟩ => ⟨S2000x512, .f32⟩
  | .hbm, ⟨19, _⟩ => ⟨S2000, .f32⟩
  | .hbm, ⟨20, _⟩ => ⟨S40960x512, .f32⟩
  | .hbm, ⟨21, _⟩ => ⟨S40960x512, .f32⟩
  | .hbm, ⟨22, _⟩ => ⟨S512x512, .f32⟩
  | .hbm, ⟨23, _⟩ => ⟨S512x512, .bf16⟩
  | .hbm, ⟨24, _⟩ => ⟨S512x512, .f32⟩
  | .hbm, ⟨25, _⟩ => ⟨S512x512, .bf16⟩
  | .hbm, ⟨26, _⟩ => ⟨S512x512, .f32⟩
  | .hbm, ⟨27, _⟩ => ⟨S512x512, .bf16⟩
  | .hbm, ⟨28, _⟩ => ⟨S512x512, .f32⟩
  | .hbm, ⟨29, _⟩ => ⟨S512x512, .bf16⟩
  | .hbm, ⟨30, _⟩ => ⟨S512x512, .f32⟩
  | .hbm, ⟨31, _⟩ => ⟨S512x512, .bf16⟩
  | .hbm, ⟨32, _⟩ => ⟨S512x512, .f32⟩
  | .hbm, ⟨33, _⟩ => ⟨S512x512, .bf16⟩
  | .hbm, ⟨34, _⟩ => ⟨S512x2000, .f32⟩
  | .hbm, ⟨35, _⟩ => ⟨S512x2000, .bf16⟩
  | .hbm, ⟨36, _⟩ => ⟨S512, .i32⟩
  | .hbm, ⟨37, _⟩ => ⟨S512x1, .i32⟩
  | .hbm, ⟨38, _⟩ => ⟨S8, .i32⟩
  | .hbm, ⟨39, _⟩ => ⟨S1x8, .i32⟩
  | .hbm, ⟨40, _⟩ => ⟨S_, .i32⟩
  | .hbm, ⟨41, _⟩ => ⟨S_, .i32⟩
  | .hbm, ⟨42, _⟩ => ⟨S512x1, .i32⟩
  | .hbm, ⟨43, _⟩ => ⟨S512x1, .i32⟩
  | .hbm, ⟨44, _⟩ => ⟨S512x1, .i32⟩
  | .hbm, ⟨45, _⟩ => ⟨S_, .i32⟩
  | .hbm, ⟨46, _⟩ => ⟨S512x1, .i32⟩
  | .hbm, ⟨47, _⟩ => ⟨S512x1, .i1⟩
  | .hbm, ⟨48, _⟩ => ⟨S512x1, .i32⟩
  | .hbm, ⟨49, _⟩ => ⟨S512x1, .i32⟩
  | .hbm, ⟨50, _⟩ => ⟨S_, .i32⟩
  | .hbm, ⟨51, _⟩ => ⟨S512x1, .i32⟩
  | .hbm, ⟨52, _⟩ => ⟨S512x1, .i1⟩
  | .hbm, ⟨53, _⟩ => ⟨S512x1, .i1⟩
  | .hbm, ⟨54, _⟩ => ⟨S_, .i32⟩
  | .hbm, ⟨55, _⟩ => ⟨S512x1, .i32⟩
  | .hbm, ⟨56, _⟩ => ⟨S512x1, .i32⟩
  | .hbm, ⟨57, _⟩ => ⟨S512x1, .i32⟩
  | .hbm, ⟨58, _⟩ => ⟨S512x8, .i32⟩
  | .hbm, ⟨59, _⟩ => ⟨S512x8, .i32⟩
  | .hbm, ⟨60, _⟩ => ⟨S512x8, .i1⟩
  | .hbm, ⟨61, _⟩ => ⟨S512x8, .bf16⟩
  | .hbm, ⟨62, _⟩ => ⟨S8x512, .bf16⟩
  | .hbm, ⟨63, _⟩ => ⟨S1x512, .f32⟩
  | .hbm, ⟨64, _⟩ => ⟨S1x512, .f32⟩
  | .hbm, ⟨65, _⟩ => ⟨S1x512, .f32⟩
  | .hbm, ⟨66, _⟩ => ⟨S1x512, .f32⟩
  | .hbm, ⟨67, _⟩ => ⟨S1x512, .f32⟩
  | .hbm, ⟨68, _⟩ => ⟨S1x512, .f32⟩
  | .hbm, ⟨69, _⟩ => ⟨S1x2000, .f32⟩
  | .hbm, ⟨70, _⟩ => ⟨S1x512, .f32⟩
  | .hbm, ⟨71, _⟩ => ⟨S1x512, .f32⟩
  | .hbm, ⟨72, _⟩ => ⟨S1x512, .f32⟩
  | .hbm, ⟨73, _⟩ => ⟨S1x512, .f32⟩
  | .hbm, ⟨74, _⟩ => ⟨S40960x2000, .f32⟩
  | .hbm, ⟨75, _⟩ => ⟨S16x512x5x2000, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .bf16⟩
  | .local _ .vmem, ⟨5, _⟩ => ⟨S1x512, .f32⟩
  | .local _ .vmem, ⟨6, _⟩ => ⟨S512x512, .bf16⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S512x512, .bf16⟩
  | .local _ .vmem, ⟨13, _⟩ => ⟨S1x512, .f32⟩
  | .local _ .vmem, ⟨14, _⟩ => ⟨S512x512, .bf16⟩
  | .local _ .vmem, ⟨15, _⟩ => ⟨S1x512, .f32⟩
  | .local _ .vmem, ⟨16, _⟩ => ⟨S512x512, .bf16⟩
  | .local _ .vmem, ⟨17, _⟩ => ⟨S1x512, .f32⟩
  | .local _ .vmem, ⟨18, _⟩ => ⟨S512x512, .bf16⟩
  | .local _ .vmem, ⟨19, _⟩ => ⟨S1x512, .f32⟩
  | .local _ .vmem, ⟨20, _⟩ => ⟨S512x2000, .bf16⟩
  | .local _ .vmem, ⟨21, _⟩ => ⟨S1x2000, .f32⟩
  | .local _ .vmem, ⟨22, _⟩ => ⟨S512x8, .bf16⟩
  | .local _ .vmem, ⟨23, _⟩ => ⟨S8x512, .bf16⟩
  | .local _ .vmem, ⟨24, _⟩ => ⟨S512x2000, .f32⟩
  | .local _ .vmem, ⟨25, _⟩ => ⟨S512x2000, .f32⟩
  | _, _ => ⟨S16x512x5x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_c : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_call0_v5 : Ref sig .tc := ⟨.hbm, 46, rfl⟩
abbrev main_call0_v6 : Ref sig .tc := ⟨.hbm, 47, rfl⟩
abbrev main_call0_v7 : Ref sig .tc := ⟨.hbm, 48, rfl⟩
abbrev main_call0_v8 : Ref sig .tc := ⟨.hbm, 49, rfl⟩
abbrev main_call0_c : Ref sig .tc := ⟨.hbm, 50, rfl⟩
abbrev main_call0_v9 : Ref sig .tc := ⟨.hbm, 51, rfl⟩
abbrev main_call0_v10 : Ref sig .tc := ⟨.hbm, 52, rfl⟩
abbrev main_call0_v11 : Ref sig .tc := ⟨.hbm, 53, rfl⟩
abbrev main_call0_c_0 : Ref sig .tc := ⟨.hbm, 54, rfl⟩
abbrev main_call0_v12 : Ref sig .tc := ⟨.hbm, 55, rfl⟩
abbrev main_call0_v13 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg19_0 : Ref sig .tc := ⟨.vmem, 21, rfl⟩
abbrev cc0_stg20_0 : Ref sig .tc := ⟨.vmem, 22, rfl⟩
abbrev cc0_stg21_0 : Ref sig .tc := ⟨.vmem, 23, rfl⟩
abbrev cc0_stg22_0 : Ref sig .tc := ⟨.vmem, 24, rfl⟩
abbrev cc0_stg22_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem19_0 : DmaSem sig := 21
abbrev cc0_sem20_0 : DmaSem sig := 22
abbrev cc0_sem21_0 : DmaSem sig := 23
abbrev cc0_sem22_0 : DmaSem sig := 24
abbrev cc0_sem22_1 : DmaSem sig := 25

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512x512 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S512x512 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S512x2000 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x2000 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S512x8 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S8x512 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 2 → Memref sig .tc .vmem S512x2000 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

class Facts₀ : Prop where
  shapeCasts_S16x512x5x512_S40960x512 : S16x512x5x512.ShapeCasts S40960x512
  transposes_S512x512_S512x512_1_0 : S512x512.Transposes [1, 0] S512x512
  bitsLt_bf16_f32 : FTy.bits .bf16 < FTy.bits .f32
  transposes_S2000x512_S512x2000_1_0 : S2000x512.Transposes [1, 0] S512x2000
  bcast_S512_S512x1_0 : S512.BroadcastsInDim S512x1 (![0] : Fin 1 → Fin S512x1.rank)
  bcast_S8_S1x8_1 : S8.BroadcastsInDim S1x8 (![1] : Fin 1 → Fin S1x8.rank)
  bcast_S_S512x1 : S_.BroadcastsInDim S512x1 (![] : Fin 0 → Fin S512x1.rank)
  bcast_S512x1_S512x8_0_1 : S512x1.BroadcastsInDim S512x8 (![0, 1] : Fin 2 → Fin S512x8.rank)
  bcast_S1x8_S512x8_0_1 : S1x8.BroadcastsInDim S512x8 (![0, 1] : Fin 2 → Fin S512x8.rank)
  transposes_S512x8_S8x512_1_0 : S512x8.Transposes [1, 0] S8x512
  shapeCasts_S512_S1x512 : S512.ShapeCasts S1x512
  shapeCasts_S2000_S1x2000 : S2000.ShapeCasts S1x2000
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  reduces_S512x512_S512 : S512x512.Reduces [1] S512
  shapeCasts_S512_S512x1 : S512.ShapeCasts S512x1
  broadcasts_S512x1_S512x512 : S512x1.Broadcasts S512x512
  inb_S512x8_S512x8_0_0 : ∀ a, (![0, 0] : Fin 2 → Nat) a + S512x8.size a ≤ S512x8.size a
  h_S512x8 : 0 < S512x8.numel
  shapeCasts_S512x8_S512x8 : S512x8.ShapeCasts S512x8
  inb_S8x512_S8x512_0_0 : ∀ a, (![0, 0] : Fin 2 → Nat) a + S8x512.size a ≤ S8x512.size a
  h_S8x512 : 0 < S8x512.numel
  shapeCasts_S8x512_S8x512 : S8x512.ShapeCasts S8x512
  inb_S512x2000_S512x2000_0_0 : ∀ a, (![0, 0] : Fin 2 → Nat) a + S512x2000.size a ≤ S512x2000.size a
  h_S512x2000 : 0 < S512x2000.numel
  shapeCasts_S512x2000_S512x2000 : S512x2000.ShapeCasts S512x2000
  inb_S1x2000_S1x2000_0_0 : ∀ a, (![0, 0] : Fin 2 → Nat) a + S1x2000.size a ≤ S1x2000.size a
  h_S1x2000 : 0 < S1x2000.numel
  shapeCasts_S1x2000_S1x2000 : S1x2000.ShapeCasts S1x2000
  broadcasts_S1x2000_S512x2000 : S1x2000.Broadcasts S512x2000
  shapeCasts_S40960x2000_S16x512x5x2000 : S40960x2000.ShapeCasts S16x512x5x2000
  dot_S512x512_S512x512_S512x512_1_0_0_1_n_n_wf : DotDims.WF S512x512 S512x512 S512x512 [1] [0] [0] [1] [] []
  dot_S512x512_S512x8_S512x8_1_0_0_1_n_n_wf : DotDims.WF S512x512 S512x8 S512x8 [1] [0] [0] [1] [] []
  dot_S512x8_S8x512_S512x512_1_0_0_1_n_n_wf : DotDims.WF S512x8 S8x512 S512x512 [1] [0] [0] [1] [] []
  dot_S512x512_S512x2000_S512x2000_1_0_0_1_n_n_wf : DotDims.WF S512x512 S512x2000 S512x2000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S40960x512.size a
  hwx0_0 : ∀ i : grid0.Coords, EltTy.bits .f32 = 32 ∨ (Rect.block (s := S40960x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S40960x512.size a
  hwx0_1 : ∀ i : grid0.Coords, EltTy.bits .f32 = 32 ∨ (Rect.block (s := S40960x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .bf16 = 32 ∨ (Rect.block (s := S512x512) S512x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x512.size a
  hwx0_7 : ∀ i : grid0.Coords, EltTy.bits .f32 = 32 ∨ (Rect.block (s := S1x512) S1x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x512.size a ≤ S1x512.size a
  hwx0_8 : ∀ i : grid0.Coords, EltTy.bits .f32 = 32 ∨ (Rect.block (s := S1x512) S1x512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x512.size a ≤ S1x512.size a
  hwx0_9 : ∀ i : grid0.Coords, EltTy.bits .f32 = 32 ∨ (Rect.block (s := S1x512) S1x512.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S512x512.size a ≤ S512x512.size a
  hwx0_10 : ∀ i : grid0.Coords, EltTy.bits .bf16 = 32 ∨ (Rect.block (s := S512x512) S512x512.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x512.size a ≤ S1x512.size a
  hwx0_11 : ∀ i : grid0.Coords, EltTy.bits .f32 = 32 ∨ (Rect.block (s := S1x512) S1x512.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S512x512.size a ≤ S512x512.size a
  hwx0_12 : ∀ i : grid0.Coords, EltTy.bits .bf16 = 32 ∨ (Rect.block (s := S512x512) S512x512.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x512.size a ≤ S1x512.size a
  hwx0_13 : ∀ i : grid0.Coords, EltTy.bits .f32 = 32 ∨ (Rect.block (s := S1x512) S1x512.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S512x512.size a ≤ S512x512.size a
  hwx0_14 : ∀ i : grid0.Coords, EltTy.bits .bf16 = 32 ∨ (Rect.block (s := S512x512) S512x512.size (cc0_transform_14 i) (hinb0_14 i)).WholeWords (EltTy.packing .bf16)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x512.size a ≤ S1x512.size a
  hwx0_15 : ∀ i : grid0.Coords, EltTy.bits .f32 = 32 ∨ (Rect.block (s := S1x512) S1x512.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S512x512.size a ≤ S512x512.size a
  hwx0_16 : ∀ i : grid0.Coords, EltTy.bits .bf16 = 32 ∨ (Rect.block (s := S512x512) S512x512.size (cc0_transform_16 i) (hinb0_16 i)).WholeWords (EltTy.packing .bf16)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S1x512.size a ≤ S1x512.size a
  hwx0_17 : ∀ i : grid0.Coords, EltTy.bits .f32 = 32 ∨ (Rect.block (s := S1x512) S1x512.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S512x2000.size a ≤ S512x2000.size a
  hwx0_18 : ∀ i : grid0.Coords, EltTy.bits .bf16 = 32 ∨ (Rect.block (s := S512x2000) S512x2000.size (cc0_transform_18 i) (hinb0_18 i)).WholeWords (EltTy.packing .bf16)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S1x2000.size a ≤ S1x2000.size a
  hwx0_19 : ∀ i : grid0.Coords, EltTy.bits .f32 = 32 ∨ (Rect.block (s := S1x2000) S1x2000.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S512x8.size a ≤ S512x8.size a
  hwx0_20 : ∀ i : grid0.Coords, EltTy.bits .bf16 = 32 ∨ (Rect.block (s := S512x8) S512x8.size (cc0_transform_20 i) (hinb0_20 i)).WholeWords (EltTy.packing .bf16)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S8x512.size a ≤ S8x512.size a
  hwx0_21 : ∀ i : grid0.Coords, EltTy.bits .bf16 = 32 ∨ (Rect.block (s := S8x512) S8x512.size (cc0_transform_21 i) (hinb0_21 i)).WholeWords (EltTy.packing .bf16)
  hstage0_22 : ∀ j, (stage0_22 j).IsWhole
  nbuf0_22 : grid0.bufCount reads0_22 false = 2
  hreads0_22 : ∀ i i' : grid0.Coords, (∀ a, reads0_22 a = true → i a = i' a) → cc0_transform_22 i = cc0_transform_22 i'
  hinb0_22 : ∀ (i : grid0.Coords) a, (cc0_transform_22 i a + 1) * S512x2000.size a ≤ S40960x2000.size a
  hwx0_22 : ∀ i : grid0.Coords, EltTy.bits .f32 = 32 ∨ (Rect.block (s := S40960x2000) S512x2000.size (cc0_transform_22 i) (hinb0_22 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S512x512_S512x8_S512x8_1_0_0_1_n_n : DotDims S512x512 S512x8 S512x8 where
  lhsContracting := [1]
  rhsContracting := [0]
  lhsNonContracting := [0]
  rhsNonContracting := [1]
  lhsBatch := []
  rhsBatch := []
  wf := dot_S512x512_S512x8_S512x8_1_0_0_1_n_n_wf
def dot_S512x8_S8x512_S512x512_1_0_0_1_n_n : DotDims S512x8 S8x512 S512x512 where
  lhsContracting := [1]
  rhsContracting := [0]
  lhsNonContracting := [0]
  rhsNonContracting := [1]
  lhsBatch := []
  rhsBatch := []
  wf := dot_S512x8_S8x512_S512x512_1_0_0_1_n_n_wf
def dot_S512x512_S512x2000_S512x2000_1_0_0_1_n_n : DotDims S512x512 S512x2000 S512x2000 where
  lhsContracting := [1]
  rhsContracting := [0]
  lhsNonContracting := [0]
  rhsNonContracting := [1]
  lhsBatch := []
  rhsBatch := []
  wf := dot_S512x512_S512x2000_S512x2000_1_0_0_1_n_n_wf

abbrev win0_0 : Pipeline.Window sig grid0 :=
  Pipeline.Window.ofSpec (Memref.whole main_v0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v33) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v34) S1x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v35) S1x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v36) S1x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v7) S512x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v28) S1x512.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v9) S512x512.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v29) S1x512.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v11) S512x512.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v30) S1x512.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v13) S512x512.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v31) S1x512.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v15) S512x2000.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v32) S1x2000.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v24) S512x8.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_v25) S8x512.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_v37) S512x2000.size cc0_transform_22 reads0_22 true false 2 stage0_22 sem0_22
    hrank0 hreads0_22 hinb0_22 nbuf0_22 (Memref.isWhole_whole _) hwx0_22 hstage0_22

abbrev win0 : Fin 23 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | ⟨_ + 23, h⟩ => absurd h (Nat.not_lt.2 (Nat.le_add_left _ _))
abbrev spec0 : Fin 23 → Pipeline.WinSpec sig grid0.rank := fun w => (win0 w).toWinSpec

class Facts : Prop extends Facts₀ where

variable [Facts]
-- ==== ReferenceIdeal.lean ====
abbrev S16x512x5x512 : Shape := ⟨4, ![16, 512, 5, 512]⟩
abbrev S512x512 : Shape := ⟨2, ![512, 512]⟩
abbrev S512 : Shape := ⟨1, ![512]⟩
abbrev S2000x512 : Shape := ⟨2, ![2000, 512]⟩
abbrev S2000 : Shape := ⟨1, ![2000]⟩
abbrev S1x1x1x512 : Shape := ⟨4, ![1, 1, 1, 512]⟩
abbrev S_ : Shape := ⟨0, ![]⟩
abbrev S16x512x5 : Shape := ⟨3, ![16, 512, 5]⟩
abbrev S16x512x5x1 : Shape := ⟨4, ![16, 512, 5, 1]⟩
abbrev S16x512x5x8x64 : Shape := ⟨5, ![16, 512, 5, 8, 64]⟩
abbrev S16x512x5x8 : Shape := ⟨4, ![16, 512, 5, 8]⟩
abbrev S16x512x5x8x1 : Shape := ⟨5, ![16, 512, 5, 8, 1]⟩
abbrev S16x512x5x2000 : Shape := ⟨4, ![16, 512, 5, 2000]⟩
abbrev S1x1x1x2000 : Shape := ⟨4, ![1, 1, 1, 2000]⟩

abbrev nBuf : Space → Nat
  | .hbm => 129
  | .vmem => 0
  | .smem => 0
  | _ => 0

abbrev hbmTy0_0 (i : Nat) : BufTy := match i % 128 with
  | 0 => ⟨S16x512x5x512, .f32⟩
  | 1 => ⟨S16x512x5x512, .f32⟩
  | 2 => ⟨S512x512, .f32⟩
  | 3 => ⟨S512, .f32⟩
  | 4 => ⟨S512x512, .f32⟩
  | 5 => ⟨S512, .f32⟩
  | 6 => ⟨S512, .f32⟩
  | 7 => ⟨S512, .f32⟩
  | 8 => ⟨S512, .f32⟩
  | 9 => ⟨S512, .f32⟩
  | 10 => ⟨S512x512, .f32⟩
  | 11 => ⟨S512, .f32⟩
  | 12 => ⟨S512x512, .f32⟩
  | 13 => ⟨S512, .f32⟩
  | 14 => ⟨S512x512, .f32⟩
  | 15 => ⟨S512, .f32⟩
  | 16 => ⟨S512x512, .f32⟩
  | 17 => ⟨S512, .f32⟩
  | 18 => ⟨S2000x512, .f32⟩
  | 19 => ⟨S2000, .f32⟩
  | 20 => ⟨S16x512x5x512, .f32⟩
  | 21 => ⟨S1x1x1x512, .f32⟩
  | 22 => ⟨S16x512x5x512, .f32⟩
  | 23 => ⟨S16x512x5x512, .f32⟩
  | 24 => ⟨S16x512x5x512, .f32⟩
  | 25 => ⟨S1x1x1x512, .f32⟩
  | 26 => ⟨S16x512x5x512, .f32⟩
  | 27 => ⟨S16x512x5x512, .f32⟩
  | 28 => ⟨S_, .f32⟩
  | 29 => ⟨S16x512x5, .f32⟩
  | 30 => ⟨S16x512x5x1, .f32⟩
  | 31 => ⟨S_, .f32⟩
  | 32 => ⟨S16x512x5x1, .f32⟩
  | 33 => ⟨S16x512x5x1, .f32⟩
  | 34 => ⟨S16x512x5x512, .f32⟩
  | 35 => ⟨S16x512x5x512, .f32⟩
  | 36 => ⟨S16x512x5x512, .f32⟩
  | 37 => ⟨S_, .f32⟩
  | 38 => ⟨S16x512x5, .f32⟩
  | 39 => ⟨S16x512x5x1, .f32⟩
  | 40 => ⟨S_, .f32⟩
  | 41 => ⟨S16x512x5x1, .f32⟩
  | 42 => ⟨S16x512x5x1, .f32⟩
  | 43 => ⟨S16x512x5x512, .f32⟩
  | 44 => ⟨S16x512x5x512, .f32⟩
  | 45 => ⟨S_, .f32⟩
  | 46 => ⟨S16x512x5x1, .f32⟩
  | 47 => ⟨S16x512x5x1, .f32⟩
  | 48 => ⟨S16x512x5x1, .f32⟩
  | 49 => ⟨S16x512x5x512, .f32⟩
  | 50 => ⟨S16x512x5x512, .f32⟩
  | 51 => ⟨S1x1x1x512, .f32⟩
  | 52 => ⟨S16x512x5x512, .f32⟩
  | 53 => ⟨S16x512x5x512, .f32⟩
  | 54 => ⟨S1x1x1x512, .f32⟩
  | 55 => ⟨S16x512x5x512, .f32⟩
  | 56 => ⟨S16x512x5x512, .f32⟩
  | 57 => ⟨S_, .f32⟩
  | 58 => ⟨S16x512x5, .f32⟩
  | 59 => ⟨S16x512x5x1, .f32⟩
  | 60 => ⟨S_, .f32⟩
  | 61 => ⟨S16x512x5x1, .f32⟩
  | 62 => ⟨S16x512x5x1, .f32⟩
  | 63 => ⟨S16x512x5x512, .f32⟩
  | 64 => ⟨S16x512x5x512, .f32⟩
  | 65 => ⟨S16x512x5x512, .f32⟩
  | 66 => ⟨S_, .f32⟩
  | 67 => ⟨S16x512x5, .f32⟩
  | 68 => ⟨S16x512x5x1, .f32⟩
  | 69 => ⟨S_, .f32⟩
  | 70 => ⟨S16x512x5x1, .f32⟩
  | 71 => ⟨S16x512x5x1, .f32⟩
  | 72 => ⟨S16x512x5x512, .f32⟩
  | 73 => ⟨S16x512x5x512, .f32⟩
  | 74 => ⟨S_, .f32⟩
  | 75 => ⟨S16x512x5x1, .f32⟩
  | 76 => ⟨S16x512x5x1, .f32⟩
  | 77 => ⟨S16x512x5x1, .f32⟩
  | 78 => ⟨S16x512x5x512, .f32⟩
  | 79 => ⟨S16x512x5x512, .f32⟩
  | 80 => ⟨S1x1x1x512, .f32⟩
  | 81 => ⟨S16x512x5x512, .f32⟩
  | 82 => ⟨S16x512x5x512, .f32⟩
  | 83 => ⟨S1x1x1x512, .f32⟩
  | 84 => ⟨S16x512x5x512, .f32⟩
  | 85 => ⟨S16x512x5x512, .f32⟩
  | 86 => ⟨S16x512x5x512, .f32⟩
  | 87 => ⟨S1x1x1x512, .f32⟩
  | 88 => ⟨S16x512x5x512, .f32⟩
  | 89 => ⟨S16x512x5x512, .f32⟩
  | 90 => ⟨S16x512x5x512, .f32⟩
  | 91 => ⟨S1x1x1x512, .f32⟩
  | 92 => ⟨S16x512x5x512, .f32⟩
  | 93 => ⟨S16x512x5x512, .f32⟩
  | 94 => ⟨S16x512x5x512, .f32⟩
  | 95 => ⟨S1x1x1x512, .f32⟩
  | 96 => ⟨S16x512x5x512, .f32⟩
  | 97 => ⟨S16x512x5x512, .f32⟩
  | 98 => ⟨S16x512x5x8x64, .f32⟩
  | 99 => ⟨S16x512x5x8x64, .f32⟩
  | 100 => ⟨S16x512x5x8x64, .f32⟩
  | 101 => ⟨S16x512x5x8x64, .f32⟩
  | 102 => ⟨S_, .f32⟩
  | 103 => ⟨S16x512x5x8, .f32⟩
  | 104 => ⟨S16x512x5x8x1, .f32⟩
  | 105 => ⟨S_, .f32⟩
  | 106 => ⟨S16x512x5x8x1, .f32⟩
  | 107 => ⟨S16x512x5x8x1, .f32⟩
  | 108 => ⟨S16x512x5x8x1, .f32⟩
  | 109 => ⟨S16x512x5x8x1, .f32⟩
  | 110 => ⟨S_, .f32⟩
  | 111 => ⟨S16x512x5x8x1, .f32⟩
  | 112 => ⟨S16x512x5x8x1, .f32⟩
  | 113 => ⟨S_, .f32⟩
  | 114 => ⟨S16x512x5x8x1, .f32⟩
  | 115 => ⟨S16x512x5x8x1, .f32⟩
  | 116 => ⟨S16x512x5x8x64, .f32⟩
  | 117 => ⟨S16x512x5x8x64, .f32⟩
  | 118 => ⟨S16x512x5x512, .f32⟩
  | 119 => ⟨S16x512x5x512, .f32⟩
  | 120 => ⟨S1x1x1x512, .f32⟩
  | 121 => ⟨S16x512x5x512, .f32⟩
  | 122 => ⟨S16x512x5x512, .f32⟩
  | 123 => ⟨S16x512x5x512, .f32⟩
  | 124 => ⟨S16x512x5x512, .f32⟩
  | 125 => ⟨S16x512x5x2000, .f32⟩
  | 126 => ⟨S1x1x1x2000, .f32⟩
  | 127 => ⟨S16x512x5x2000, .f32⟩
  | _ => ⟨S16x512x5x512, .f32⟩

abbrev hbmTy0_1 (i : Nat) : BufTy := match i % 128 with
  | 0 => ⟨S16x512x5x2000, .f32⟩
  | _ => ⟨S16x512x5x512, .f32⟩

abbrev hbmTy (i : Nat) : BufTy := match i / 128 with
  | 0 => hbmTy0_0 i
  | 1 => hbmTy0_1 i
  | _ => ⟨S16x512x5x512, .f32⟩

abbrev bufTy : (tb : Table) → Fin (tcTables nBuf tb) → BufTy
  | .hbm, ⟨i, _⟩ => hbmTy i
  | _, _ => ⟨S16x512x5x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst : Ref sig .tc := ⟨.hbm, 28, rfl⟩
abbrev main_v8 : Ref sig .tc := ⟨.hbm, 29, rfl⟩
abbrev main_v9 : Ref sig .tc := ⟨.hbm, 30, rfl⟩
abbrev main_cst_0 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_cst_1 : Ref sig .tc := ⟨.hbm, 37, rfl⟩
abbrev main_v15 : Ref sig .tc := ⟨.hbm, 38, rfl⟩
abbrev main_v16 : Ref sig .tc := ⟨.hbm, 39, rfl⟩
abbrev main_cst_2 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_cst_3 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_cst_4 : Ref sig .tc := ⟨.hbm, 57, rfl⟩
abbrev main_v32 : Ref sig .tc := ⟨.hbm, 58, rfl⟩
abbrev main_v33 : Ref sig .tc := ⟨.hbm, 59, rfl⟩
abbrev main_cst_5 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_6 : Ref sig .tc := ⟨.hbm, 66, rfl⟩
abbrev main_v39 : Ref sig .tc := ⟨.hbm, 67, rfl⟩
abbrev main_v40 : Ref sig .tc := ⟨.hbm, 68, rfl⟩
abbrev main_cst_7 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_cst_8 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_cst_9 : Ref sig .tc := ⟨.hbm, 102, rfl⟩
abbrev main_v72 : Ref sig .tc := ⟨.hbm, 103, rfl⟩
abbrev main_v73 : Ref sig .tc := ⟨.hbm, 104, rfl⟩
abbrev main_cst_10 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_cst_11 : Ref sig .tc := ⟨.hbm, 110, rfl⟩
abbrev main_v78 : Ref sig .tc := ⟨.hbm, 111, rfl⟩
abbrev main_v79 : Ref sig .tc := ⟨.hbm, 112, rfl⟩
abbrev main_cst_12 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩

abbrev nD : Nat := 1
abbrev τ : Topo := Topo.v7x

variable {F : FTy → Type} [FloatOps F]

class Facts₀ : Prop where
  bcast_S512_S1x1x1x512_3 : S512.BroadcastsInDim S1x1x1x512 (![3] : Fin 1 → Fin S1x1x1x512.rank)
  bcast_S1x1x1x512_S16x512x5x512_0_1_2_3 : S1x1x1x512.BroadcastsInDim S16x512x5x512 (![0, 1, 2, 3] : Fin 4 → Fin S16x512x5x512.rank)
  reducesTo_S16x512x5x512_S16x512x5_d3 : S16x512x5x512.ReducesTo [3] S16x512x5
  h_S_ : 0 < S_.numel
  bcast_S16x512x5_S16x512x5x1_0_1_2 : S16x512x5.BroadcastsInDim S16x512x5x1 (![0, 1, 2] : Fin 3 → Fin S16x512x5x1.rank)
  bcast_S_S16x512x5x1 : S_.BroadcastsInDim S16x512x5x1 (![] : Fin 0 → Fin S16x512x5x1.rank)
  bcast_S16x512x5x1_S16x512x5x512_0_1_2_3 : S16x512x5x1.BroadcastsInDim S16x512x5x512 (![0, 1, 2, 3] : Fin 4 → Fin S16x512x5x512.rank)
  shapeCasts_S16x512x5x512_S16x512x5x8x64 : S16x512x5x512.ShapeCasts S16x512x5x8x64
  reducesTo_S16x512x5x8x64_S16x512x5x8_d4 : S16x512x5x8x64.ReducesTo [4] S16x512x5x8
  bcast_S16x512x5x8_S16x512x5x8x1_0_1_2_3 : S16x512x5x8.BroadcastsInDim S16x512x5x8x1 (![0, 1, 2, 3] : Fin 4 → Fin S16x512x5x8x1.rank)
  bcast_S_S16x512x5x8x1 : S_.BroadcastsInDim S16x512x5x8x1 (![] : Fin 0 → Fin S16x512x5x8x1.rank)
  bcast_S16x512x5x8x1_S16x512x5x8x64_0_1_2_3_4 : S16x512x5x8x1.BroadcastsInDim S16x512x5x8x64 (![0, 1, 2, 3, 4] : Fin 5 → Fin S16x512x5x8x64.rank)
  shapeCasts_S16x512x5x8x64_S16x512x5x512 : S16x512x5x8x64.ShapeCasts S16x512x5x512
  bcast_S2000_S1x1x1x2000_3 : S2000.BroadcastsInDim S1x1x1x2000 (![3] : Fin 1 → Fin S1x1x1x2000.rank)
  bcast_S1x1x1x2000_S16x512x5x2000_0_1_2_3 : S1x1x1x2000.BroadcastsInDim S16x512x5x2000 (![0, 1, 2, 3] : Fin 4 → Fin S16x512x5x2000.rank)
  dot_S16x512x5x512_S512x512_S16x512x5x512_3_1_012_0_n_n_wf : DotDims.WF S16x512x5x512 S512x512 S16x512x5x512 [3] [1] [0, 1, 2] [0] [] []
  dot_S16x512x5x512_S2000x512_S16x512x5x2000_3_1_012_0_n_n_wf : DotDims.WF S16x512x5x512 S2000x512 S16x512x5x2000 [3] [1] [0, 1, 2] [0] [] []

variable [Facts₀]

def dot_S16x512x5x512_S512x512_S16x512x5x512_3_1_012_0_n_n : DotDims S16x512x5x512 S512x512 S16x512x5x512 where
  lhsContracting := [3]
  rhsContracting := [1]
  lhsNonContracting := [0, 1, 2]
  rhsNonContracting := [0]
  lhsBatch := []
  rhsBatch := []
  wf := dot_S16x512x5x512_S512x512_S16x512x5x512_3_1_012_0_n_n_wf
def dot_S16x512x5x512_S2000x512_S16x512x5x2000_3_1_012_0_n_n : DotDims S16x512x5x512 S2000x512 S16x512x5x2000 where
  lhsContracting := [3]
  rhsContracting := [1]
  lhsNonContracting := [0, 1, 2]
  rhsNonContracting := [0]
  lhsBatch := []
  rhsBatch := []
  wf := dot_S16x512x5x512_S2000x512_S16x512x5x2000_3_1_012_0_n_n_wf

class Facts : Prop extends Facts₀ where

variable [Facts]
-- ==== Proof.Joiner.lean ====
/-
  The function both programs compute, one frame (one row of the flattened batch) at a time, on the extended reals.

  A frame has an encoder row `e` and a decoder row `d`, each of width 512.  Both are sent through an affine map; the
  decoder image is layer-normalised into the query input, the encoder image into the key/value input; three more
  affine maps give `q`, `k`, `v`.  The 512 columns are 8 heads of 64 columns.  For head `h` the gate is the logistic
  of an eighth of the sum of `q c * k c` over the head's 64 columns; the context at column `c` is the gate of `c`'s
  head times `v c`.  The context goes through an affine map, is added to the decoder image, through `tanh`, and a
  last affine map gives the 2000 logits.

  The two programs differ only in how they spell the per-head sum and the gate's spreading back over a head's
  columns: one multiplies by the 512 × 8 matrix whose entry `(c, h)` is 1 when `c` lies in head `h` and 0
  otherwise (and by its transpose), the other regroups the columns as 8 × 64 and sums the short axis.  The two laws
  below join them: a sum against the indicator of a head is the sum over the head's columns, and a sum of gates
  against the indicator of the heads containing `c` is the gate of `c`'s head.  Both only use `x * 0 = 0`,
  `x * 1 = x` and reindexing of finite sums, which hold for every extended real, infinite ones included.
-/
import Idealize.ShloMosaic.PureOps.Ideal
import Idealize.ShloMosaic.Lib.ValueIdx

noncomputable section

namespace Cert.Joiner

open Idealize.ShloMosaic

/-- The affine map `x ↦ W x + b`, entry `j`: the sum over `c` of `x c * W j c`, plus `b j`. -/
def affine {n k : ℕ} (W : Fin n → Fin k → EReal) (b : Fin n → EReal) (x : Fin k → EReal) (j : Fin n) : EReal :=
  (∑ c : Fin k, x c * W j c) + b j

/-- The row length 512 as the float both programs divide by. -/
def width : EReal := Ideal.ofBits .f32 0x44000000#32
/-- The layer norm's epsilon, the float nearest 1e-5, as both programs spell it. -/
def epsLN : EReal := Ideal.ofBits .f32 0x3727C5AC#32
/-- One eighth: the inverse square root of the head width 64. -/
def scale : EReal := Ideal.ofBits .f32 0x3E000000#32

/-- The mean of a row: its sum divided by the row length. -/
def mean (x : Fin 512 → EReal) : EReal := Ideal.div (∑ c : Fin 512, x c) width

/-- The centred row. -/
def centred (x : Fin 512 → EReal) (c : Fin 512) : EReal := x c - mean x

/-- The variance of a row: the mean of the squares of the centred row. -/
def variance (x : Fin 512 → EReal) : EReal := mean fun c => centred x c * centred x c

/-- Layer normalisation with gain `g` and offset `β`. -/
def layerNorm (g β x : Fin 512 → EReal) (j : Fin 512) : EReal :=
  centred x j * Ideal.rsqrt (variance x + epsLN) * g j + β j

/-- The head a column belongs to. -/
def headOf (c : Fin 512) : Fin 8 := ⟨c.val / 64, by have := c.isLt; omega⟩

/-- Column `d` of head `h`. -/
def colOf (h : Fin 8) (d : Fin 64) : Fin 512 := ⟨h.val * 64 + d.val, by have := h.isLt; have := d.isLt; omega⟩

theorem headOf_colOf (h : Fin 8) (d : Fin 64) : headOf (colOf h d) = h := by
  apply Fin.ext
  show (h.val * 64 + d.val) / 64 = h.val
  have := d.isLt
  omega

/-- The gate of head `h`. -/
def gate (q k : Fin 512 → EReal) (h : Fin 8) : EReal :=
  Ideal.logistic ((∑ d : Fin 64, q (colOf h d) * k (colOf h d)) * scale)

/-- The weights of the joiner, each matrix as `W j c` (output entry `j`, input entry `c`). -/
structure Weights where
  We : Fin 512 → Fin 512 → EReal
  be : Fin 512 → EReal
  Wd : Fin 512 → Fin 512 → EReal
  bd : Fin 512 → EReal
  gq : Fin 512 → EReal
  βq : Fin 512 → EReal
  gkv : Fin 512 → EReal
  βkv : Fin 512 → EReal
  Wq : Fin 512 → Fin 512 → EReal
  bq : Fin 512 → EReal
  Wk : Fin 512 → Fin 512 → EReal
  bk : Fin 512 → EReal
  Wv : Fin 512 → Fin 512 → EReal
  bv : Fin 512 → EReal
  Wo : Fin 512 → Fin 512 → EReal
  bo : Fin 512 → EReal
  Wout : Fin 2000 → Fin 512 → EReal
  bout : Fin 2000 → EReal

variable (P : Weights)

/-- The encoder row's image. -/
def enc (e : Fin 512 → EReal) : Fin 512 → EReal := affine P.We P.be e
/-- The decoder row's image. -/
def dec (d : Fin 512 → EReal) : Fin 512 → EReal := affine P.Wd P.bd d
/-- The query input: the decoder image, normalised. -/
def qIn (d : Fin 512 → EReal) : Fin 512 → EReal := layerNorm P.gq P.βq (dec P d)
/-- The key/value input: the encoder image, normalised. -/
def kvIn (e : Fin 512 → EReal) : Fin 512 → EReal := layerNorm P.gkv P.βkv (enc P e)
def query (d : Fin 512 → EReal) : Fin 512 → EReal := affine P.Wq P.bq (qIn P d)
def key (e : Fin 512 → EReal) : Fin 512 → EReal := affine P.Wk P.bk (kvIn P e)
def value (e : Fin 512 → EReal) : Fin 512 → EReal := affine P.Wv P.bv (kvIn P e)
/-- The gated values: each column of `v` times the gate of its head. -/
def context (e d : Fin 512 → EReal) (c : Fin 512) : EReal := gate (query P d) (key P e) (headOf c) * value P e c
/-- The hidden row: `tanh` of the decoder image plus the context's image. -/
def hidden (e d : Fin 512 → EReal) (j : Fin 512) : EReal :=
  Ideal.tanh (dec P d j + affine P.Wo P.bo (context P e d) j)
/-- The 2000 logits of one frame. -/
def logits (e d : Fin 512 → EReal) : Fin 2000 → EReal := affine P.Wout P.bout (hidden P e d)

/-! ## The two laws of the head indicator -/

/-- Columns are pairs (head, column inside the head). -/
def headCol : Fin 8 × Fin 64 ≃ Fin 512 where
  toFun p := colOf p.1 p.2
  invFun c := (headOf c, ⟨c.val % 64, Nat.mod_lt _ (by norm_num)⟩)
  left_inv := by
    rintro ⟨h, d⟩
    have hd := d.isLt
    refine Prod.ext (headOf_colOf h d) (Fin.ext ?_)
    show (h.val * 64 + d.val) % 64 = d.val
    omega
  right_inv := by
    intro c
    apply Fin.ext
    show c.val / 64 * 64 + c.val % 64 = c.val
    omega

/-- A sum against the 0/1 indicator of head `h` is the sum over `h`'s 64 columns. -/
theorem sum_mul_indicator (f : Fin 512 → EReal) (h : Fin 8) :
    (∑ c : Fin 512, f c * (if headOf c = h then (1 : EReal) else 0)) = ∑ d : Fin 64, f (colOf h d) := by
  rw [← headCol.sum_comp, Fintype.sum_prod_type, Finset.sum_eq_single h]
  · refine Finset.sum_congr rfl fun d _ => ?_
    show f (colOf h d) * (if headOf (colOf h d) = h then (1 : EReal) else 0) = _
    rw [if_pos (headOf_colOf h d), mul_one]
  · intro a _ hne
    refine Finset.sum_eq_zero fun d _ => ?_
    show f (colOf a d) * (if headOf (colOf a d) = h then (1 : EReal) else 0) = 0
    rw [headOf_colOf, if_neg hne, mul_zero]
  · intro h'
    exact absurd (Finset.mem_univ _) h'

/-- The gates summed against the indicator of "column `c` lies in head `h`" give the gate of `c`'s head. -/
theorem sum_indicator_mul (a : Fin 8 → EReal) (c : Fin 512) :
    (∑ h : Fin 8, a h * (if headOf c = h then (1 : EReal) else 0)) = a (headOf c) := by
  rw [Finset.sum_eq_single (headOf c)]
  · rw [if_pos rfl, mul_one]
  · intro h _ hne
    rw [if_neg (Ne.symm hne), mul_zero]
  · intro h'
    exact absurd (Finset.mem_univ _) h'

/-! ## The whole result, as a function of the twenty argument arrays -/

open ValueIdx

/-- The weights read off the argument arrays: every matrix as given (`W j c` is the array's entry `(j, c)`). -/
def Weights.ofArgs
    (a2 : (⟨2, ![512, 512]⟩ : Shape).Idx → EReal) (a3 : (⟨1, ![512]⟩ : Shape).Idx → EReal)
    (a4 : (⟨2, ![512, 512]⟩ : Shape).Idx → EReal) (a5 a6 a7 a8 a9 : (⟨1, ![512]⟩ : Shape).Idx → EReal)
    (a10 : (⟨2, ![512, 512]⟩ : Shape).Idx → EReal) (a11 : (⟨1, ![512]⟩ : Shape).Idx → EReal)
    (a12 : (⟨2, ![512, 512]⟩ : Shape).Idx → EReal) (a13 : (⟨1, ![512]⟩ : Shape).Idx → EReal)
    (a14 : (⟨2, ![512, 512]⟩ : Shape).Idx → EReal) (a15 : (⟨1, ![512]⟩ : Shape).Idx → EReal)
    (a16 : (⟨2, ![512, 512]⟩ : Shape).Idx → EReal) (a17 : (⟨1, ![512]⟩ : Shape).Idx → EReal)
    (a18 : (⟨2, ![2000, 512]⟩ : Shape).Idx → EReal) (a19 : (⟨1, ![2000]⟩ : Shape).Idx → EReal) : Weights where
  We j c := a2 (ix2 j c)
  be j := a3 (ix1 j)
  Wd j c := a4 (ix2 j c)
  bd j := a5 (ix1 j)
  gq j := a6 (ix1 j)
  βq j := a7 (ix1 j)
  gkv j := a8 (ix1 j)
  βkv j := a9 (ix1 j)
  Wq j c := a10 (ix2 j c)
  bq j := a11 (ix1 j)
  Wk j c := a12 (ix2 j c)
  bk j := a13 (ix1 j)
  Wv j c := a14 (ix2 j c)
  bv j := a15 (ix1 j)
  Wo j c := a16 (ix2 j c)
  bo j := a17 (ix1 j)
  Wout j c := a18 (ix2 j c)
  bout j := a19 (ix1 j)

/-- The row of frame `(n, t, s)` in a batch `[16, 512, 5, 512]`. -/
def frameRow (a : (⟨4, ![16, 512, 5, 512]⟩ : Shape).Idx → EReal) (n : Fin 16) (t : Fin 512) (s : Fin 5) (c : Fin 512) : EReal :=
  a (ix4 n t s c)

/-- The row of the flattened batch `[40960, ·]` that frame `(n, t, s)` is, row-major. -/
def rowOf (n : Fin 16) (t : Fin 512) (s : Fin 5) : Fin 40960 :=
  ⟨(n.val * 512 + t.val) * 5 + s.val, by have := n.isLt; have := t.isLt; have := s.isLt; omega⟩

/-- The result array `[16, 512, 5, 2000]`: at `(n, t, s, v)`, logit `v` of frame `(n, t, s)`. -/
def result (a0 a1 : (⟨4, ![16, 512, 5, 512]⟩ : Shape).Idx → EReal)
    (a2 : (⟨2, ![512, 512]⟩ : Shape).Idx → EReal) (a3 : (⟨1, ![512]⟩ : Shape).Idx → EReal)
    (a4 : (⟨2, ![512, 512]⟩ : Shape).Idx → EReal) (a5 a6 a7 a8 a9 : (⟨1, ![512]⟩ : Shape).Idx → EReal)
    (a10 : (⟨2, ![512, 512]⟩ : Shape).Idx → EReal) (a11 : (⟨1, ![512]⟩ : Shape).Idx → EReal)
    (a12 : (⟨2, ![512, 512]⟩ : Shape).Idx → EReal) (a13 : (⟨1, ![512]⟩ : Shape).Idx → EReal)
    (a14 : (⟨2, ![512, 512]⟩ : Shape).Idx → EReal) (a15 : (⟨1, ![512]⟩ : Shape).Idx → EReal)
    (a16 : (⟨2, ![512, 512]⟩ : Shape).Idx → EReal) (a17 : (⟨1, ![512]⟩ : Shape).Idx → EReal)
    (a18 : (⟨2, ![2000, 512]⟩ : Shape).Idx → EReal) (a19 : (⟨1, ![2000]⟩ : Shape).Idx → EReal) :
    (⟨4, ![16, 512, 5, 2000]⟩ : Shape).Idx → EReal :=
  fun i => logits (Weights.ofArgs a2 a3 a4 a5 a6 a7 a8 a9 a10 a11 a12 a13 a14 a15 a16 a17 a18 a19)
    (frameRow a0 (i 0) (i 1) (i 2)) (frameRow a1 (i 0) (i 1) (i 2)) (i 3)

end Cert.Joiner

end
-- ==== Proof.LibMatmulZero.lean ====
/-
  A matrix product into a zero accumulator, read at one output index, at the extended reals.

  `matmul_zero_apply`: for a product that contracts ONE axis of extent `K`, the entry at an output index `j` is the sum
  over `k : Fin K` of the left operand at `li k` times the right operand at `ri k`, for ANY naming `li`, `ri` of the two
  operand indices whose coordinates are the product's own at `j` and the contracted position `k` (two per-axis
  hypotheses, closed at literal shapes by the dimension numbers' facts). It re-indexes the product's sum over its
  contraction shape to a sum over `Fin K`, so that a value proof can state a layer as `∑ k, a k * W k j`.
-/
import Idealize.ShloMosaic.Lib.ValueIdx
import Idealize.ShloMosaic.PureOps.Ideal.Laws

noncomputable section

namespace Cert.LibMatmulZero

open Idealize.ShloMosaic Idealize.ShloMosaic.ValueIdx

/-- A product contracting ONE axis of extent `K`, into the zero accumulator, read at an output index `j`: the sum over
    `k` of the left operand at `li k` times the right at `ri k`, for any naming `li`, `ri` of the operand indices whose
    coordinates are the product's own (`hl`, `hr'`). -/
theorem matmul_zero_apply {sl sr so : Shape} {φ₁ φ₂ : FTy} (d : DotDims sl sr so) (K : Nat) (hr : d.contr.rank = 1)
    (hs : d.contr.size ⟨0, by omega⟩ = K) (A : FVec Ideal sl φ₁) (B : FVec Ideal sr φ₂) (j : so.Idx)
    (li : Fin K → sl.Idx) (ri : Fin K → sr.Idx)
    (hl : ∀ k a, (d.lhsIdx j ((contrEquiv1 d K hr hs).symm k) a).val = (li k a).val)
    (hr' : ∀ k a, (d.rhsIdx j ((contrEquiv1 d K hr hs).symm k) a).val = (ri k a).val) :
    FloatOps.matmul d none A B (constant so .f32 0x00000000#32) j = ∑ k : Fin K, A (li k) * B (ri k) := by
  refine (Ideal.matmul_constant_zero_apply d none A B j).trans ?_
  rw [← Equiv.sum_comp (contrEquiv1 d K hr hs).symm]
  refine Finset.sum_congr rfl fun k _ => ?_
  rw [show d.lhsIdx j ((contrEquiv1 d K hr hs).symm k) = li k from funext fun a => Fin.ext (hl k a),
    show d.rhsIdx j ((contrEquiv1 d K hr hs).symm k) = ri k from funext fun a => Fin.ext (hr' k a)]

end Cert.LibMatmulZero

end
-- ==== Proof.LibMatmulRows.lean ====
/-
  A matrix product contracting the one shared axis, into a zero accumulator, read at an index, at the ideal values.

  For an `a × b` left operand and a `b × c` right operand (dimension numbers: contract the left's axis 1 with the
  right's axis 0, no batch axes), entry `(p, n)` of the product is `Σ_k A(p, k) · B(k, n)`: the sum of the exact
  products, the zero the accumulator starts from adding nothing.
-/
import Idealize.ShloMosaic.Lib.ValueIdx
import Idealize.ShloMosaic.PureOps.Ideal.Laws
import proofs.«170326_j47407849013430_1_alg».proof.Proof.LibMatmulZero

noncomputable section

namespace Cert.LibMatmulRows

open Idealize.ShloMosaic Idealize.ShloMosaic.ValueIdx

variable {a b c : ℕ}

/-- The dimension numbers of an `a × b` by `b × c` product over the shared axis. -/
abbrev rowsDims (wf : DotDims.WF ⟨2, ![a, b]⟩ ⟨2, ![b, c]⟩ ⟨2, ![a, c]⟩ [1] [0] [0] [1] [] []) :
    DotDims ⟨2, ![a, b]⟩ ⟨2, ![b, c]⟩ ⟨2, ![a, c]⟩ where
  lhsContracting := [1]
  rhsContracting := [0]
  lhsNonContracting := [0]
  rhsNonContracting := [1]
  lhsBatch := []
  rhsBatch := []
  wf := wf

/-- THE PRODUCT READ AT `(p, n)`, for the record `rowsDims`. -/
theorem rowsDims_matmul_apply {φ₁ φ₂ : FTy} (wf : DotDims.WF ⟨2, ![a, b]⟩ ⟨2, ![b, c]⟩ ⟨2, ![a, c]⟩ [1] [0] [0] [1] [] [])
    (A : FVec Ideal ⟨2, ![a, b]⟩ φ₁) (B : FVec Ideal ⟨2, ![b, c]⟩ φ₂) (p : Fin a) (n : Fin c) :
    FloatOps.matmul (rowsDims wf) none A B (constant ⟨2, ![a, c]⟩ .f32 0x00000000#32) (ix2 p n)
      = ∑ k : Fin b, A (ix2 p k) * B (ix2 k n) := by
  refine Cert.LibMatmulZero.matmul_zero_apply (rowsDims wf) b rfl rfl A B (ix2 p n) (fun k => ix2 p k) (fun k => ix2 k n) ?_ ?_
  · intro k ax
    match ax with
    | ⟨0, _⟩ =>
      show ((rowsDims wf).lhsIdx (ix2 p n) ((contrEquiv1 (rowsDims wf) b rfl rfl).symm k) 0).val = p.val
      unfold DotDims.lhsIdx
      rw [dif_neg (show ¬(0 : Fin 2) ∈ (rowsDims wf).lhsBatch from List.not_mem_nil),
        dif_pos (show (0 : Fin 2) ∈ (rowsDims wf).lhsNonContracting from List.mem_singleton.mpr rfl)]
      rfl
    | ⟨1, _⟩ =>
      exact ((rowsDims wf).lhsIdx_val_of_single rfl (ix2 p n) _).trans (contrEquiv1_symm_val (rowsDims wf) b rfl rfl k)
  · intro k ax
    match ax with
    | ⟨0, _⟩ =>
      exact ((rowsDims wf).rhsIdx_val_of_single rfl (ix2 p n) _).trans (contrEquiv1_symm_val (rowsDims wf) b rfl rfl k)
    | ⟨1, _⟩ =>
      show ((rowsDims wf).rhsIdx (ix2 p n) ((contrEquiv1 (rowsDims wf) b rfl rfl).symm k) 1).val = n.val
      unfold DotDims.rhsIdx
      rw [dif_neg (show ¬(1 : Fin 2) ∈ (rowsDims wf).rhsBatch from List.not_mem_nil),
        dif_pos (show (1 : Fin 2) ∈ (rowsDims wf).rhsNonContracting from List.mem_singleton.mpr rfl)]
      rfl

/-- THE PRODUCT READ AT `(p, n)`, for any dimension-number record with the six lists of such a product (each
    hypothesis is `rfl` for a record written with those literal fields, whatever proves its `wf`). -/
theorem matmul_rows_apply {φ₁ φ₂ : FTy} (d : DotDims ⟨2, ![a, b]⟩ ⟨2, ![b, c]⟩ ⟨2, ![a, c]⟩)
    (hlc : d.lhsContracting = [1]) (hrc : d.rhsContracting = [0]) (hln : d.lhsNonContracting = [0])
    (hrn : d.rhsNonContracting = [1]) (hlb : d.lhsBatch = []) (hrb : d.rhsBatch = [])
    (A : FVec Ideal ⟨2, ![a, b]⟩ φ₁) (B : FVec Ideal ⟨2, ![b, c]⟩ φ₂) (p : Fin a) (n : Fin c) :
    FloatOps.matmul d none A B (constant ⟨2, ![a, c]⟩ .f32 0x00000000#32) (ix2 p n)
      = ∑ k : Fin b, A (ix2 p k) * B (ix2 k n) := by
  obtain ⟨lc, rc, ln, rn, lb, rb, wf⟩ := d
  dsimp only at hlc hrc hln hrn hlb hrb
  subst hlc hrc hln hrn hlb hrb
  exact rowsDims_matmul_apply wf A B p n

end Cert.LibMatmulRows

end
-- ==== Proof.LibColumn.lean ====
/-
  A sum kept as a column: the two layout steps every `sum(axis=1, keepdims=True)` meets, read at an index.

  A vector of `a` entries viewed as an `a × 1` column has, at `(i, 0)`, the vector's entry `i`; and an `a × 1`
  column repeated along `b` columns has, at `(p, c)`, the column's entry `p`.  (Their companions for a row — a
  vector viewed `1 × a`, a `1 × b` row repeated along `a` rows — are in the library's layout file.)
-/
import Idealize.ShloMosaic.Lib.ValueIdx
import Idealize.ShloMosaic.Lib.ValueLayout
import Idealize.ShloMosaic.Lib.Pipeline.Value

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.LibRowOps.lean ====
/-
  Row-wise operations read at an index, at the ideal values.

  * the sum of a matrix along its second axis, as a kernel's lane reduction and as the host's reduce: at row `p` it is
    the sum over `k` of the entries `(p, k)` (the host's with its initial value in front);
  * a product of an `a × b` by a `b × c` matrix contracting the one shared axis, as a kernel's matrix product into a
    zero accumulator and as the host's dot product: at `(p, n)` it is the sum over `k` of `l (p, k) * r (k, n)`;
  * "keep the entry if it is at least zero, else take the other value", as comparison and select compute it;
  * the host's broadcasts of a scalar, of a vector to a column, of a vector to a row, of a column along columns and
    of a row along rows.
-/
import Idealize.ShloMosaic.Lib.ValueIdx
import Idealize.ShloMosaic.Lib.ValueLayout
import Idealize.ShloMosaic.Lib.Pipeline.Value
import Idealize.ShloMosaic.PureOps.Ideal.Laws

namespace Cert.LibRowOps

open Idealize.ShloMosaic Idealize.ShloMosaic.ValueIdx

/-! ## Row sums -/

/-- The index a row reduction lifts `(p)` and the position `k` to is `(p, k)`. -/
theorem lift_row {a b : ℕ} (h : (⟨2, ![a, b]⟩ : Shape).Reduces [1] ⟨1, ![a]⟩) (p : Fin a) (k : Fin b) :
    h.lift (ix1 p) k = ix2 p k := by
  funext c
  apply Fin.ext
  show h.liftVal (ix1 p) k.val c = (ix2 p k c).val
  match c with
  | ⟨0, _⟩ => simp [Shape.Reduces.liftVal]
  | ⟨1, _⟩ => simp [Shape.Reduces.liftVal]

/-- A kernel's lane sum of an `a × b` block, at row `p`: the sum of the row's entries. -/
theorem multiReduction_row_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_row h p k))

/-- The host's sum of an `a × b` array along its rows, at row `p`: the initial value plus the sum of the row's entries. -/
theorem hostReduceAdd_row_apply {a b : ℕ} (h' : (⟨2, ![a, b]⟩ : Shape).ReducesTo [1] ⟨1, ![a]⟩)
    (h : (⟨2, ![a, b]⟩ : Shape).Reduces [1] ⟨1, ![a]⟩) (x : (⟨2, ![a, b]⟩ : Shape).Idx → EReal) (init : EReal) (p : Fin a) :
    Ideal.hostReduceAdd h' x init (ix1 p) = init + ∑ k : Fin b, x (ix2 p k) :=
  (Ideal.hostReduceAdd_single h' h x init (ix1 p)).trans
    (congrArg (init + ·) (Finset.sum_congr rfl fun k _ => congrArg x (lift_row h p k)))

/-! ## One shared axis contracted -/

/-- The contraction's sum re-indexed by the shared axis's coordinate, when the operand indices at an output index
    `(p, n)` and a contraction position `k` are `(p, k)` and `(k, n)`. -/
theorem sum_contr {a b c : ℕ} (D : DotDims ⟨2, ![a, b]⟩ ⟨2, ![b, c]⟩ ⟨2, ![a, c]⟩) (hrk : D.contr.rank = 1)
    (hsz : D.contr.size ⟨0, by omega⟩ = b)
    (hl0 : ∀ j k, (D.lhsIdx j k (0 : Fin 2)).val = (j (0 : Fin 2)).val)
    (hl1 : ∀ j k, (D.lhsIdx j k (1 : Fin 2)).val = (k ⟨0, by omega⟩).val)
    (hr0 : ∀ j k, (D.rhsIdx j k (0 : Fin 2)).val = (k ⟨0, by omega⟩).val)
    (hr1 : ∀ j k, (D.rhsIdx j k (1 : Fin 2)).val = (j (1 : Fin 2)).val)
    (l : (⟨2, ![a, b]⟩ : Shape).Idx → EReal) (r : (⟨2, ![b, c]⟩ : Shape).Idx → EReal) (p : Fin a) (n : Fin c) :
    ∑ k : D.contr.Idx, l (D.lhsIdx (ix2 p n) k) * r (D.rhsIdx (ix2 p n) k) = ∑ k : Fin b, l (ix2 p k) * r (ix2 k n) := by
  rw [← Equiv.sum_comp (contrEquiv1 D b hrk hsz).symm]
  refine Finset.sum_congr rfl fun k _ => ?_
  have e1 : D.lhsIdx (ix2 p n) ((contrEquiv1 D b hrk hsz).symm k) = ix2 p k := by
    funext ax
    apply Fin.ext
    match ax with
    | ⟨0, _⟩ => exact hl0 _ _
    | ⟨1, _⟩ => exact (hl1 _ _).trans (contrEquiv1_symm_val D b hrk hsz k)
  have e2 : D.rhsIdx (ix2 p n) ((contrEquiv1 D b hrk hsz).symm k) = ix2 k n := by
    funext ax
    apply Fin.ext
    match ax with
    | ⟨0, _⟩ => exact (hr0 _ _).trans (contrEquiv1_symm_val D b hrk hsz k)
    | ⟨1, _⟩ => exact hr1 _ _
  rw [e1, e2]

/-! ## Keep what is at least zero -/

/-- The select on "at least the zero word": the entry itself when it is at least zero, the other value otherwise. -/
theorem select_oge_zero (v w : EReal) :
    Scalar.select (FloatOps.cmpf (F := Ideal) (φ := .f32) .oge v (Ideal.ofBits .f32 0x00000000#32)) v w
      = if (0 : EReal) ≤ v then v else w := by
  rw [Ideal.cmpf_def, Ideal.ofBits_zero_f32]
  unfold Ideal.cmp Scalar.select
  by_cases h : (0 : EReal) ≤ v
  · simp [h]
  · simp [h]

/-! ## The host's broadcasts -/

section
variable {α : Type}

/-- A scalar broadcast to any shape reads the scalar. -/
theorem broadcastInDim_scalar_apply {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 fun ax => ax.elim0

/-- A vector of `a` entries broadcast to an `a × 1` column reads, at `(p, u)`, entry `p`. -/
theorem broadcastInDim_a_a1_apply {a : ℕ} (h : (⟨1, ![a]⟩ : Shape).BroadcastsInDim ⟨2, ![a, 1]⟩ (![0] : Fin 1 → Fin 2))
    (x : (⟨1, ![a]⟩ : Shape).Idx → α) (p : Fin a) (u : Fin 1) : broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- A vector of `b` entries broadcast to a `1 × b` row reads, at `(u, q)`, entry `q`. -/
theorem broadcastInDim_b_1b_apply {b : ℕ} (h : (⟨1, ![b]⟩ : Shape).BroadcastsInDim ⟨2, ![1, b]⟩ (![1] : Fin 1 → Fin 2))
    (x : (⟨1, ![b]⟩ : Shape).Idx → α) (u : Fin 1) (q : Fin b) : broadcastInDim ⟨2, ![1, b]⟩ ![1] h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- An `a × 1` column broadcast along `b` columns reads, at `(p, q)`, the column's entry `p`. -/
theorem broadcastInDim_a1_ab_apply {a b : ℕ} (h : (⟨2, ![a, 1]⟩ : Shape).BroadcastsInDim ⟨2, ![a, b]⟩ (![0, 1] : Fin 2 → Fin 2))
    (x : (⟨2, ![a, 1]⟩ : Shape).Idx → α) (p : Fin a) (q : Fin b) :
    broadcastInDim ⟨2, ![a, b]⟩ ![0, 1] h x (ix2 p q) = x (ix2 p (0 : Fin 1)) := by
  refine broadcastInDim_apply _ h x (ix2 p q) (ix2 p (0 : Fin 1)) fun ax => ?_
  match ax with
  | ⟨0, _⟩ =>
    show p.val = if a = 1 then 0 else p.val
    split
    · have := p.isLt; omega
    · rfl
  | ⟨1, _⟩ => rfl

/-- A `1 × b` row broadcast along `a` rows reads, at `(p, q)`, the row's entry `q`. -/
theorem broadcastInDim_1b_ab_apply {a b : ℕ} (h : (⟨2, ![1, b]⟩ : Shape).BroadcastsInDim ⟨2, ![a, b]⟩ (![0, 1] : Fin 2 → Fin 2))
    (x : (⟨2, ![1, b]⟩ : Shape).Idx → α) (p : Fin a) (q : Fin b) :
    broadcastInDim ⟨2, ![a, b]⟩ ![0, 1] h x (ix2 p q) = x (ix2 (0 : Fin 1) q) := by
  refine broadcastInDim_apply _ h x (ix2 p q) (ix2 (0 : Fin 1) q) fun ax => ?_
  match ax with
  | ⟨0, _⟩ => rfl
  | ⟨1, _⟩ =>
    show q.val = if b = 1 then 0 else q.val
    split
    · have := q.isLt; omega
    · rfl

end

end Cert.LibRowOps
-- ==== Proof.KernelBody.lean ====
/-
  The kernel body, read one entry at a time at the ideal values.

  The body works on a block of 512 frames.  Every step is row-wise: entry `(p, j)` of each intermediate block
  depends only on row `p` of the encoder and decoder blocks (and on the weights).  So each payload of the body, read
  at `(p, j)`, is the matching stage of the per-frame function of `Joiner`, at the rows `p` of the two input blocks
  and at the weights as the body's windows hold them: every matrix transposed (`W j c` is the window's entry
  `(c, j)`), every vector as the one row of a `[1, ·]` window.

  A product into a zero accumulator is the row-by-column sum; a lane reduction is the row's sum; a `[512]` result
  cast to a column and broadcast back reads the row's value; rounding to a shorter float format is the identity.
  The product with the head indicator is the sum over the head's columns, and the product with its transpose picks
  the gate of the column's head (`Joiner.sum_mul_indicator`, `Joiner.sum_indicator_mul`).
-/
import proofs.«170326_j47407849013430_1_alg».proof.Proof.Gen.KernelIdeal.Skeleton
import proofs.«170326_j47407849013430_1_alg».proof.Proof.Joiner
import proofs.«170326_j47407849013430_1_alg».proof.Proof.LibMatmulRows
import proofs.«170326_j47407849013430_1_alg».proof.Proof.LibColumn
import proofs.«170326_j47407849013430_1_alg».proof.Proof.LibRowOps
import Idealize.ShloMosaic.Lib.ValueIdx
import Idealize.ShloMosaic.Lib.ValueLayout
import Idealize.ShloMosaic.Lib.Pipeline.Value
import Idealize.ShloMosaic.PureOps.Ideal.Laws

noncomputable section

namespace Cert.Joiner.Body

open Idealize.ShloMosaic Idealize.ShloMosaic.ValueIdx Cert.KernelIdeal Cert.KernelIdeal.Gen Cert.Joiner
open Cert.LibMatmulRows Cert.LibColumn Cert.LibRowOps

/-! ## The shapes of step the body repeats -/

/-- A block times a transposed weight matrix into zero, plus a one-row bias broadcast over the rows, at `(p, j)`:
    the affine map of row `p`. -/
theorem affine_block {a b c : ℕ} {φ₁ φ₂ : FTy} (d : DotDims ⟨2, ![a, b]⟩ ⟨2, ![b, c]⟩ ⟨2, ![a, c]⟩)
    (hlc : d.lhsContracting = [1]) (hrc : d.rhsContracting = [0]) (hln : d.lhsNonContracting = [0])
    (hrn : d.rhsNonContracting = [1]) (hlb : d.lhsBatch = []) (hrb : d.rhsBatch = [])
    (X : FVec Ideal ⟨2, ![a, b]⟩ φ₁) (Wt : FVec Ideal ⟨2, ![b, c]⟩ φ₂) (bias : FVec Ideal ⟨2, ![1, c]⟩ .f32)
    (hb : (⟨2, ![1, c]⟩ : Shape).Broadcasts ⟨2, ![a, c]⟩) (p : Fin a) (j : Fin c) :
    addf (FloatOps.matmul d none X Wt (constant ⟨2, ![a, c]⟩ .f32 0x00000000#32)) (broadcastTo ⟨2, ![a, c]⟩ bias hb) (ix2 p j)
      = affine (fun j k => Wt (ix2 k j)) (fun j => bias (ix2 (0 : Fin 1) j)) (fun k => X (ix2 p k)) j := by
  rw [addf_apply, matmul_rows_apply d hlc hrc hln hrn hlb hrb X Wt p j, broadcastTo_1b_ab_apply]
  rfl

/-- A product into zero at `(p, n)`: the row-by-column sum. -/
theorem matmul_at {a b c : ℕ} {φ₁ φ₂ : FTy} (d : DotDims ⟨2, ![a, b]⟩ ⟨2, ![b, c]⟩ ⟨2, ![a, c]⟩)
    (hlc : d.lhsContracting = [1]) (hrc : d.rhsContracting = [0]) (hln : d.lhsNonContracting = [0])
    (hrn : d.rhsNonContracting = [1]) (hlb : d.lhsBatch = []) (hrb : d.rhsBatch = [])
    (A : FVec Ideal ⟨2, ![a, b]⟩ φ₁) (B : FVec Ideal ⟨2, ![b, c]⟩ φ₂) (p : Fin a) (n : Fin c) :
    matmul d none A B (constant ⟨2, ![a, c]⟩ .f32 0x00000000#32) (ix2 p n) = ∑ k : Fin b, A (ix2 p k) * B (ix2 k n) :=
  matmul_rows_apply d hlc hrc hln hrn hlb hrb A B p n

/-- A block's row sums, cast to a column and divided by the row length, at `(p, 0)`: the mean of row `p`. -/
theorem mean_block (X : FVec Ideal S512x512 .f32) (hr : S512x512.Reduces [1] S512) (hφ : FKind.Formats FTy.f32)
    (hacc : (0x00000000#32 : BitVec FTy.f32.bits) = FKind.add.neutral FTy.f32 hφ) (hc : S512.ShapeCasts S512x1) (p : Fin 512) :
    divf (shapeCast S512x1 (multiReduction .add [1] S512 X 0x00000000#32 hr hφ hacc) hc)
        (broadcast S512x1 (Scalar.ofBits (F := Ideal) .f32 0x44000000#32)) (ix2 p (0 : Fin 1))
      = mean (fun k => X (ix2 p k)) := by
  rw [divf_apply, shapeCast_a_a1_apply, multiReduction_row_apply]
  rfl

/-! ## The weights as the windows hold them -/

/-- The weights read off the eighteen weight windows: matrices transposed, vectors as one-row arrays. -/
def blockWeights (x2 : Vec Ideal S512x512 .bf16) (x3 : Vec Ideal S1x512 .f32) (x4 : Vec Ideal S512x512 .bf16)
    (x5 x6 x7 x8 x9 : Vec Ideal S1x512 .f32) (x10 : Vec Ideal S512x512 .bf16) (x11 : Vec Ideal S1x512 .f32)
    (x12 : Vec Ideal S512x512 .bf16) (x13 : Vec Ideal S1x512 .f32) (x14 : Vec Ideal S512x512 .bf16) (x15 : Vec Ideal S1x512 .f32)
    (x16 : Vec Ideal S512x512 .bf16) (x17 : Vec Ideal S1x512 .f32) (x18 : Vec Ideal S512x2000 .bf16) (x19 : Vec Ideal S1x2000 .f32) :
    Weights where
  We j c := x2 (ix2 c j)
  be j := x3 (ix2 (0 : Fin 1) j)
  Wd j c := x4 (ix2 c j)
  bd j := x5 (ix2 (0 : Fin 1) j)
  gq j := x6 (ix2 (0 : Fin 1) j)
  βq j := x7 (ix2 (0 : Fin 1) j)
  gkv j := x8 (ix2 (0 : Fin 1) j)
  βkv j := x9 (ix2 (0 : Fin 1) j)
  Wq j c := x10 (ix2 c j)
  bq j := x11 (ix2 (0 : Fin 1) j)
  Wk j c := x12 (ix2 c j)
  bk j := x13 (ix2 (0 : Fin 1) j)
  Wv j c := x14 (ix2 c j)
  bv j := x15 (ix2 (0 : Fin 1) j)
  Wo j c := x16 (ix2 c j)
  bo j := x17 (ix2 (0 : Fin 1) j)
  Wout j c := x18 (ix2 c j)
  bout j := x19 (ix2 (0 : Fin 1) j)

/-! ## The payloads, one entry at a time -/

/-- The encoder block's image. -/
theorem enc_apply (x0 : Vec Ideal S512x512 .f32) (x2 : Vec Ideal S512x512 .bf16) (x3 : Vec Ideal S1x512 .f32) (p j : Fin 512) :
    k0_pay2 (F := Ideal) x0 x2 x3 (ix2 p j)
      = affine (fun j k => x2 (ix2 k j)) (fun j => x3 (ix2 (0 : Fin 1) j)) (fun k => x0 (ix2 p k)) j := by
  unfold k0_pay2
  simp only [shapeCast_self]
  exact affine_block _ rfl rfl rfl rfl rfl rfl _ _ _ _ p j

/-- The decoder block's image. -/
theorem dec_apply (x1 : Vec Ideal S512x512 .f32) (x4 : Vec Ideal S512x512 .bf16) (x5 : Vec Ideal S1x512 .f32) (p j : Fin 512) :
    k0_pay3 (F := Ideal) x1 x4 x5 (ix2 p j)
      = affine (fun j k => x4 (ix2 k j)) (fun j => x5 (ix2 (0 : Fin 1) j)) (fun k => x1 (ix2 p k)) j := by
  unfold k0_pay3
  simp only [shapeCast_self]
  exact affine_block _ rfl rfl rfl rfl rfl rfl _ _ _ _ p j

/-- The column of row means of the decoder image. -/
theorem decMean_apply (x1 : Vec Ideal S512x512 .f32) (x4 : Vec Ideal S512x512 .bf16) (x5 : Vec Ideal S1x512 .f32) (p : Fin 512) :
    k0_pay6 (F := Ideal) x1 x4 x5 (ix2 p (0 : Fin 1)) = mean (fun k => k0_pay3 (F := Ideal) x1 x4 x5 (ix2 p k)) := by
  unfold k0_pay6
  exact mean_block _ _ _ _ _ p

/-- The centred decoder image. -/
theorem decCentred_apply (x1 : Vec Ideal S512x512 .f32) (x4 : Vec Ideal S512x512 .bf16) (x5 : Vec Ideal S1x512 .f32) (p j : Fin 512) :
    k0_pay8 (F := Ideal) x1 x4 x5 (ix2 p j) = centred (fun k => k0_pay3 (F := Ideal) x1 x4 x5 (ix2 p k)) j := by
  unfold k0_pay8
  show subf (k0_pay3 (F := Ideal) x1 x4 x5) (broadcastTo S512x512 (k0_pay6 (F := Ideal) x1 x4 x5) _) (ix2 p j) = _
  rw [subf_apply, broadcastTo_a1_ab_apply, decMean_apply]
  rfl

/-- The column of row variances of the decoder image. -/
theorem decVariance_apply (x1 : Vec Ideal S512x512 .f32) (x4 : Vec Ideal S512x512 .bf16) (x5 : Vec Ideal S1x512 .f32) (p : Fin 512) :
    k0_pay7 (F := Ideal) x1 x4 x5 (ix2 p (0 : Fin 1)) = variance (fun k => k0_pay3 (F := Ideal) x1 x4 x5 (ix2 p k)) := by
  unfold k0_pay7
  refine (mean_block _ _ _ _ _ p).trans ?_
  unfold variance
  refine congrArg mean (funext fun k => ?_)
  show mulf _ _ (ix2 p k) = _
  rw [mulf_apply, subf_apply, broadcastTo_a1_ab_apply, decMean_apply]
  rfl

/-- Layer normalisation of a block with one-row gain and offset, rounded to the short format, at `(p, j)`. -/
theorem kvIn_apply (v12 : FVec Ideal S512x512 .f32) (x8 x9 : Vec Ideal S1x512 .f32) (p j : Fin 512) :
    k0_pay9 (F := Ideal) v12 x8 x9 (ix2 p j)
      = layerNorm (fun j => x8 (ix2 (0 : Fin 1) j)) (fun j => x9 (ix2 (0 : Fin 1) j)) (fun k => v12 (ix2 p k)) j := by
  unfold k0_pay9
  simp only [shapeCast_self]
  rw [truncf_apply, addf_apply, mulf_apply, mulf_apply, subf_apply, broadcastTo_a1_ab_apply, broadcastTo_a1_ab_apply,
    broadcastTo_1b_ab_apply, broadcastTo_1b_ab_apply]
  unfold layerNorm centred
  refine congrArg₂ (· + ·) (congrArg₂ (· * ·) (congrArg₂ (· * ·) (congrArg₂ (· - ·) rfl ?_) ?_) rfl) rfl
  · exact mean_block _ _ _ _ _ p
  · show Ideal.rsqrt (_ + epsLN) = _
    refine congrArg (fun r => Ideal.rsqrt (r + epsLN)) ?_
    refine (mean_block _ _ _ _ _ p).trans ?_
    unfold variance centred
    refine congrArg mean (funext fun k => ?_)
    show mulf _ _ (ix2 p k) = _
    rw [mulf_apply, subf_apply, broadcastTo_a1_ab_apply]
    refine congrArg₂ (· * ·) (congrArg₂ (· - ·) rfl ?_) (congrArg₂ (· - ·) rfl ?_) <;> exact mean_block _ _ _ _ _ p

/-- The query block: the normalised decoder image (from its centred block and variance column) through the query map. -/
theorem query_apply (v21 v23 : FVec Ideal S1x512 .f32) (v34 : FVec Ideal S512x1 .f32) (v36 : FVec Ideal S512x512 .f32)
    (x10 : Vec Ideal S512x512 .bf16) (x11 : Vec Ideal S1x512 .f32) (p j : Fin 512) :
    k0_pay10 (F := Ideal) v21 v23 v34 v36 x10 x11 (ix2 p j)
      = affine (fun j k => x10 (ix2 k j)) (fun j => x11 (ix2 (0 : Fin 1) j))
          (fun k => v36 (ix2 p k) * Ideal.rsqrt (v34 (ix2 p (0 : Fin 1)) + epsLN) * v21 (ix2 (0 : Fin 1) k) + v23 (ix2 (0 : Fin 1) k)) j := by
  unfold k0_pay10
  simp only [shapeCast_self]
  refine (affine_block _ rfl rfl rfl rfl rfl rfl _ _ _ _ p j).trans ?_
  refine congrArg (fun x => affine _ _ x j) (funext fun k => ?_)
  rw [truncf_apply, addf_apply, mulf_apply, mulf_apply, broadcastTo_a1_ab_apply, broadcastTo_1b_ab_apply, broadcastTo_1b_ab_apply]
  rfl

/-- The hidden block: `tanh` of the decoder image plus the gated values' image, rounded to the short format. -/
theorem hidden_apply (v19 : FVec Ideal S512x512 .f32) (v73 : FVec Ideal S512x512 .bf16) (v80 : FVec Ideal S512x512 .f32)
    (x12 : Vec Ideal S512x512 .bf16) (x13 : Vec Ideal S1x512 .f32) (x14 : Vec Ideal S512x512 .bf16) (x15 : Vec Ideal S1x512 .f32)
    (x20 : Vec Ideal S512x8 .bf16) (x21 : Vec Ideal S8x512 .bf16) (x16 : Vec Ideal S512x512 .bf16) (x17 : Vec Ideal S1x512 .f32)
    (hG : ∀ (k : Fin 512) (h : Fin 8), x20 (ix2 k h) = if headOf k = h then (1 : EReal) else 0)
    (hGt : ∀ (h : Fin 8) (k : Fin 512), x21 (ix2 h k) = if headOf k = h then (1 : EReal) else 0) (p j : Fin 512) :
    k0_pay11 (F := Ideal) v19 v73 v80 x12 x13 x14 x15 x20 x21 x16 x17 (ix2 p j)
      = Ideal.tanh (v19 (ix2 p j) + affine (fun j k => x16 (ix2 k j)) (fun j => x17 (ix2 (0 : Fin 1) j))
          (fun c => gate (fun k => v80 (ix2 p k))
              (affine (fun j k => x12 (ix2 k j)) (fun j => x13 (ix2 (0 : Fin 1) j)) (fun k => v73 (ix2 p k))) (headOf c)
            * affine (fun j k => x14 (ix2 k j)) (fun j => x15 (ix2 (0 : Fin 1) j)) (fun k => v73 (ix2 p k)) c) j) := by
  unfold k0_pay11
  simp only [shapeCast_self]
  rw [truncf_apply]
  show Ideal.tanh (_ + _) = _
  refine congrArg (fun r => Ideal.tanh (v19 (ix2 p j) + r)) ?_
  refine (affine_block _ rfl rfl rfl rfl rfl rfl _ _ _ _ p j).trans ?_
  refine congrArg (fun x => affine _ _ x j) (funext fun c => ?_)
  rw [truncf_apply, mulf_apply, matmul_at _ rfl rfl rfl rfl rfl rfl, affine_block _ rfl rfl rfl rfl rfl rfl]
  refine congrArg (· * _) ?_
  simp only [hGt]
  refine (sum_indicator_mul _ c).trans ?_
  rw [truncf_apply]
  show Ideal.logistic (_ * scale) = _
  unfold gate
  refine congrArg (fun r => Ideal.logistic (r * scale)) ?_
  rw [matmul_at _ rfl rfl rfl rfl rfl rfl]
  simp only [hG]
  refine (sum_mul_indicator _ (headOf c)).trans ?_
  refine Finset.sum_congr rfl fun d _ => ?_
  rw [truncf_apply, mulf_apply, affine_block _ rfl rfl rfl rfl rfl rfl]

/-- The logits block. -/
theorem logits_apply (v118 : FVec Ideal S512x512 .bf16) (x18 : Vec Ideal S512x2000 .bf16) (x19 : Vec Ideal S1x2000 .f32)
    (p : Fin 512) (v : Fin 2000) :
    k0_pay1 (F := Ideal) v118 x18 x19 (ix2 p v)
      = affine (fun j k => x18 (ix2 k j)) (fun j => x19 (ix2 (0 : Fin 1) j)) (fun k => v118 (ix2 p k)) v := by
  unfold k0_pay1
  simp only [shapeCast_self]
  exact affine_block _ rfl rfl rfl rfl rfl rfl _ _ _ _ p v

end Cert.Joiner.Body

end
-- ==== Proof.KernelOut.lean ====
/-
  What the body leaves in the output block, one entry at a time: entry `(p, v)` of the block is logit `v` of the
  frame whose encoder and decoder rows are rows `p` of the two input blocks, at the weights the windows hold
  (`Body.blockWeights`).  The block is written by one store of the whole block, so it is that store's payload; the
  payload is the composition of the stages read in `KernelBody`.
-/
import proofs.«170326_j47407849013430_1_alg».proof.Proof.Gen.KernelIdeal.Frame
import proofs.«170326_j47407849013430_1_alg».proof.Proof.KernelBody

noncomputable section

namespace Cert.Joiner.Body

open Idealize.ShloMosaic Idealize.ShloMosaic.ValueIdx Cert.KernelIdeal Cert.KernelIdeal.Gen Cert.Joiner

theorem zero_offsets : (![0, 0] : Fin 2 → Nat) = fun _ => 0 := funext fun a => by fin_cases a <;> rfl

/-- The output block at `(p, v)`. -/
theorem out_apply (x0 x1 : Vec Ideal S512x512 .f32) (x2 : Vec Ideal S512x512 .bf16) (x3 : Vec Ideal S1x512 .f32)
    (x4 : Vec Ideal S512x512 .bf16) (x5 x6 x7 x8 x9 : Vec Ideal S1x512 .f32) (x10 : Vec Ideal S512x512 .bf16)
    (x11 : Vec Ideal S1x512 .f32) (x12 : Vec Ideal S512x512 .bf16) (x13 : Vec Ideal S1x512 .f32)
    (x14 : Vec Ideal S512x512 .bf16) (x15 : Vec Ideal S1x512 .f32) (x16 : Vec Ideal S512x512 .bf16)
    (x17 : Vec Ideal S1x512 .f32) (x18 : Vec Ideal S512x2000 .bf16) (x19 : Vec Ideal S1x2000 .f32)
    (x20 : Vec Ideal S512x8 .bf16) (x21 : Vec Ideal S8x512 .bf16)
    (hG : ∀ (k : Fin 512) (h : Fin 8), x20 (ix2 k h) = if headOf k = h then (1 : EReal) else 0)
    (hGt : ∀ (h : Fin 8) (k : Fin 512), x21 (ix2 h k) = if headOf k = h then (1 : EReal) else 0)
    (p : Fin 512) (v : Fin 2000) :
    out0_22 (F := Ideal) x0 x1 x2 x3 x4 x5 x6 x7 x8 x9 x10 x11 x12 x13 x14 x15 x16 x17 x18 x19 x20 x21 (ix2 p v)
      = logits (blockWeights x2 x3 x4 x5 x6 x7 x8 x9 x10 x11 x12 x13 x14 x15 x16 x17 x18 x19)
          (fun k => x0 (ix2 p k)) (fun k => x1 (ix2 p k)) v := by
  unfold out0_22
  rw [View.canon_unit_zero zero_offsets]
  simp only [View.ld_unit_zero (S := S512x512) zero_offsets, View.ld_unit_zero (S := S1x512) zero_offsets,
    View.ld_unit_zero (S := S512x8) zero_offsets, View.ld_unit_zero (S := S8x512) zero_offsets,
    View.ld_unit_zero (S := S512x2000) zero_offsets, View.ld_unit_zero (S := S1x2000) zero_offsets]
  rw [logits_apply]
  unfold logits
  refine congrArg (fun x => affine _ _ x v) (funext fun j => ?_)
  rw [hidden_apply _ _ _ _ _ _ _ _ _ _ _ hG hGt]
  simp only [dec_apply, enc_apply, kvIn_apply, query_apply, decVariance_apply, decCentred_apply, k0_pay4, k0_pay5, shapeCast_self]
  rfl

end Cert.Joiner.Body

end
-- ==== Proof.KernelValue.lean ====
/-
  From the blocks to the array, and through the last reshape.

  The region has 80 points; point `t` reads rows `512 t … 512 t + 511` of the two flattened batches, reads every
  weight window whole (their index maps are constantly zero), and writes back rows `512 t … 512 t + 511` of the
  `[40960, 2000]` result.  By `Body.out_apply` the block it writes is, entry by entry, the logits of the frame in that
  row; the 80 row blocks tile the result array, so the array ends holding, at `(r, v)`, logit `v` of the frame whose
  rows are rows `r` of the flattened batches (`flat`).  The program's last step reshapes `[40960, 2000]` to
  `[16, 512, 5, 2000]`: entry `(n, t, s, v)` is entry `(rowOf n t s, v)`.
-/
import proofs.«170326_j47407849013430_1_alg».proof.Proof.Gen.KernelIdeal.Frame
import proofs.«170326_j47407849013430_1_alg».proof.Proof.KernelOut
import Idealize.ShloMosaic.Lib.Pipeline.Value
import Idealize.ShloMosaic.Lib.StableHlo.Run

set_option maxRecDepth 16384

noncomputable section

namespace Cert.Joiner.KValue

open Idealize.ShloMosaic Idealize.ShloMosaic.TcCoe Idealize.ShloMosaic.ValueIdx Idealize.ShloMosaic.StableHlo
open Idealize.SL.Sem Cert.KernelIdeal Cert.KernelIdeal.Gen Cert.Joiner
open Idealize.ShloMosaic.Pipeline (Dat)

variable (m : (ℓ : Loc nD τ sig) → Buf (Elt Ideal) ℓ) (ρ : Dev nD → PrngReg)

/-- The weights as the region finds them in its eighteen weight windows. -/
def regionWeights (c : Dev nD) : Weights :=
  Body.blockWeights (V m c main_v3) (V m c main_v26) (V m c main_v5) (V m c main_v27) (V m c main_v33) (V m c main_v34) (V m c main_v35) (V m c main_v36) (V m c main_v7) (V m c main_v28) (V m c main_v9) (V m c main_v29) (V m c main_v11) (V m c main_v30) (V m c main_v13) (V m c main_v31) (V m c main_v15) (V m c main_v32)

/-- The `[40960, 2000]` array of logits: row `r` from rows `r` of the two flattened batches. -/
def flat (c : Dev nD) : S40960x2000.Idx → EReal := fun i =>
  logits (regionWeights m c) (fun k => V m c main_v0 (ix2 (i 0) k)) (fun k => V m c main_v1 (ix2 (i 0) k)) (i 1)

/-! ## The index maps, decided over the grid -/

/-- The row windows and the result window sit at block `(t, 0)`. -/
theorem row_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_22.index t (0 : Fin 2) = t.val ∧ win0_22.index t (1 : Fin 2) = 0 :=
  (by decide +kernel : ∀ t : Fin grid0.N, _)

/-! ## The weight windows sit at block `(0, 0)` at every point, so their blocks are the whole arrays -/

theorem zero_2 : ∀ t : Fin cfg0.N, ∀ a : Fin 2, win0_2.index t a = 0 :=
  (by decide +kernel : ∀ t : Fin grid0.N, _)

theorem iblk_2 (c : Dev nD) (t : Fin cfg0.N) : iblk m c 2 t = V m c main_v3 := by
  funext y
  show V m c main_v3 (((cfg0.win 2).blk t).view.emb y) = V m c main_v3 y
  refine congrArg _ (funext fun a => Fin.ext ?_)
  match a with
  | ⟨0, _⟩ => show win0_2.index t (0 : Fin 2) * 512 + 1 * (y 0).val = (y 0).val; rw [zero_2 t 0]; omega
  | ⟨1, _⟩ => show win0_2.index t (1 : Fin 2) * 512 + 1 * (y 1).val = (y 1).val; rw [zero_2 t 1]; omega

theorem zero_3 : ∀ t : Fin cfg0.N, ∀ a : Fin 2, win0_3.index t a = 0 :=
  (by decide +kernel : ∀ t : Fin grid0.N, _)

theorem iblk_3 (c : Dev nD) (t : Fin cfg0.N) : iblk m c 3 t = V m c main_v26 := by
  funext y
  show V m c main_v26 (((cfg0.win 3).blk t).view.emb y) = V m c main_v26 y
  refine congrArg _ (funext fun a => Fin.ext ?_)
  match a with
  | ⟨0, _⟩ => show win0_3.index t (0 : Fin 2) * 1 + 1 * (y 0).val = (y 0).val; rw [zero_3 t 0]; omega
  | ⟨1, _⟩ => show win0_3.index t (1 : Fin 2) * 512 + 1 * (y 1).val = (y 1).val; rw [zero_3 t 1]; omega

theorem zero_4 : ∀ t : Fin cfg0.N, ∀ a : Fin 2, win0_4.index t a = 0 :=
  (by decide +kernel : ∀ t : Fin grid0.N, _)

theorem iblk_4 (c : Dev nD) (t : Fin cfg0.N) : iblk m c 4 t = V m c main_v5 := by
  funext y
  show V m c main_v5 (((cfg0.win 4).blk t).view.emb y) = V m c main_v5 y
  refine congrArg _ (funext fun a => Fin.ext ?_)
  match a with
  | ⟨0, _⟩ => show win0_4.index t (0 : Fin 2) * 512 + 1 * (y 0).val = (y 0).val; rw [zero_4 t 0]; omega
  | ⟨1, _⟩ => show win0_4.index t (1 : Fin 2) * 512 + 1 * (y 1).val = (y 1).val; rw [zero_4 t 1]; omega

theorem zero_5 : ∀ t : Fin cfg0.N, ∀ a : Fin 2, win0_5.index t a = 0 :=
  (by decide +kernel : ∀ t : Fin grid0.N, _)

theorem iblk_5 (c : Dev nD) (t : Fin cfg0.N) : iblk m c 5 t = V m c main_v27 := by
  funext y
  show V m c main_v27 (((cfg0.win 5).blk t).view.emb y) = V m c main_v27 y
  refine congrArg _ (funext fun a => Fin.ext ?_)
  match a with
  | ⟨0, _⟩ => show win0_5.index t (0 : Fin 2) * 1 + 1 * (y 0).val = (y 0).val; rw [zero_5 t 0]; omega
  | ⟨1, _⟩ => show win0_5.index t (1 : Fin 2) * 512 + 1 * (y 1).val = (y 1).val; rw [zero_5 t 1]; omega

theorem zero_6 : ∀ t : Fin cfg0.N, ∀ a : Fin 2, win0_6.index t a = 0 :=
  (by decide +kernel : ∀ t : Fin grid0.N, _)

theorem iblk_6 (c : Dev nD) (t : Fin cfg0.N) : iblk m c 6 t = V m c main_v33 := by
  funext y
  show V m c main_v33 (((cfg0.win 6).blk t).view.emb y) = V m c main_v33 y
  refine congrArg _ (funext fun a => Fin.ext ?_)
  match a with
  | ⟨0, _⟩ => show win0_6.index t (0 : Fin 2) * 1 + 1 * (y 0).val = (y 0).val; rw [zero_6 t 0]; omega
  | ⟨1, _⟩ => show win0_6.index t (1 : Fin 2) * 512 + 1 * (y 1).val = (y 1).val; rw [zero_6 t 1]; omega

theorem zero_7 : ∀ t : Fin cfg0.N, ∀ a : Fin 2, win0_7.index t a = 0 :=
  (by decide +kernel : ∀ t : Fin grid0.N, _)

theorem iblk_7 (c : Dev nD) (t : Fin cfg0.N) : iblk m c 7 t = V m c main_v34 := by
  funext y
  show V m c main_v34 (((cfg0.win 7).blk t).view.emb y) = V m c main_v34 y
  refine congrArg _ (funext fun a => Fin.ext ?_)
  match a with
  | ⟨0, _⟩ => show win0_7.index t (0 : Fin 2) * 1 + 1 * (y 0).val = (y 0).val; rw [zero_7 t 0]; omega
  | ⟨1, _⟩ => show win0_7.index t (1 : Fin 2) * 512 + 1 * (y 1).val = (y 1).val; rw [zero_7 t 1]; omega

theorem zero_8 : ∀ t : Fin cfg0.N, ∀ a : Fin 2, win0_8.index t a = 0 :=
  (by decide +kernel : ∀ t : Fin grid0.N, _)

theorem iblk_8 (c : Dev nD) (t : Fin cfg0.N) : iblk m c 8 t = V m c main_v35 := by
  funext y
  show V m c main_v35 (((cfg0.win 8).blk t).view.emb y) = V m c main_v35 y
  refine congrArg _ (funext fun a => Fin.ext ?_)
  match a with
  | ⟨0, _⟩ => show win0_8.index t (0 : Fin 2) * 1 + 1 * (y 0).val = (y 0).val; rw [zero_8 t 0]; omega
  | ⟨1, _⟩ => show win0_8.index t (1 : Fin 2) * 512 + 1 * (y 1).val = (y 1).val; rw [zero_8 t 1]; omega

theorem zero_9 : ∀ t : Fin cfg0.N, ∀ a : Fin 2, win0_9.index t a = 0 :=
  (by decide +kernel : ∀ t : Fin grid0.N, _)

theorem iblk_9 (c : Dev nD) (t : Fin cfg0.N) : iblk m c 9 t = V m c main_v36 := by
  funext y
  show V m c main_v36 (((cfg0.win 9).blk t).view.emb y) = V m c main_v36 y
  refine congrArg _ (funext fun a => Fin.ext ?_)
  match a with
  | ⟨0, _⟩ => show win0_9.index t (0 : Fin 2) * 1 + 1 * (y 0).val = (y 0).val; rw [zero_9 t 0]; omega
  | ⟨1, _⟩ => show win0_9.index t (1 : Fin 2) * 512 + 1 * (y 1).val = (y 1).val; rw [zero_9 t 1]; omega

theorem zero_10 : ∀ t : Fin cfg0.N, ∀ a : Fin 2, win0_10.index t a = 0 :=
  (by decide +kernel : ∀ t : Fin grid0.N, _)

theorem iblk_10 (c : Dev nD) (t : Fin cfg0.N) : iblk m c 10 t = V m c main_v7 := by
  funext y
  show V m c main_v7 (((cfg0.win 10).blk t).view.emb y) = V m c main_v7 y
  refine congrArg _ (funext fun a => Fin.ext ?_)
  match a with
  | ⟨0, _⟩ => show win0_10.index t (0 : Fin 2) * 512 + 1 * (y 0).val = (y 0).val; rw [zero_10 t 0]; omega
  | ⟨1, _⟩ => show win0_10.index t (1 : Fin 2) * 512 + 1 * (y 1).val = (y 1).val; rw [zero_10 t 1]; omega

theorem zero_11 : ∀ t : Fin cfg0.N, ∀ a : Fin 2, win0_11.index t a = 0 :=
  (by decide +kernel : ∀ t : Fin grid0.N, _)

theorem iblk_11 (c : Dev nD) (t : Fin cfg0.N) : iblk m c 11 t = V m c main_v28 := by
  funext y
  show V m c main_v28 (((cfg0.win 11).blk t).view.emb y) = V m c main_v28 y
  refine congrArg _ (funext fun a => Fin.ext ?_)
  match a with
  | ⟨0, _⟩ => show win0_11.index t (0 : Fin 2) * 1 + 1 * (y 0).val = (y 0).val; rw [zero_11 t 0]; omega
  | ⟨1, _⟩ => show win0_11.index t (1 : Fin 2) * 512 + 1 * (y 1).val = (y 1).val; rw [zero_11 t 1]; omega

theorem zero_12 : ∀ t : Fin cfg0.N, ∀ a : Fin 2, win0_12.index t a = 0 :=
  (by decide +kernel : ∀ t : Fin grid0.N, _)

theorem iblk_12 (c : Dev nD) (t : Fin cfg0.N) : iblk m c 12 t = V m c main_v9 := by
  funext y
  show V m c main_v9 (((cfg0.win 12).blk t).view.emb y) = V m c main_v9 y
  refine congrArg _ (funext fun a => Fin.ext ?_)
  match a with
  | ⟨0, _⟩ => show win0_12.index t (0 : Fin 2) * 512 + 1 * (y 0).val = (y 0).val; rw [zero_12 t 0]; omega
  | ⟨1, _⟩ => show win0_12.index t (1 : Fin 2) * 512 + 1 * (y 1).val = (y 1).val; rw [zero_12 t 1]; omega

theorem zero_13 : ∀ t : Fin cfg0.N, ∀ a : Fin 2, win0_13.index t a = 0 :=
  (by decide +kernel : ∀ t : Fin grid0.N, _)

theorem iblk_13 (c : Dev nD) (t : Fin cfg0.N) : iblk m c 13 t = V m c main_v29 := by
  funext y
  show V m c main_v29 (((cfg0.win 13).blk t).view.emb y) = V m c main_v29 y
  refine congrArg _ (funext fun a => Fin.ext ?_)
  match a with
  | ⟨0, _⟩ => show win0_13.index t (0 : Fin 2) * 1 + 1 * (y 0).val = (y 0).val; rw [zero_13 t 0]; omega
  | ⟨1, _⟩ => show win0_13.index t (1 : Fin 2) * 512 + 1 * (y 1).val = (y 1).val; rw [zero_13 t 1]; omega

theorem zero_14 : ∀ t : Fin cfg0.N, ∀ a : Fin 2, win0_14.index t a = 0 :=
  (by decide +kernel : ∀ t : Fin grid0.N, _)

theorem iblk_14 (c : Dev nD) (t : Fin cfg0.N) : iblk m c 14 t = V m c main_v11 := by
  funext y
  show V m c main_v11 (((cfg0.win 14).blk t).view.emb y) = V m c main_v11 y
  refine congrArg _ (funext fun a => Fin.ext ?_)
  match a with
  | ⟨0, _⟩ => show win0_14.index t (0 : Fin 2) * 512 + 1 * (y 0).val = (y 0).val; rw [zero_14 t 0]; omega
  | ⟨1, _⟩ => show win0_14.index t (1 : Fin 2) * 512 + 1 * (y 1).val = (y 1).val; rw [zero_14 t 1]; omega

theorem zero_15 : ∀ t : Fin cfg0.N, ∀ a : Fin 2, win0_15.index t a = 0 :=
  (by decide +kernel : ∀ t : Fin grid0.N, _)

theorem iblk_15 (c : Dev nD) (t : Fin cfg0.N) : iblk m c 15 t = V m c main_v30 := by
  funext y
  show V m c main_v30 (((cfg0.win 15).blk t).view.emb y) = V m c main_v30 y
  refine congrArg _ (funext fun a => Fin.ext ?_)
  match a with
  | ⟨0, _⟩ => show win0_15.index t (0 : Fin 2) * 1 + 1 * (y 0).val = (y 0).val; rw [zero_15 t 0]; omega
  | ⟨1, _⟩ => show win0_15.index t (1 : Fin 2) * 512 + 1 * (y 1).val = (y 1).val; rw [zero_15 t 1]; omega

theorem zero_16 : ∀ t : Fin cfg0.N, ∀ a : Fin 2, win0_16.index t a = 0 :=
  (by decide +kernel : ∀ t : Fin grid0.N, _)

theorem iblk_16 (c : Dev nD) (t : Fin cfg0.N) : iblk m c 16 t = V m c main_v13 := by
  funext y
  show V m c main_v13 (((cfg0.win 16).blk t).view.emb y) = V m c main_v13 y
  refine congrArg _ (funext fun a => Fin.ext ?_)
  match a with
  | ⟨0, _⟩ => show win0_16.index t (0 : Fin 2) * 512 + 1 * (y 0).val = (y 0).val; rw [zero_16 t 0]; omega
  | ⟨1, _⟩ => show win0_16.index t (1 : Fin 2) * 512 + 1 * (y 1).val = (y 1).val; rw [zero_16 t 1]; omega

theorem zero_17 : ∀ t : Fin cfg0.N, ∀ a : Fin 2, win0_17.index t a = 0 :=
  (by decide +kernel : ∀ t : Fin grid0.N, _)

theorem iblk_17 (c : Dev nD) (t : Fin cfg0.N) : iblk m c 17 t = V m c main_v31 := by
  funext y
  show V m c main_v31 (((cfg0.win 17).blk t).view.emb y) = V m c main_v31 y
  refine congrArg _ (funext fun a => Fin.ext ?_)
  match a with
  | ⟨0, _⟩ => show win0_17.index t (0 : Fin 2) * 1 + 1 * (y 0).val = (y 0).val; rw [zero_17 t 0]; omega
  | ⟨1, _⟩ => show win0_17.index t (1 : Fin 2) * 512 + 1 * (y 1).val = (y 1).val; rw [zero_17 t 1]; omega

theorem zero_18 : ∀ t : Fin cfg0.N, ∀ a : Fin 2, win0_18.index t a = 0 :=
  (by decide +kernel : ∀ t : Fin grid0.N, _)

theorem iblk_18 (c : Dev nD) (t : Fin cfg0.N) : iblk m c 18 t = V m c main_v15 := by
  funext y
  show V m c main_v15 (((cfg0.win 18).blk t).view.emb y) = V m c main_v15 y
  refine congrArg _ (funext fun a => Fin.ext ?_)
  match a with
  | ⟨0, _⟩ => show win0_18.index t (0 : Fin 2) * 512 + 1 * (y 0).val = (y 0).val; rw [zero_18 t 0]; omega
  | ⟨1, _⟩ => show win0_18.index t (1 : Fin 2) * 2000 + 1 * (y 1).val = (y 1).val; rw [zero_18 t 1]; omega

theorem zero_19 : ∀ t : Fin cfg0.N, ∀ a : Fin 2, win0_19.index t a = 0 :=
  (by decide +kernel : ∀ t : Fin grid0.N, _)

theorem iblk_19 (c : Dev nD) (t : Fin cfg0.N) : iblk m c 19 t = V m c main_v32 := by
  funext y
  show V m c main_v32 (((cfg0.win 19).blk t).view.emb y) = V m c main_v32 y
  refine congrArg _ (funext fun a => Fin.ext ?_)
  match a with
  | ⟨0, _⟩ => show win0_19.index t (0 : Fin 2) * 1 + 1 * (y 0).val = (y 0).val; rw [zero_19 t 0]; omega
  | ⟨1, _⟩ => show win0_19.index t (1 : Fin 2) * 2000 + 1 * (y 1).val = (y 1).val; rw [zero_19 t 1]; omega

theorem zero_20 : ∀ t : Fin cfg0.N, ∀ a : Fin 2, win0_20.index t a = 0 :=
  (by decide +kernel : ∀ t : Fin grid0.N, _)

theorem iblk_20 (c : Dev nD) (t : Fin cfg0.N) : iblk m c 20 t = V m c main_v24 := by
  funext y
  show V m c main_v24 (((cfg0.win 20).blk t).view.emb y) = V m c main_v24 y
  refine congrArg _ (funext fun a => Fin.ext ?_)
  match a with
  | ⟨0, _⟩ => show win0_20.index t (0 : Fin 2) * 512 + 1 * (y 0).val = (y 0).val; rw [zero_20 t 0]; omega
  | ⟨1, _⟩ => show win0_20.index t (1 : Fin 2) * 8 + 1 * (y 1).val = (y 1).val; rw [zero_20 t 1]; omega

theorem zero_21 : ∀ t : Fin cfg0.N, ∀ a : Fin 2, win0_21.index t a = 0 :=
  (by decide +kernel : ∀ t : Fin grid0.N, _)

theorem iblk_21 (c : Dev nD) (t : Fin cfg0.N) : iblk m c 21 t = V m c main_v25 := by
  funext y
  show V m c main_v25 (((cfg0.win 21).blk t).view.emb y) = V m c main_v25 y
  refine congrArg _ (funext fun a => Fin.ext ?_)
  match a with
  | ⟨0, _⟩ => show win0_21.index t (0 : Fin 2) * 8 + 1 * (y 0).val = (y 0).val; rw [zero_21 t 0]; omega
  | ⟨1, _⟩ => show win0_21.index t (1 : Fin 2) * 512 + 1 * (y 1).val = (y 1).val; rw [zero_21 t 1]; omega

/-! ## What a point writes back -/

/-- The head-indicator windows hold the indicator and its transpose (shown in `KernelWindows`). -/
structure IndicatorFacts (c : Dev nD) : Prop where
  ind : ∀ (k : Fin 512) (h : Fin 8), (V m c main_v24 : S512x8.Idx → EReal) (ix2 k h) = if headOf k = h then (1 : EReal) else 0
  indT : ∀ (h : Fin 8) (k : Fin 512), (V m c main_v25 : S8x512.Idx → EReal) (ix2 h k) = if headOf k = h then (1 : EReal) else 0

/-- The block of rows point `t` reads from a flattened batch, at local `(p, k)`: row `512 t + p`. -/
theorem rows0 (c : Dev nD) (t : Fin cfg0.N) (p k : Fin 512) (hp : t.val * 512 + p.val < 40960) :
    iblk m c 0 t (ix2 p k) = V m c main_v0 (ix2 (⟨t.val * 512 + p.val, hp⟩ : Fin 40960) k) := by
  show V m c main_v0 (((cfg0.win 0).blk t).view.emb (ix2 p k)) = _
  refine congrArg _ (funext fun a => Fin.ext ?_)
  obtain ⟨e0, e1, -⟩ := row_facts t
  match a with
  | ⟨0, _⟩ => show win0_0.index t (0 : Fin 2) * 512 + 1 * p.val = t.val * 512 + p.val; rw [e0]; omega
  | ⟨1, _⟩ => show win0_0.index t (1 : Fin 2) * 512 + 1 * k.val = k.val; rw [e1]; omega

theorem rows1 (c : Dev nD) (t : Fin cfg0.N) (p k : Fin 512) (hp : t.val * 512 + p.val < 40960) :
    iblk m c 1 t (ix2 p k) = V m c main_v1 (ix2 (⟨t.val * 512 + p.val, hp⟩ : Fin 40960) k) := by
  show V m c main_v1 (((cfg0.win 1).blk t).view.emb (ix2 p k)) = _
  refine congrArg _ (funext fun a => Fin.ext ?_)
  obtain ⟨-, -, e0, e1, -⟩ := row_facts t
  match a with
  | ⟨0, _⟩ => show win0_1.index t (0 : Fin 2) * 512 + 1 * p.val = t.val * 512 + p.val; rw [e0]; omega
  | ⟨1, _⟩ => show win0_1.index t (1 : Fin 2) * 512 + 1 * k.val = k.val; rw [e1]; omega

theorem point_lt (t : Fin cfg0.N) (p : Fin 512) : t.val * 512 + p.val < 40960 := by
  have ht : t.val < 80 := N_0 ▸ t.isLt
  have := p.isLt
  omega

/-- WHAT POINT `t` WRITES BACK is block `t` of `flat`. -/
theorem flushed_eq (c : Dev nD) (hI : IndicatorFacts m c) (t : Fin cfg0.N) :
    (dats m 0 c).flushed 22 t = ((cfg0.win 22).blk t).view.read (Elt Ideal) (flat m c) := by
  show (cfg0.win 22).cut (grid0.coords t) ((dats m 0 c).after 22 t) = _
  rw [after0_22, iblk_2 m c t, iblk_3 m c t, iblk_4 m c t, iblk_5 m c t, iblk_6 m c t, iblk_7 m c t, iblk_8 m c t, iblk_9 m c t, iblk_10 m c t, iblk_11 m c t, iblk_12 m c t, iblk_13 m c t, iblk_14 m c t, iblk_15 m c t, iblk_16 m c t, iblk_17 m c t, iblk_18 m c t, iblk_19 m c t, iblk_20 m c t, iblk_21 m c t]
  funext y
  obtain ⟨p, v, rfl⟩ : ∃ (p : Fin 512) (v : Fin 2000), y = ix2 p v := ⟨y 0, y 1, eq_ix2 y⟩
  show out0_22 (iblk m c 0 t) (iblk m c 1 t) (V m c main_v3) (V m c main_v26) (V m c main_v5) (V m c main_v27) (V m c main_v33) (V m c main_v34) (V m c main_v35) (V m c main_v36) (V m c main_v7) (V m c main_v28) (V m c main_v9) (V m c main_v29) (V m c main_v11) (V m c main_v30) (V m c main_v13) (V m c main_v31) (V m c main_v15) (V m c main_v32) (V m c main_v24) (V m c main_v25) (ix2 p v)
    = flat m c (((cfg0.win 22).blk t).view.emb (ix2 p v))
  refine (Body.out_apply (iblk m c 0 t) (iblk m c 1 t) (V m c main_v3) (V m c main_v26) (V m c main_v5) (V m c main_v27) (V m c main_v33) (V m c main_v34) (V m c main_v35) (V m c main_v36) (V m c main_v7) (V m c main_v28) (V m c main_v9) (V m c main_v29) (V m c main_v11) (V m c main_v30) (V m c main_v13) (V m c main_v31) (V m c main_v15) (V m c main_v32) (V m c main_v24) (V m c main_v25) hI.ind hI.indT p v).trans ?_
  have hrow : ((cfg0.win 22).blk t).view.emb (ix2 p v) = ix2 (⟨t.val * 512 + p.val, point_lt t p⟩ : Fin 40960) v := by
    refine funext fun a => Fin.ext ?_
    obtain ⟨-, -, -, -, e0, e1⟩ := row_facts t
    match a with
    | ⟨0, _⟩ => show win0_22.index t (0 : Fin 2) * 512 + 1 * p.val = t.val * 512 + p.val; rw [e0]; omega
    | ⟨1, _⟩ => show win0_22.index t (1 : Fin 2) * 2000 + 1 * v.val = v.val; rw [e1]; omega
  rw [hrow]
  unfold flat regionWeights
  simp only [rows0 m c t _ _ (point_lt t p), rows1 m c t _ _ (point_lt t p)]

/-! ## The blocks tile the array -/

theorem mem_blk (t : Fin cfg0.N) (i : S40960x2000.Idx) :
    i ∈ ((cfg0.win 22).blk t).view.set ↔ ∀ a : Fin 2, win0_22.index t a * S512x2000.size a ≤ (i a).val
      ∧ (i a).val < win0_22.index t a * S512x2000.size a + S512x2000.size a := by
  show i ∈ ((View.whole main_v37).slice (win0_22.rect t)).set ↔ _
  rw [View.set_slice_whole, Rect.mem_set_unit]
  exact Iff.rfl

/-- Row `r` lies in the block of point `r / 512`. -/
theorem cover (i : S40960x2000.Idx) :
    ∃ t : Fin cfg0.N, (cfg0.win 22).flush t = true ∧ i ∈ ((cfg0.win 22).blk t).view.set := by
  have hi0 : (i 0).val < 40960 := (i 0).isLt
  have hi1 : (i 1).val < 2000 := (i 1).isLt
  have ht : (i 0).val / 512 < cfg0.N := by rw [show cfg0.N = 80 from N_0]; omega
  refine ⟨⟨(i 0).val / 512, ht⟩, flush0_22 _, ?_⟩
  rw [mem_blk]
  obtain ⟨-, -, -, -, e0, e1⟩ := row_facts ⟨(i 0).val / 512, ht⟩
  intro a
  match a with
  | ⟨0, _⟩ =>
    show win0_22.index ⟨(i 0).val / 512, ht⟩ (0 : Fin 2) * 512 ≤ (i 0).val ∧ (i 0).val < win0_22.index ⟨(i 0).val / 512, ht⟩ (0 : Fin 2) * 512 + 512
    rw [e0]; show (i 0).val / 512 * 512 ≤ (i 0).val ∧ (i 0).val < (i 0).val / 512 * 512 + 512; omega
  | ⟨1, _⟩ =>
    show win0_22.index ⟨(i 0).val / 512, ht⟩ (1 : Fin 2) * 2000 ≤ (i 1).val ∧ (i 1).val < win0_22.index ⟨(i 0).val / 512, ht⟩ (1 : Fin 2) * 2000 + 2000
    rw [e1]; omega

/-- THE ARRAY after the region. -/
theorem final (c : Dev nD) (hI : IndicatorFacts m c) : (dats m 0 c).arrAt 22 cfg0.N = flat m c :=
  (dats m 0 c).arrAt_eq_of_cover 22 (flat m c) (fun t _ => flushed_eq m c hI t) cover

/-! ## Through the last reshape -/

/-- The program's result: entry `(n, t, s, v)` is `flat` at `(rowOf n t s, v)`. -/
def shaped (c : Dev nD) : S16x512x5x2000.Idx → EReal := fun i => flat m c (ix2 (rowOf (i 0) (i 1) (i 2)) (i 3))

theorem tail_eq (c : Dev nD) (hI : IndicatorFacts m c) :
    Pipeline.afterTail₀ cfgs (dats m) 0 (V0 m) [hostOps1] c main_v38 = shaped m c := by
  unfold Pipeline.afterTail₀
  show StableHlo.after hostOps1 _ (Proc.devRef .tc main_v38) = _
  after_results
  rw [show Pipeline.withArrays spec0 c (V0 m c) (fun w => (dats m 0 c).arrAt w cfg0.N) (Proc.devRef .tc main_v37) = flat m c from
    (Pipeline.withArrays_arr spec0 launch0.win.arr_inj c _ _ 22).trans (final m c hI)]
  funext i
  obtain ⟨n, t, s, v, rfl⟩ : ∃ (n : Fin 16) (t : Fin 512) (s : Fin 5) (v : Fin 2000), i = ix4 n t s v :=
    ⟨i 0, i 1, i 2, i 3, eq_ix4 i⟩
  refine shapeCast_apply _ _ _ _ ?_
  show ((⟨2, ![40960, 2000]⟩ : Shape).rowMajor (ix2 (rowOf n t s) v)).val
    = ((⟨4, ![16, 512, 5, 2000]⟩ : Shape).rowMajor (ix4 n t s v)).val
  rw [Shape.rowMajor_val_two, Shape.rowMajor_val_four]
  show ((n.val * 512 + t.val) * 5 + s.val) * 2000 + v.val = ((n.val * 512 + t.val) * 5 + s.val) * 2000 + v.val
  rfl

/-- The kernel program's run: its result is `shaped`, and the argument arrays end as they were. -/
theorem run (hI : ∀ c, IndicatorFacts m c) :
    θ_run defs (onTc (τ := τ) (main (F := Ideal))) ⟨m, fun _ => 0, ρ⟩ fun r => ∀ c : Dev nD,
      r.2.mem ((c.tc : Thread nD τ).loc main_v38) = shaped m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19) :=
  (θ_run defs _ _).mono (fun r h c => ⟨
      ((h c).2 main_v38 (Pipeline.mem_restRefs_of main_v38 (by decide) (by decide))).trans (tail_eq m c (hI c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c),
      ((h c).2 main_arg12 (Pipeline.mem_restRefs_of main_arg12 (by decide) (by decide))).trans (W_main_arg12 m (dats m) c),
      ((h c).2 main_arg13 (Pipeline.mem_restRefs_of main_arg13 (by decide) (by decide))).trans (W_main_arg13 m (dats m) c),
      ((h c).2 main_arg14 (Pipeline.mem_restRefs_of main_arg14 (by decide) (by decide))).trans (W_main_arg14 m (dats m) c),
      ((h c).2 main_arg15 (Pipeline.mem_restRefs_of main_arg15 (by decide) (by decide))).trans (W_main_arg15 m (dats m) c),
      ((h c).2 main_arg16 (Pipeline.mem_restRefs_of main_arg16 (by decide) (by decide))).trans (W_main_arg16 m (dats m) c),
      ((h c).2 main_arg17 (Pipeline.mem_restRefs_of main_arg17 (by decide) (by decide))).trans (W_main_arg17 m (dats m) c),
      ((h c).2 main_arg18 (Pipeline.mem_restRefs_of main_arg18 (by decide) (by decide))).trans (W_main_arg18 m (dats m) c),
      ((h c).2 main_arg19 (Pipeline.mem_restRefs_of main_arg19 (by decide) (by decide))).trans (W_main_arg19 m (dats m) c)⟩)
    (run_main m ρ)

end Cert.Joiner.KValue

end
-- ==== Proof.KernelWindows.lean ====
/-
  What the region finds in its twenty-two input windows, as functions of the argument arrays.

  Before the region the program only rearranges its arguments: the two batches `[16, 512, 5, 512]` are flattened
  row-major to `[40960, 512]`; the seven weight matrices are transposed (and narrowed to a shorter float format,
  which on the extended reals is the identity); the eleven vectors become one-row matrices.  The two remaining
  windows hold no argument at all: the `512 × 8` matrix with a one where column `k` lies in head `h`, built from
  the column numbers `0 … 511`, their floor quotient by 64 and a comparison with the head numbers `0 … 7`, and its
  transpose.

  The floor quotient is spelt as the quotient rounded towards zero, lowered by one where the signs of dividend and
  divisor differ and the remainder is not zero.  For a dividend `0 ≤ k < 512` and the divisor 64 the signs differ
  only for `k = 0`, whose remainder is zero, so the correction is never taken and the quotient is `k / 64` of the
  naturals.
-/
import proofs.«170326_j47407849013430_1_alg».proof.Proof.Gen.KernelIdeal.Frame
import proofs.«170326_j47407849013430_1_alg».proof.Proof.Joiner
import proofs.«170326_j47407849013430_1_alg».proof.Proof.LibRowOps
import Idealize.ShloMosaic.Lib.StableHlo.Run
import Idealize.ShloMosaic.Lib.ValueLayout
import Idealize.ShloMosaic.Lib.IdealHost
import Idealize.ShloMosaic.Lib.Affine

set_option maxRecDepth 16384

noncomputable section

namespace Cert.Joiner.Windows

open Cert.KernelIdeal Cert.KernelIdeal.Gen Idealize.ShloMosaic Idealize.ShloMosaic.ValueIdx Idealize.ShloMosaic.StableHlo
open Cert.Joiner

/-! ## Words: the floor quotient by 64 of a word below 512 -/

/-- A one-bit word that is not one is zero. -/
theorem bit_eq_zero_of_ne_one (b : BitVec 1) (h : ¬b = 1#1) : b = 0#1 := by
  revert b; decide

/-- The sign word: 0 for zero, -1 for a negative word, 1 for a positive one. -/
abbrev sgn (x : BitVec 32) : BitVec 32 := if x = 0 then 0 else if x.msb then -1 else 1

theorem toNat_word (k : ℕ) (hk : k < 512) : (BitVec.ofNat 32 k).toNat = k := by
  rw [BitVec.toNat_ofNat]; omega

/-- The signed quotient by 64 of a word below 512 is the quotient of the naturals. -/
theorem divsi_64 (u : ArithUnit) (k : ℕ) (hk : k < 512) :
    IntOp.divsi u (BitVec.ofNat 32 k) 64#32 = BitVec.ofNat 32 (k / 64) := by
  have hx := toNat_word k hk
  have hm : (BitVec.ofNat 32 k).msb = false := by rw [BitVec.msb_eq_false_iff_two_mul_lt, hx]; omega
  have hd : (64#32 : BitVec 32).msb = false := by decide
  rw [IntOp.divsi, if_neg (IntOp.not_corner_of_pos (by decide)), BitVec.sdiv_eq, hm, hd]
  dsimp only
  rw [BitVec.udiv_eq]
  apply BitVec.eq_of_toNat_eq
  rw [BitVec.toNat_udiv, hx, BitVec.toNat_ofNat]
  show k / 64 = (k / 64) % 2 ^ 32
  omega

/-- The lowering of the quotient towards the floor is never taken for a word below 512 divided by 64: the
    dividend's sign differs from the divisor's only when the dividend is zero, and then the remainder is zero. -/
theorem floor_fix_never (u : ArithUnit) (k : ℕ) (hk : k < 512) :
    IntOp.andi (IntOp.cmpi .ne (sgn (BitVec.ofNat 32 k)) (sgn 64#32))
      (IntOp.cmpi .ne (IntOp.remsi u (BitVec.ofNat 32 k) 64#32) 0#32) = 0#1 := by
  have hx := toNat_word k hk
  apply bit_eq_zero_of_ne_one
  rw [IntOp.andi_eq_one, IntOp.cmpi_ne, IntOp.cmpi_ne]
  rintro ⟨h1, h2⟩
  have h3 : ¬ 64 ∣ k := by
    intro hdvd
    apply h2
    exact (IntOp.remsi_eq_zero_iff u (x := BitVec.ofNat 32 k) (by rw [hx]; omega) 64 (by omega) (by omega)).2
      (by rw [hx]; exact hdvd)
  have hk0 : k ≠ 0 := by rintro rfl; exact h3 (dvd_zero _)
  apply h1
  have hne : BitVec.ofNat 32 k ≠ 0 := by
    intro h0
    have := congrArg BitVec.toNat h0
    rw [hx] at this
    exact hk0 this
  have hm : (BitVec.ofNat 32 k).msb = false := by rw [BitVec.msb_eq_false_iff_two_mul_lt, hx]; omega
  show (if BitVec.ofNat 32 k = 0 then (0 : BitVec 32) else if (BitVec.ofNat 32 k).msb then -1 else 1) = sgn 64#32
  rw [if_neg hne, hm]
  decide

/-- An equality test of two words, converted unsigned to a float, is 1 where the words agree and 0 elsewhere. -/
theorem uitofp_cmpi_eq (φ : FTy) (a b : BitVec 32) :
    (FloatOps.uitofp (F := Ideal) φ (IntOp.cmpi .eq a b) : EReal) = if a = b then 1 else 0 := by
  show (((IntOp.cmpi .eq a b).toNat : ℝ) : EReal) = _
  unfold IntOp.cmpi
  by_cases h : a = b
  · simp [h]
  · simp [h]

theorem ofNat_eq_iff (a b : ℕ) (ha : a < 8) (hb : b < 8) : BitVec.ofNat 32 a = BitVec.ofNat 32 b ↔ a = b := by
  constructor
  · intro h
    have := congrArg BitVec.toNat h
    rw [BitVec.toNat_ofNat, BitVec.toNat_ofNat] at this
    omega
  · rintro rfl; rfl

/-! ## The three layout steps, read at an index -/

/-- The batch `[16, 512, 5, 512]` flattened to `[40960, 512]` has frame `(n, t, s)` as its row `rowOf n t s`. -/
theorem flat_row_apply {α : Type} (x : (⟨4, ![16, 512, 5, 512]⟩ : Shape).Idx → α)
    (h : (⟨4, ![16, 512, 5, 512]⟩ : Shape).ShapeCasts ⟨2, ![40960, 512]⟩) (n : Fin 16) (t : Fin 512) (s : Fin 5) (k : Fin 512) :
    shapeCast ⟨2, ![40960, 512]⟩ x h (ix2 (rowOf n t s) k) = x (ix4 n t s k) :=
  shapeCast_apply x h _ _ (by
    rw [Shape.rowMajor_val_four, Shape.rowMajor_val_two]
    rfl)

/-- A matrix transposed and then narrowed to a shorter float format reads, at `(j, i)`, the matrix at `(i, j)`:
    on the extended reals the narrowing is the identity. -/
theorem transposed_apply {a b : ℕ} (x : FVec Ideal ⟨2, ![a, b]⟩ .f32)
    (h : (⟨2, ![a, b]⟩ : Shape).Transposes [1, 0] ⟨2, ![b, a]⟩) (hb : FTy.bf16.bits < FTy.f32.bits) (j : Fin b) (i : Fin a) :
    (truncf .bf16 (transpose ⟨2, ![b, a]⟩ [1, 0] x h) hb : FVec Ideal ⟨2, ![b, a]⟩ .bf16) (ix2 j i) = x (ix2 i j) :=
  transpose_ix2_apply x h j i

variable (m : (ℓ : Loc nD τ sig) → Buf (Elt Ideal) ℓ) (c : Dev nD)

/-! ## The two batches, flattened -/

/-- Row `rowOf n t s` of the flattened encoder batch is frame `(n, t, s)` of the argument array. -/
theorem encoderRows (n : Fin 16) (t : Fin 512) (s : Fin 5) (k : Fin 512) :
    (V m c main_v0 : S40960x512.Idx → EReal) (ix2 (rowOf n t s) k)
      = (m ((c.tc : Thread nD τ).loc main_arg0) : S16x512x5x512.Idx → EReal) (ix4 n t s k) := by
  have e : (V m c main_v0 : S40960x512.Idx → EReal)
      = shapeCast S40960x512 (m ((c.tc : Thread nD τ).loc main_arg0) : S16x512x5x512.Idx → EReal) shapeCasts_S16x512x5x512_S40960x512 := by
    dsimp only [Gen.V, Gen.V0]
    simp only [Gen.hostOps0, Gen.hostOps0_1, Gen.hostOps0_2, List.flatten_cons, List.flatten_nil, List.append_nil, List.cons_append, List.nil_append]
    after_results
    rfl
  exact (congrFun e _).trans (flat_row_apply _ _ n t s k)

/-- Row `rowOf n t s` of the flattened decoder batch is frame `(n, t, s)` of the argument array. -/
theorem decoderRows (n : Fin 16) (t : Fin 512) (s : Fin 5) (k : Fin 512) :
    (V m c main_v1 : S40960x512.Idx → EReal) (ix2 (rowOf n t s) k)
      = (m ((c.tc : Thread nD τ).loc main_arg1) : S16x512x5x512.Idx → EReal) (ix4 n t s k) := by
  have e : (V m c main_v1 : S40960x512.Idx → EReal)
      = shapeCast S40960x512 (m ((c.tc : Thread nD τ).loc main_arg1) : S16x512x5x512.Idx → EReal) shapeCasts_S16x512x5x512_S40960x512 := by
    dsimp only [Gen.V, Gen.V0]
    simp only [Gen.hostOps0, Gen.hostOps0_1, Gen.hostOps0_2, List.flatten_cons, List.flatten_nil, List.append_nil, List.cons_append, List.nil_append]
    after_results
    rfl
  exact (congrFun e _).trans (flat_row_apply _ _ n t s k)

/-! ## The seven weight matrices, transposed -/

theorem encoderWeight (k j : Fin 512) :
    (V m c main_v3 : S512x512.Idx → EReal) (ix2 k j) = (m ((c.tc : Thread nD τ).loc main_arg2) : S512x512.Idx → EReal) (ix2 j k) := by
  have e : (V m c main_v3 : S512x512.Idx → EReal)
      = truncf (F := Ideal) .bf16 (transpose S512x512 [1, 0] (m ((c.tc : Thread nD τ).loc main_arg2) : FVec Ideal S512x512 .f32) transposes_S512x512_S512x512_1_0) bitsLt_bf16_f32 := by
    dsimp only [Gen.V, Gen.V0]
    simp only [Gen.hostOps0, Gen.hostOps0_1, Gen.hostOps0_2, List.flatten_cons, List.flatten_nil, List.append_nil, List.cons_append, List.nil_append]
    after_results
  exact (congrFun e _).trans (transposed_apply _ _ _ k j)

theorem decoderWeight (k j : Fin 512) :
    (V m c main_v5 : S512x512.Idx → EReal) (ix2 k j) = (m ((c.tc : Thread nD τ).loc main_arg4) : S512x512.Idx → EReal) (ix2 j k) := by
  have e : (V m c main_v5 : S512x512.Idx → EReal)
      = truncf (F := Ideal) .bf16 (transpose S512x512 [1, 0] (m ((c.tc : Thread nD τ).loc main_arg4) : FVec Ideal S512x512 .f32) transposes_S512x512_S512x512_1_0) bitsLt_bf16_f32 := by
    dsimp only [Gen.V, Gen.V0]
    simp only [Gen.hostOps0, Gen.hostOps0_1, Gen.hostOps0_2, List.flatten_cons, List.flatten_nil, List.append_nil, List.cons_append, List.nil_append]
    after_results
  exact (congrFun e _).trans (transposed_apply _ _ _ k j)

theorem queryWeight (k j : Fin 512) :
    (V m c main_v7 : S512x512.Idx → EReal) (ix2 k j) = (m ((c.tc : Thread nD τ).loc main_arg10) : S512x512.Idx → EReal) (ix2 j k) := by
  have e : (V m c main_v7 : S512x512.Idx → EReal)
      = truncf (F := Ideal) .bf16 (transpose S512x512 [1, 0] (m ((c.tc : Thread nD τ).loc main_arg10) : FVec Ideal S512x512 .f32) transposes_S512x512_S512x512_1_0) bitsLt_bf16_f32 := by
    dsimp only [Gen.V, Gen.V0]
    simp only [Gen.hostOps0, Gen.hostOps0_1, Gen.hostOps0_2, List.flatten_cons, List.flatten_nil, List.append_nil, List.cons_append, List.nil_append]
    after_results
  exact (congrFun e _).trans (transposed_apply _ _ _ k j)

theorem keyWeight (k j : Fin 512) :
    (V m c main_v9 : S512x512.Idx → EReal) (ix2 k j) = (m ((c.tc : Thread nD τ).loc main_arg12) : S512x512.Idx → EReal) (ix2 j k) := by
  have e : (V m c main_v9 : S512x512.Idx → EReal)
      = truncf (F := Ideal) .bf16 (transpose S512x512 [1, 0] (m ((c.tc : Thread nD τ).loc main_arg12) : FVec Ideal S512x512 .f32) transposes_S512x512_S512x512_1_0) bitsLt_bf16_f32 := by
    dsimp only [Gen.V, Gen.V0]
    simp only [Gen.hostOps0, Gen.hostOps0_1, Gen.hostOps0_2, List.flatten_cons, List.flatten_nil, List.append_nil, List.cons_append, List.nil_append]
    after_results
  exact (congrFun e _).trans (transposed_apply _ _ _ k j)

theorem valueWeight (k j : Fin 512) :
    (V m c main_v11 : S512x512.Idx → EReal) (ix2 k j) = (m ((c.tc : Thread nD τ).loc main_arg14) : S512x512.Idx → EReal) (ix2 j k) := by
  have e : (V m c main_v11 : S512x512.Idx → EReal)
      = truncf (F := Ideal) .bf16 (transpose S512x512 [1, 0] (m ((c.tc : Thread nD τ).loc main_arg14) : FVec Ideal S512x512 .f32) transposes_S512x512_S512x512_1_0) bitsLt_bf16_f32 := by
    dsimp only [Gen.V, Gen.V0]
    simp only [Gen.hostOps0, Gen.hostOps0_1, Gen.hostOps0_2, List.flatten_cons, List.flatten_nil, List.append_nil, List.cons_append, List.nil_append]
    after_results
  exact (congrFun e _).trans (transposed_apply _ _ _ k j)

theorem contextWeight (k j : Fin 512) :
    (V m c main_v13 : S512x512.Idx → EReal) (ix2 k j) = (m ((c.tc : Thread nD τ).loc main_arg16) : S512x512.Idx → EReal) (ix2 j k) := by
  have e : (V m c main_v13 : S512x512.Idx → EReal)
      = truncf (F := Ideal) .bf16 (transpose S512x512 [1, 0] (m ((c.tc : Thread nD τ).loc main_arg16) : FVec Ideal S512x512 .f32) transposes_S512x512_S512x512_1_0) bitsLt_bf16_f32 := by
    dsimp only [Gen.V, Gen.V0]
    simp only [Gen.hostOps0, Gen.hostOps0_1, Gen.hostOps0_2, List.flatten_cons, List.flatten_nil, List.append_nil, List.cons_append, List.nil_append]
    after_results
  exact (congrFun e _).trans (transposed_apply _ _ _ k j)

theorem logitWeight (k : Fin 512) (v : Fin 2000) :
    (V m c main_v15 : S512x2000.Idx → EReal) (ix2 k v) = (m ((c.tc : Thread nD τ).loc main_arg18) : S2000x512.Idx → EReal) (ix2 v k) := by
  have e : (V m c main_v15 : S512x2000.Idx → EReal)
      = truncf (F := Ideal) .bf16 (transpose S512x2000 [1, 0] (m ((c.tc : Thread nD τ).loc main_arg18) : FVec Ideal S2000x512 .f32) transposes_S2000x512_S512x2000_1_0) bitsLt_bf16_f32 := by
    dsimp only [Gen.V, Gen.V0]
    simp only [Gen.hostOps0, Gen.hostOps0_1, Gen.hostOps0_2, List.flatten_cons, List.flatten_nil, List.append_nil, List.cons_append, List.nil_append]
    after_results
  exact (congrFun e _).trans (transposed_apply _ _ _ k v)

/-! ## The eleven vectors, as one-row matrices -/

theorem encoderBias (j : Fin 512) :
    (V m c main_v26 : S1x512.Idx → EReal) (ix2 (0 : Fin 1) j) = (m ((c.tc : Thread nD τ).loc main_arg3) : S512.Idx → EReal) (ix1 j) := by
  have e : (V m c main_v26 : S1x512.Idx → EReal)
      = shapeCast S1x512 (m ((c.tc : Thread nD τ).loc main_arg3) : S512.Idx → EReal) shapeCasts_S512_S1x512 := by
    dsimp only [Gen.V, Gen.V0]
    simp only [Gen.hostOps0, Gen.hostOps0_1, Gen.hostOps0_2, List.flatten_cons, List.flatten_nil, List.append_nil, List.cons_append, List.nil_append]
    after_results
    rfl
  exact (congrFun e _).trans (shapeCast_a_1a_apply _ _ (0 : Fin 1) j)

theorem decoderBias (j : Fin 512) :
    (V m c main_v27 : S1x512.Idx → EReal) (ix2 (0 : Fin 1) j) = (m ((c.tc : Thread nD τ).loc main_arg5) : S512.Idx → EReal) (ix1 j) := by
  have e : (V m c main_v27 : S1x512.Idx → EReal)
      = shapeCast S1x512 (m ((c.tc : Thread nD τ).loc main_arg5) : S512.Idx → EReal) shapeCasts_S512_S1x512 := by
    dsimp only [Gen.V, Gen.V0]
    simp only [Gen.hostOps0, Gen.hostOps0_1, Gen.hostOps0_2, List.flatten_cons, List.flatten_nil, List.append_nil, List.cons_append, List.nil_append]
    after_results
    rfl
  exact (congrFun e _).trans (shapeCast_a_1a_apply _ _ (0 : Fin 1) j)

theorem queryNormGain (j : Fin 512) :
    (V m c main_v33 : S1x512.Idx → EReal) (ix2 (0 : Fin 1) j) = (m ((c.tc : Thread nD τ).loc main_arg6) : S512.Idx → EReal) (ix1 j) := by
  have e : (V m c main_v33 : S1x512.Idx → EReal)
      = shapeCast S1x512 (m ((c.tc : Thread nD τ).loc main_arg6) : S512.Idx → EReal) shapeCasts_S512_S1x512 := by
    dsimp only [Gen.V, Gen.V0]
    simp only [Gen.hostOps0, Gen.hostOps0_1, Gen.hostOps0_2, List.flatten_cons, List.flatten_nil, List.append_nil, List.cons_append, List.nil_append]
    after_results
    rfl
  exact (congrFun e _).trans (shapeCast_a_1a_apply _ _ (0 : Fin 1) j)

theorem queryNormOffset (j : Fin 512) :
    (V m c main_v34 : S1x512.Idx → EReal) (ix2 (0 : Fin 1) j) = (m ((c.tc : Thread nD τ).loc main_arg7) : S512.Idx → EReal) (ix1 j) := by
  have e : (V m c main_v34 : S1x512.Idx → EReal)
      = shapeCast S1x512 (m ((c.tc : Thread nD τ).loc main_arg7) : S512.Idx → EReal) shapeCasts_S512_S1x512 := by
    dsimp only [Gen.V, Gen.V0]
    simp only [Gen.hostOps0, Gen.hostOps0_1, Gen.hostOps0_2, List.flatten_cons, List.flatten_nil, List.append_nil, List.cons_append, List.nil_append]
    after_results
    rfl
  exact (congrFun e _).trans (shapeCast_a_1a_apply _ _ (0 : Fin 1) j)

theorem keyValueNormGain (j : Fin 512) :
    (V m c main_v35 : S1x512.Idx → EReal) (ix2 (0 : Fin 1) j) = (m ((c.tc : Thread nD τ).loc main_arg8) : S512.Idx → EReal) (ix1 j) := by
  have e : (V m c main_v35 : S1x512.Idx → EReal)
      = shapeCast S1x512 (m ((c.tc : Thread nD τ).loc main_arg8) : S512.Idx → EReal) shapeCasts_S512_S1x512 := by
    dsimp only [Gen.V, Gen.V0]
    simp only [Gen.hostOps0, Gen.hostOps0_1, Gen.hostOps0_2, List.flatten_cons, List.flatten_nil, List.append_nil, List.cons_append, List.nil_append]
    after_results
    rfl
  exact (congrFun e _).trans (shapeCast_a_1a_apply _ _ (0 : Fin 1) j)

theorem keyValueNormOffset (j : Fin 512) :
    (V m c main_v36 : S1x512.Idx → EReal) (ix2 (0 : Fin 1) j) = (m ((c.tc : Thread nD τ).loc main_arg9) : S512.Idx → EReal) (ix1 j) := by
  have e : (V m c main_v36 : S1x512.Idx → EReal)
      = shapeCast S1x512 (m ((c.tc : Thread nD τ).loc main_arg9) : S512.Idx → EReal) shapeCasts_S512_S1x512 := by
    dsimp only [Gen.V, Gen.V0]
    simp only [Gen.hostOps0, Gen.hostOps0_1, Gen.hostOps0_2, List.flatten_cons, List.flatten_nil, List.append_nil, List.cons_append, List.nil_append]
    after_results
    rfl
  exact (congrFun e _).trans (shapeCast_a_1a_apply _ _ (0 : Fin 1) j)

theorem queryBias (j : Fin 512) :
    (V m c main_v28 : S1x512.Idx → EReal) (ix2 (0 : Fin 1) j) = (m ((c.tc : Thread nD τ).loc main_arg11) : S512.Idx → EReal) (ix1 j) := by
  have e : (V m c main_v28 : S1x512.Idx → EReal)
      = shapeCast S1x512 (m ((c.tc : Thread nD τ).loc main_arg11) : S512.Idx → EReal) shapeCasts_S512_S1x512 := by
    dsimp only [Gen.V, Gen.V0]
    simp only [Gen.hostOps0, Gen.hostOps0_1, Gen.hostOps0_2, List.flatten_cons, List.flatten_nil, List.append_nil, List.cons_append, List.nil_append]
    after_results
    rfl
  exact (congrFun e _).trans (shapeCast_a_1a_apply _ _ (0 : Fin 1) j)

theorem keyBias (j : Fin 512) :
    (V m c main_v29 : S1x512.Idx → EReal) (ix2 (0 : Fin 1) j) = (m ((c.tc : Thread nD τ).loc main_arg13) : S512.Idx → EReal) (ix1 j) := by
  have e : (V m c main_v29 : S1x512.Idx → EReal)
      = shapeCast S1x512 (m ((c.tc : Thread nD τ).loc main_arg13) : S512.Idx → EReal) shapeCasts_S512_S1x512 := by
    dsimp only [Gen.V, Gen.V0]
    simp only [Gen.hostOps0, Gen.hostOps0_1, Gen.hostOps0_2, List.flatten_cons, List.flatten_nil, List.append_nil, List.cons_append, List.nil_append]
    after_results
    rfl
  exact (congrFun e _).trans (shapeCast_a_1a_apply _ _ (0 : Fin 1) j)

theorem valueBias (j : Fin 512) :
    (V m c main_v30 : S1x512.Idx → EReal) (ix2 (0 : Fin 1) j) = (m ((c.tc : Thread nD τ).loc main_arg15) : S512.Idx → EReal) (ix1 j) := by
  have e : (V m c main_v30 : S1x512.Idx → EReal)
      = shapeCast S1x512 (m ((c.tc : Thread nD τ).loc main_arg15) : S512.Idx → EReal) shapeCasts_S512_S1x512 := by
    dsimp only [Gen.V, Gen.V0]
    simp only [Gen.hostOps0, Gen.hostOps0_1, Gen.hostOps0_2, List.flatten_cons, List.flatten_nil, List.append_nil, List.cons_append, List.nil_append]
    after_results
    rfl
  exact (congrFun e _).trans (shapeCast_a_1a_apply _ _ (0 : Fin 1) j)

theorem contextBias (j : Fin 512) :
    (V m c main_v31 : S1x512.Idx → EReal) (ix2 (0 : Fin 1) j) = (m ((c.tc : Thread nD τ).loc main_arg17) : S512.Idx → EReal) (ix1 j) := by
  have e : (V m c main_v31 : S1x512.Idx → EReal)
      = shapeCast S1x512 (m ((c.tc : Thread nD τ).loc main_arg17) : S512.Idx → EReal) shapeCasts_S512_S1x512 := by
    dsimp only [Gen.V, Gen.V0]
    simp only [Gen.hostOps0, Gen.hostOps0_1, Gen.hostOps0_2, List.flatten_cons, List.flatten_nil, List.append_nil, List.cons_append, List.nil_append]
    after_results
    rfl
  exact (congrFun e _).trans (shapeCast_a_1a_apply _ _ (0 : Fin 1) j)

theorem logitBias (j : Fin 2000) :
    (V m c main_v32 : S1x2000.Idx → EReal) (ix2 (0 : Fin 1) j) = (m ((c.tc : Thread nD τ).loc main_arg19) : S2000.Idx → EReal) (ix1 j) := by
  have e : (V m c main_v32 : S1x2000.Idx → EReal)
      = shapeCast S1x2000 (m ((c.tc : Thread nD τ).loc main_arg19) : S2000.Idx → EReal) shapeCasts_S2000_S1x2000 := by
    dsimp only [Gen.V, Gen.V0]
    simp only [Gen.hostOps0, Gen.hostOps0_1, Gen.hostOps0_2, List.flatten_cons, List.flatten_nil, List.append_nil, List.cons_append, List.nil_append]
    after_results
    rfl
  exact (congrFun e _).trans (shapeCast_a_1a_apply _ _ (0 : Fin 1) j)

/-! ## The head indicator -/

/-- The column numbers `0 … 511`, as a column of words. -/
def colWord : S512x1.Idx → BitVec 32 := broadcastInDim S512x1 ![0] bcast_S512_S512x1_0 (iotaInDim S512 32 0)

/-- The divisor 64 at every entry of the column. -/
def c64 : S512x1.Idx → BitVec 32 := broadcastInDim (s := S_) S512x1 ![] bcast_S_S512x1 (id (constantI S_ 32 64#32))

/-- The quotient rounded towards zero. -/
def truncQuot : S512x1.Idx → BitVec 32 := Host.divsi colWord c64

/-- Where the floor lies below the quotient rounded towards zero: the signs differ and the remainder is not zero. -/
def needsFix : S512x1.Idx → BitVec 1 :=
  andi (cmpi .ne (signi colWord) (broadcastInDim (s := S_) S512x1 ![] bcast_S_S512x1 (signi (id (constantI S_ 32 64#32)))))
    (cmpi .ne (Host.remsi colWord c64) (broadcastInDim (s := S_) S512x1 ![] bcast_S_S512x1 (constantI S_ 32 0#32)))

/-- The floor quotient, as the program spells it. -/
def floorQuot : S512x1.Idx → BitVec 32 :=
  select needsFix (subi truncQuot (broadcastInDim (s := S_) S512x1 ![] bcast_S_S512x1 (constantI S_ 32 1#32))) truncQuot

/-- The head numbers `0 … 7` along every row. -/
def headWord : S512x8.Idx → BitVec 32 :=
  broadcastInDim S512x8 ![0, 1] bcast_S1x8_S512x8_0_1 (broadcastInDim S1x8 ![1] bcast_S8_S1x8_1 (iotaInDim S8 32 0))

/-- The indicator matrix, as the program spells it: the floor quotient of the column number compared with the head
    number, the outcome converted to a float. -/
def indicator : S512x8.Idx → EReal :=
  uitofp (F := Ideal) .bf16 (cmpi .eq (broadcastInDim S512x8 ![0, 1] bcast_S512x1_S512x8_0_1 floorQuot) headWord)

theorem colWord_apply (k : Fin 512) (u : Fin 1) : colWord (ix2 k u) = BitVec.ofNat 32 k.val :=
  LibRowOps.broadcastInDim_a_a1_apply bcast_S512_S512x1_0 (iotaInDim S512 32 0) k u

/-- The floor quotient of column `k` is `k / 64`. -/
theorem floorQuot_apply (k : Fin 512) (u : Fin 1) : floorQuot (ix2 k u) = BitVec.ofNat 32 (k.val / 64) := by
  show Scalar.select
      (IntOp.andi (IntOp.cmpi .ne (sgn (colWord (ix2 k u))) (sgn 64#32))
        (IntOp.cmpi .ne (IntOp.remsi .host (colWord (ix2 k u)) 64#32) 0#32))
      (IntOp.subi (IntOp.divsi .host (colWord (ix2 k u)) 64#32) 1#32)
      (IntOp.divsi .host (colWord (ix2 k u)) 64#32) = _
  rw [colWord_apply, floor_fix_never .host k.val k.isLt, select_zero, divsi_64 .host k.val k.isLt]

theorem headWord_apply (k : Fin 512) (h : Fin 8) : headWord (ix2 k h) = BitVec.ofNat 32 h.val :=
  (LibRowOps.broadcastInDim_1b_ab_apply bcast_S1x8_S512x8_0_1 _ k h).trans
    (LibRowOps.broadcastInDim_b_1b_apply bcast_S8_S1x8_1 (iotaInDim S8 32 0) (0 : Fin 1) h)

/-- The indicator is 1 where column `k` lies in head `h` and 0 elsewhere. -/
theorem indicator_apply (k : Fin 512) (h : Fin 8) : indicator (ix2 k h) = if headOf k = h then (1 : EReal) else 0 := by
  have hiff : BitVec.ofNat 32 (k.val / 64) = BitVec.ofNat 32 h.val ↔ headOf k = h := by
    rw [ofNat_eq_iff _ _ (by have := k.isLt; omega) h.isLt, Fin.ext_iff]
    rfl
  show FloatOps.uitofp (F := Ideal) .bf16
      (IntOp.cmpi .eq (broadcastInDim S512x8 ![0, 1] bcast_S512x1_S512x8_0_1 floorQuot (ix2 k h)) (headWord (ix2 k h))) = _
  rw [LibRowOps.broadcastInDim_a1_ab_apply, floorQuot_apply, headWord_apply, uitofp_cmpi_eq]
  exact if_congr hiff rfl rfl

set_option maxHeartbeats 1000000 in
/-- The window of the head indicator: a one where column `k` lies in head `h`. -/
theorem headIndicator (k : Fin 512) (h : Fin 8) :
    (V m c main_v24 : S512x8.Idx → EReal) (ix2 k h) = if headOf k = h then (1 : EReal) else 0 := by
  have e : (V m c main_v24 : S512x8.Idx → EReal) = indicator := by
    dsimp only [Gen.V, Gen.V0]
    simp only [Gen.hostOps0, Gen.hostOps0_1, Gen.hostOps0_2, List.flatten_cons, List.flatten_nil, List.append_nil, List.cons_append, List.nil_append]
    after_results_simp
    rfl
  exact (congrFun e _).trans (indicator_apply k h)

set_option maxHeartbeats 1000000 in
/-- The window of the transposed head indicator. -/
theorem headIndicatorT (h : Fin 8) (k : Fin 512) :
    (V m c main_v25 : S8x512.Idx → EReal) (ix2 h k) = if headOf k = h then (1 : EReal) else 0 := by
  have e : (V m c main_v25 : S8x512.Idx → EReal) = transpose S8x512 [1, 0] indicator transposes_S512x8_S8x512_1_0 := by
    dsimp only [Gen.V, Gen.V0]
    simp only [Gen.hostOps0, Gen.hostOps0_1, Gen.hostOps0_2, List.flatten_cons, List.flatten_nil, List.append_nil, List.cons_append, List.nil_append]
    after_results_simp
    rfl
  exact (congrFun e _).trans ((transpose_ix2_apply indicator transposes_S512x8_S8x512_1_0 h k).trans (indicator_apply k h))

end Cert.Joiner.Windows

end
-- ==== Proof.KernelBridge.lean ====
/-
  The kernel program's result as a function of its argument arrays.

  The region's arrays are rearrangements of the arguments (`KernelWindows`): a weight window holds its argument
  matrix transposed, and the body reads it transposed again, so the weights the body computes with are the
  arguments' own; row `rowOf n t s` of a flattened batch is frame `(n, t, s)`.  Hence the program's result, the
  reshaped array of `KernelValue`, is `Joiner.result` of the twenty argument arrays.
-/
import proofs.«170326_j47407849013430_1_alg».proof.Proof.KernelValue
import proofs.«170326_j47407849013430_1_alg».proof.Proof.KernelWindows

noncomputable section

namespace Cert.Joiner.Bridge

open Idealize.ShloMosaic Idealize.ShloMosaic.TcCoe Idealize.ShloMosaic.ValueIdx
open Idealize.SL.Sem Cert.KernelIdeal Cert.KernelIdeal.Gen Cert.Joiner

variable (m : (ℓ : Loc nD τ sig) → Buf (Elt Ideal) ℓ) (ρ : Dev nD → PrngReg)

theorem indicatorFacts (c : Dev nD) : KValue.IndicatorFacts m c :=
  ⟨Windows.headIndicator m c, Windows.headIndicatorT m c⟩

/-- Two weight records with equal components are equal. -/
theorem weights_ext (P Q : Weights) (h0 : P.We = Q.We) (h1 : P.be = Q.be) (h2 : P.Wd = Q.Wd) (h3 : P.bd = Q.bd) (h4 : P.gq = Q.gq) (h5 : P.βq = Q.βq) (h6 : P.gkv = Q.gkv) (h7 : P.βkv = Q.βkv) (h8 : P.Wq = Q.Wq) (h9 : P.bq = Q.bq) (h10 : P.Wk = Q.Wk) (h11 : P.bk = Q.bk) (h12 : P.Wv = Q.Wv) (h13 : P.bv = Q.bv) (h14 : P.Wo = Q.Wo) (h15 : P.bo = Q.bo) (h16 : P.Wout = Q.Wout) (h17 : P.bout = Q.bout) : P = Q := by
  cases P
  cases Q
  dsimp only at h0 h1 h2 h3 h4 h5 h6 h7 h8 h9 h10 h11 h12 h13 h14 h15 h16 h17
  subst_vars
  rfl

set_option maxHeartbeats 4000000 in
/-- The weights the region finds are the weights the arguments give. -/
theorem regionWeights_eq (c : Dev nD) :
    KValue.regionWeights m c = Weights.ofArgs (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) :=
  weights_ext _ _
    (funext fun j => funext fun k => Windows.encoderWeight m c k j)
    (funext fun j => Windows.encoderBias m c j)
    (funext fun j => funext fun k => Windows.decoderWeight m c k j)
    (funext fun j => Windows.decoderBias m c j)
    (funext fun j => Windows.queryNormGain m c j)
    (funext fun j => Windows.queryNormOffset m c j)
    (funext fun j => Windows.keyValueNormGain m c j)
    (funext fun j => Windows.keyValueNormOffset m c j)
    (funext fun j => funext fun k => Windows.queryWeight m c k j)
    (funext fun j => Windows.queryBias m c j)
    (funext fun j => funext fun k => Windows.keyWeight m c k j)
    (funext fun j => Windows.keyBias m c j)
    (funext fun j => funext fun k => Windows.valueWeight m c k j)
    (funext fun j => Windows.valueBias m c j)
    (funext fun j => funext fun k => Windows.contextWeight m c k j)
    (funext fun j => Windows.contextBias m c j)
    (funext fun j => funext fun k => Windows.logitWeight m c k j)
    (funext fun j => Windows.logitBias m c j)

/-- The kernel program's result array is `Joiner.result` of its arguments. -/
theorem shaped_eq (c : Dev nD) :
    KValue.shaped m c = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) := by
  funext i
  obtain ⟨n, t, s, v, rfl⟩ : ∃ (n : Fin 16) (t : Fin 512) (s : Fin 5) (v : Fin 2000), i = ix4 n t s v :=
    ⟨i 0, i 1, i 2, i 3, eq_ix4 i⟩
  show logits (KValue.regionWeights m c) (fun k => V m c main_v0 (ix2 (rowOf n t s) k))
      (fun k => V m c main_v1 (ix2 (rowOf n t s) k)) v
    = logits (Weights.ofArgs (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)))
        (frameRow (m ((c.tc : Thread nD τ).loc main_arg0)) n t s) (frameRow (m ((c.tc : Thread nD τ).loc main_arg1)) n t s) v
  rw [regionWeights_eq]
  exact congrArg₂ (fun e d => logits (Weights.ofArgs (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19))) e d v)
    (funext fun k => Windows.encoderRows m c n t s k) (funext fun k => Windows.decoderRows m c n t s k)

/-- The kernel program's run with its result at `Joiner.result` of the arguments, the arguments unchanged. -/
theorem kernel_run :
    θ_run defs (onTc (τ := τ) (main (F := Ideal))) ⟨m, fun _ => 0, ρ⟩ fun r => ∀ c : Dev nD,
      r.2.mem ((c.tc : Thread nD τ).loc main_v38) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19) :=
  (θ_run defs _ _).mono (fun r h c => ⟨(h c).1.trans (shaped_eq m c), (h c).2⟩) (KValue.run m ρ (indicatorFacts m))

end Cert.Joiner.Bridge

end
-- ==== Proof.RefLogits.lean ====
/-
  The reference program is the joiner of the specification.

  The reference works on whole arrays `[16, 512, 5, ·]`; every one of its operations is either pointwise, or a
  contraction / a sum along the last axis, or a relabelling of the last axis (a bias spread over the frames; a
  mean kept as a length-one axis and spread back; the 512 columns regrouped as 8 heads of 64 and back).  So the
  entry at frame `(n, t, s)` of every intermediate array depends on row `(n, t, s)` of the encoder and decoder
  arrays only, and is the corresponding quantity of the specification for that frame: the two affine images, the
  two layer norms (mean, centred row, variance, normalised row), query, key and value, the gate of each head,
  the gated values, the hidden row and the logits.  Each is proved from the ones before it, which appear under
  its sum.  The regrouping reads through row-major positions: entry `(h, d)` of a regrouped frame is column
  `64 h + d`, and column `c` is entry `(c / 64, c % 64)`.  The logistic is spelled `1 / (1 + exp (-x))` by the
  program, which is what the logistic of the extended reals is by definition; the initial value of every sum is
  the float `0`, the extended real `0`.
-/
import proofs.«170326_j47407849013430_1_alg».proof.Proof.Gen.ReferenceIdeal.Read
import proofs.«170326_j47407849013430_1_alg».proof.Proof.Joiner

noncomputable section

namespace Cert.Joiner.Ref

open Cert.ReferenceIdeal Cert.ReferenceIdeal.Read Idealize.ShloMosaic Idealize.ShloMosaic.ValueIdx

/-- The float `1.0` denotes the extended real `1`. -/
theorem ofBits_one : Ideal.ofBits .f32 0x3F800000#32 = 1 := by
  simp [Ideal.ofBits, Ideal.ieee, -EReal.coe_mul]; norm_num

/-- Column `c` is column `c % 64` of its head. -/
theorem colOf_headOf (c : Fin 512) :
    colOf (headOf c) (⟨c.val % 64, Nat.mod_lt _ (by norm_num)⟩ : Fin 64) = c :=
  Fin.ext (by show c.val / 64 * 64 + c.val % 64 = c.val; omega)

/-! ## The program's index maps at a frame's coordinates

Each operation that is not pointwise reads its operand at an index computed from the result's; at an index given
by its coordinates the computed index is again one given by coordinates. -/

section Indices

variable (n : Fin 16) (t : Fin 512) (s : Fin 5)

theorem lidx0 (j k : Fin 512) : lidx_main_v0 (ix4 n t s j) k = ix4 n t s k :=
  funext fun a => Fin.ext (by match a with | ⟨0, _⟩ => rfl | ⟨1, _⟩ => rfl | ⟨2, _⟩ => rfl | ⟨3, _⟩ => rfl)
theorem ridx0 (j k : Fin 512) : ridx_main_v0 (ix4 n t s j) k = ix2 j k :=
  funext fun a => Fin.ext (by match a with | ⟨0, _⟩ => rfl | ⟨1, _⟩ => rfl)
theorem lidx4 (j k : Fin 512) : lidx_main_v4 (ix4 n t s j) k = ix4 n t s k :=
  funext fun a => Fin.ext (by match a with | ⟨0, _⟩ => rfl | ⟨1, _⟩ => rfl | ⟨2, _⟩ => rfl | ⟨3, _⟩ => rfl)
theorem ridx4 (j k : Fin 512) : ridx_main_v4 (ix4 n t s j) k = ix2 j k :=
  funext fun a => Fin.ext (by match a with | ⟨0, _⟩ => rfl | ⟨1, _⟩ => rfl)
theorem lidx56 (j k : Fin 512) : lidx_main_v56 (ix4 n t s j) k = ix4 n t s k :=
  funext fun a => Fin.ext (by match a with | ⟨0, _⟩ => rfl | ⟨1, _⟩ => rfl | ⟨2, _⟩ => rfl | ⟨3, _⟩ => rfl)
theorem ridx56 (j k : Fin 512) : ridx_main_v56 (ix4 n t s j) k = ix2 j k :=
  funext fun a => Fin.ext (by match a with | ⟨0, _⟩ => rfl | ⟨1, _⟩ => rfl)
theorem lidx60 (j k : Fin 512) : lidx_main_v60 (ix4 n t s j) k = ix4 n t s k :=
  funext fun a => Fin.ext (by match a with | ⟨0, _⟩ => rfl | ⟨1, _⟩ => rfl | ⟨2, _⟩ => rfl | ⟨3, _⟩ => rfl)
theorem ridx60 (j k : Fin 512) : ridx_main_v60 (ix4 n t s j) k = ix2 j k :=
  funext fun a => Fin.ext (by match a with | ⟨0, _⟩ => rfl | ⟨1, _⟩ => rfl)
theorem lidx64 (j k : Fin 512) : lidx_main_v64 (ix4 n t s j) k = ix4 n t s k :=
  funext fun a => Fin.ext (by match a with | ⟨0, _⟩ => rfl | ⟨1, _⟩ => rfl | ⟨2, _⟩ => rfl | ⟨3, _⟩ => rfl)
theorem ridx64 (j k : Fin 512) : ridx_main_v64 (ix4 n t s j) k = ix2 j k :=
  funext fun a => Fin.ext (by match a with | ⟨0, _⟩ => rfl | ⟨1, _⟩ => rfl)
theorem lidx85 (j k : Fin 512) : lidx_main_v85 (ix4 n t s j) k = ix4 n t s k :=
  funext fun a => Fin.ext (by match a with | ⟨0, _⟩ => rfl | ⟨1, _⟩ => rfl | ⟨2, _⟩ => rfl | ⟨3, _⟩ => rfl)
theorem ridx85 (j k : Fin 512) : ridx_main_v85 (ix4 n t s j) k = ix2 j k :=
  funext fun a => Fin.ext (by match a with | ⟨0, _⟩ => rfl | ⟨1, _⟩ => rfl)
theorem lidx91 (v : Fin 2000) (k : Fin 512) : lidx_main_v91 (ix4 n t s v) k = ix4 n t s k :=
  funext fun a => Fin.ext (by match a with | ⟨0, _⟩ => rfl | ⟨1, _⟩ => rfl | ⟨2, _⟩ => rfl | ⟨3, _⟩ => rfl)
theorem ridx91 (v : Fin 2000) (k : Fin 512) : ridx_main_v91 (ix4 n t s v) k = ix2 v k :=
  funext fun a => Fin.ext (by match a with | ⟨0, _⟩ => rfl | ⟨1, _⟩ => rfl)
theorem idx8 (k : Fin 512) : idx_main_v8 (ix3 n t s) k = ix4 n t s k :=
  funext fun a => Fin.ext (by match a with | ⟨0, _⟩ => rfl | ⟨1, _⟩ => rfl | ⟨2, _⟩ => rfl | ⟨3, _⟩ => rfl)
theorem idx15 (k : Fin 512) : idx_main_v15 (ix3 n t s) k = ix4 n t s k :=
  funext fun a => Fin.ext (by match a with | ⟨0, _⟩ => rfl | ⟨1, _⟩ => rfl | ⟨2, _⟩ => rfl | ⟨3, _⟩ => rfl)
theorem idx32 (k : Fin 512) : idx_main_v32 (ix3 n t s) k = ix4 n t s k :=
  funext fun a => Fin.ext (by match a with | ⟨0, _⟩ => rfl | ⟨1, _⟩ => rfl | ⟨2, _⟩ => rfl | ⟨3, _⟩ => rfl)
theorem idx39 (k : Fin 512) : idx_main_v39 (ix3 n t s) k = ix4 n t s k :=
  funext fun a => Fin.ext (by match a with | ⟨0, _⟩ => rfl | ⟨1, _⟩ => rfl | ⟨2, _⟩ => rfl | ⟨3, _⟩ => rfl)
theorem idx9 (z : Fin 1) : idx_main_v9 (ix4 n t s z) = ix3 n t s :=
  funext fun a => Fin.ext (by match a with | ⟨0, _⟩ => rfl | ⟨1, _⟩ => rfl | ⟨2, _⟩ => rfl)
theorem idx16 (z : Fin 1) : idx_main_v16 (ix4 n t s z) = ix3 n t s :=
  funext fun a => Fin.ext (by match a with | ⟨0, _⟩ => rfl | ⟨1, _⟩ => rfl | ⟨2, _⟩ => rfl)
theorem idx33 (z : Fin 1) : idx_main_v33 (ix4 n t s z) = ix3 n t s :=
  funext fun a => Fin.ext (by match a with | ⟨0, _⟩ => rfl | ⟨1, _⟩ => rfl | ⟨2, _⟩ => rfl)
theorem idx40 (z : Fin 1) : idx_main_v40 (ix4 n t s z) = ix3 n t s :=
  funext fun a => Fin.ext (by match a with | ⟨0, _⟩ => rfl | ⟨1, _⟩ => rfl | ⟨2, _⟩ => rfl)
theorem idx12 (j : Fin 512) : idx_main_v12 (ix4 n t s j) = ix4 n t s (0 : Fin 1) :=
  funext fun a => Fin.ext (by match a with | ⟨0, _⟩ => rfl | ⟨1, _⟩ => rfl | ⟨2, _⟩ => rfl | ⟨3, _⟩ => rfl)
theorem idx19 (j : Fin 512) : idx_main_v19 (ix4 n t s j) = ix4 n t s (0 : Fin 1) :=
  funext fun a => Fin.ext (by match a with | ⟨0, _⟩ => rfl | ⟨1, _⟩ => rfl | ⟨2, _⟩ => rfl | ⟨3, _⟩ => rfl)
theorem idx24 (j : Fin 512) : idx_main_v24 (ix4 n t s j) = ix4 n t s (0 : Fin 1) :=
  funext fun a => Fin.ext (by match a with | ⟨0, _⟩ => rfl | ⟨1, _⟩ => rfl | ⟨2, _⟩ => rfl | ⟨3, _⟩ => rfl)
theorem idx36 (j : Fin 512) : idx_main_v36 (ix4 n t s j) = ix4 n t s (0 : Fin 1) :=
  funext fun a => Fin.ext (by match a with | ⟨0, _⟩ => rfl | ⟨1, _⟩ => rfl | ⟨2, _⟩ => rfl | ⟨3, _⟩ => rfl)
theorem idx43 (j : Fin 512) : idx_main_v43 (ix4 n t s j) = ix4 n t s (0 : Fin 1) :=
  funext fun a => Fin.ext (by match a with | ⟨0, _⟩ => rfl | ⟨1, _⟩ => rfl | ⟨2, _⟩ => rfl | ⟨3, _⟩ => rfl)
theorem idx48 (j : Fin 512) : idx_main_v48 (ix4 n t s j) = ix4 n t s (0 : Fin 1) :=
  funext fun a => Fin.ext (by match a with | ⟨0, _⟩ => rfl | ⟨1, _⟩ => rfl | ⟨2, _⟩ => rfl | ⟨3, _⟩ => rfl)
theorem idx72 (h : Fin 8) (k : Fin 64) : idx_main_v72 (ix4 n t s h) k = ix5 n t s h k :=
  funext fun a => Fin.ext (by match a with | ⟨0, _⟩ => rfl | ⟨1, _⟩ => rfl | ⟨2, _⟩ => rfl | ⟨3, _⟩ => rfl | ⟨4, _⟩ => rfl)
theorem idx73 (h : Fin 8) (z : Fin 1) : idx_main_v73 (ix5 n t s h z) = ix4 n t s h :=
  funext fun a => Fin.ext (by match a with | ⟨0, _⟩ => rfl | ⟨1, _⟩ => rfl | ⟨2, _⟩ => rfl | ⟨3, _⟩ => rfl)
theorem idx82 (h : Fin 8) (d : Fin 64) : idx_main_v82 (ix5 n t s h d) = ix5 n t s h (0 : Fin 1) :=
  funext fun a => Fin.ext (by match a with | ⟨0, _⟩ => rfl | ⟨1, _⟩ => rfl | ⟨2, _⟩ => rfl | ⟨3, _⟩ => rfl | ⟨4, _⟩ => rfl)

/-- Regrouping the 512 columns as 8 heads of 64 keeps row-major positions: entry `(h, d)` is column `64 h + d`. -/
theorem idx68 (h : Fin 8) (d : Fin 64) : idx_main_v68 (ix5 n t s h d) = ix4 n t s (colOf h d) := by
  have hn := n.isLt; have ht := t.isLt; have hs := s.isLt; have hh := h.isLt; have hd := d.isLt
  refine funext fun a => Fin.ext ?_
  match a with
  | ⟨0, _⟩ => show ((((n.val * 512 + t.val) * 5 + s.val) * 8 + h.val) * 64 + d.val) / 1310720 = n.val; omega
  | ⟨1, _⟩ => show ((((n.val * 512 + t.val) * 5 + s.val) * 8 + h.val) * 64 + d.val) / 2560 % 512 = t.val; omega
  | ⟨2, _⟩ => show ((((n.val * 512 + t.val) * 5 + s.val) * 8 + h.val) * 64 + d.val) / 512 % 5 = s.val; omega
  | ⟨3, _⟩ => show ((((n.val * 512 + t.val) * 5 + s.val) * 8 + h.val) * 64 + d.val) % 512 = h.val * 64 + d.val; omega
theorem idx69 (h : Fin 8) (d : Fin 64) : idx_main_v69 (ix5 n t s h d) = ix4 n t s (colOf h d) := by
  have hn := n.isLt; have ht := t.isLt; have hs := s.isLt; have hh := h.isLt; have hd := d.isLt
  refine funext fun a => Fin.ext ?_
  match a with
  | ⟨0, _⟩ => show ((((n.val * 512 + t.val) * 5 + s.val) * 8 + h.val) * 64 + d.val) / 1310720 = n.val; omega
  | ⟨1, _⟩ => show ((((n.val * 512 + t.val) * 5 + s.val) * 8 + h.val) * 64 + d.val) / 2560 % 512 = t.val; omega
  | ⟨2, _⟩ => show ((((n.val * 512 + t.val) * 5 + s.val) * 8 + h.val) * 64 + d.val) / 512 % 5 = s.val; omega
  | ⟨3, _⟩ => show ((((n.val * 512 + t.val) * 5 + s.val) * 8 + h.val) * 64 + d.val) % 512 = h.val * 64 + d.val; omega
theorem idx70 (h : Fin 8) (d : Fin 64) : idx_main_v70 (ix5 n t s h d) = ix4 n t s (colOf h d) := by
  have hn := n.isLt; have ht := t.isLt; have hs := s.isLt; have hh := h.isLt; have hd := d.isLt
  refine funext fun a => Fin.ext ?_
  match a with
  | ⟨0, _⟩ => show ((((n.val * 512 + t.val) * 5 + s.val) * 8 + h.val) * 64 + d.val) / 1310720 = n.val; omega
  | ⟨1, _⟩ => show ((((n.val * 512 + t.val) * 5 + s.val) * 8 + h.val) * 64 + d.val) / 2560 % 512 = t.val; omega
  | ⟨2, _⟩ => show ((((n.val * 512 + t.val) * 5 + s.val) * 8 + h.val) * 64 + d.val) / 512 % 5 = s.val; omega
  | ⟨3, _⟩ => show ((((n.val * 512 + t.val) * 5 + s.val) * 8 + h.val) * 64 + d.val) % 512 = h.val * 64 + d.val; omega
/-- Back from 8 × 64 to 512 columns: column `c` is entry `(c / 64, c % 64)`. -/
theorem idx84 (c : Fin 512) :
    idx_main_v84 (ix4 n t s c) = ix5 n t s (headOf c) (⟨c.val % 64, Nat.mod_lt _ (by norm_num)⟩ : Fin 64) := by
  have hn := n.isLt; have ht := t.isLt; have hs := s.isLt; have hc := c.isLt
  refine funext fun a => Fin.ext ?_
  match a with
  | ⟨0, _⟩ => show (((n.val * 512 + t.val) * 5 + s.val) * 512 + c.val) / 1310720 = n.val; omega
  | ⟨1, _⟩ => show (((n.val * 512 + t.val) * 5 + s.val) * 512 + c.val) / 2560 % 512 = t.val; omega
  | ⟨2, _⟩ => show (((n.val * 512 + t.val) * 5 + s.val) * 512 + c.val) / 512 % 5 = s.val; omega
  | ⟨3, _⟩ => show (((n.val * 512 + t.val) * 5 + s.val) * 512 + c.val) / 64 % 8 = c.val / 64; omega
  | ⟨4, _⟩ => show (((n.val * 512 + t.val) * 5 + s.val) * 512 + c.val) % 64 = c.val % 64; omega

end Indices

/-! ## The stages at a frame -/

section Stages

variable (x0 x1 : (⟨S16x512x5x512, .f32⟩ : BufTy).Contents (Elt Ideal))
  (x2 : (⟨S512x512, .f32⟩ : BufTy).Contents (Elt Ideal)) (x3 : (⟨S512, .f32⟩ : BufTy).Contents (Elt Ideal))
  (x4 : (⟨S512x512, .f32⟩ : BufTy).Contents (Elt Ideal)) (x5 x6 x7 x8 x9 : (⟨S512, .f32⟩ : BufTy).Contents (Elt Ideal))
  (x10 : (⟨S512x512, .f32⟩ : BufTy).Contents (Elt Ideal)) (x11 : (⟨S512, .f32⟩ : BufTy).Contents (Elt Ideal))
  (x12 : (⟨S512x512, .f32⟩ : BufTy).Contents (Elt Ideal)) (x13 : (⟨S512, .f32⟩ : BufTy).Contents (Elt Ideal))
  (x14 : (⟨S512x512, .f32⟩ : BufTy).Contents (Elt Ideal)) (x15 : (⟨S512, .f32⟩ : BufTy).Contents (Elt Ideal))
  (x16 : (⟨S512x512, .f32⟩ : BufTy).Contents (Elt Ideal)) (x17 : (⟨S512, .f32⟩ : BufTy).Contents (Elt Ideal))
  (x18 : (⟨S2000x512, .f32⟩ : BufTy).Contents (Elt Ideal)) (x19 : (⟨S2000, .f32⟩ : BufTy).Contents (Elt Ideal))
  (n : Fin 16) (t : Fin 512) (s : Fin 5)
include x0 x1 x2 x3 x4 x5 x6 x7 x8 x9 x10 x11 x12 x13 x14 x15 x16 x17 x18 x19

/-- The joiner's weights, read off the eighteen parameter arrays. -/
local notation "𝒲" => Weights.ofArgs x2 x3 x4 x5 x6 x7 x8 x9 x10 x11 x12 x13 x14 x15 x16 x17 x18 x19

/-! ### A bias spread over the frames is the bias -/

theorem bias2 (j : Fin 512) : val_main_v2 (F := Ideal) x3 (ix4 n t s j) = x3 (ix1 j) := by
  rw [val_main_v2_apply, val_main_v1_apply]
  exact congrArg x3 (funext fun a => Fin.ext (by match a with | ⟨0, _⟩ => rfl))
theorem bias6 (j : Fin 512) : val_main_v6 (F := Ideal) x5 (ix4 n t s j) = x5 (ix1 j) := by
  rw [val_main_v6_apply, val_main_v5_apply]
  exact congrArg x5 (funext fun a => Fin.ext (by match a with | ⟨0, _⟩ => rfl))
theorem bias27 (j : Fin 512) : val_main_v27 (F := Ideal) x6 (ix4 n t s j) = x6 (ix1 j) := by
  rw [val_main_v27_apply, val_main_v26_apply]
  exact congrArg x6 (funext fun a => Fin.ext (by match a with | ⟨0, _⟩ => rfl))
theorem bias30 (j : Fin 512) : val_main_v30 (F := Ideal) x7 (ix4 n t s j) = x7 (ix1 j) := by
  rw [val_main_v30_apply, val_main_v29_apply]
  exact congrArg x7 (funext fun a => Fin.ext (by match a with | ⟨0, _⟩ => rfl))
theorem bias51 (j : Fin 512) : val_main_v51 (F := Ideal) x8 (ix4 n t s j) = x8 (ix1 j) := by
  rw [val_main_v51_apply, val_main_v50_apply]
  exact congrArg x8 (funext fun a => Fin.ext (by match a with | ⟨0, _⟩ => rfl))
theorem bias54 (j : Fin 512) : val_main_v54 (F := Ideal) x9 (ix4 n t s j) = x9 (ix1 j) := by
  rw [val_main_v54_apply, val_main_v53_apply]
  exact congrArg x9 (funext fun a => Fin.ext (by match a with | ⟨0, _⟩ => rfl))
theorem bias58 (j : Fin 512) : val_main_v58 (F := Ideal) x11 (ix4 n t s j) = x11 (ix1 j) := by
  rw [val_main_v58_apply, val_main_v57_apply]
  exact congrArg x11 (funext fun a => Fin.ext (by match a with | ⟨0, _⟩ => rfl))
theorem bias62 (j : Fin 512) : val_main_v62 (F := Ideal) x13 (ix4 n t s j) = x13 (ix1 j) := by
  rw [val_main_v62_apply, val_main_v61_apply]
  exact congrArg x13 (funext fun a => Fin.ext (by match a with | ⟨0, _⟩ => rfl))
theorem bias66 (j : Fin 512) : val_main_v66 (F := Ideal) x15 (ix4 n t s j) = x15 (ix1 j) := by
  rw [val_main_v66_apply, val_main_v65_apply]
  exact congrArg x15 (funext fun a => Fin.ext (by match a with | ⟨0, _⟩ => rfl))
theorem bias87 (j : Fin 512) : val_main_v87 (F := Ideal) x17 (ix4 n t s j) = x17 (ix1 j) := by
  rw [val_main_v87_apply, val_main_v86_apply]
  exact congrArg x17 (funext fun a => Fin.ext (by match a with | ⟨0, _⟩ => rfl))
theorem bias93 (v : Fin 2000) : val_main_v93 (F := Ideal) x19 (ix4 n t s v) = x19 (ix1 v) := by
  rw [val_main_v93_apply, val_main_v92_apply]
  exact congrArg x19 (funext fun a => Fin.ext (by match a with | ⟨0, _⟩ => rfl))

/-! ### The two affine images -/

theorem enc_eq (j : Fin 512) : val_main_v3 (F := Ideal) x0 x2 x3 (ix4 n t s j) = enc 𝒲 (frameRow x0 n t s) j := by
  rw [val_main_v3_apply, val_main_v0_apply, bias2 x0 x1 x2 x3 x4 x5 x6 x7 x8 x9 x10 x11 x12 x13 x14 x15 x16 x17 x18 x19]
  simp only [lidx0, ridx0, Ideal.addf_def] <;> rfl

theorem dec_eq (j : Fin 512) : val_main_v7 (F := Ideal) x1 x4 x5 (ix4 n t s j) = dec 𝒲 (frameRow x1 n t s) j := by
  rw [val_main_v7_apply, val_main_v4_apply, bias6 x0 x1 x2 x3 x4 x5 x6 x7 x8 x9 x10 x11 x12 x13 x14 x15 x16 x17 x18 x19]
  simp only [lidx4, ridx4, Ideal.addf_def] <;> rfl

/-! ### The layer norm of the decoder image -/

/-- The mean of the decoder image. -/
theorem mean_dec : val_main_v11 (F := Ideal) x1 x4 x5 (ix4 n t s (0 : Fin 1)) = mean (dec 𝒲 (frameRow x1 n t s)) := by
  rw [val_main_v11_apply, val_main_v9_apply, val_main_v8_apply, val_main_v10_apply, val_main_cst_apply, val_main_cst_0_apply]
  simp only [idx9, idx8, dec_eq x0 x1 x2 x3 x4 x5 x6 x7 x8 x9 x10 x11 x12 x13 x14 x15 x16 x17 x18 x19, Ideal.hostDivf_def, Ideal.ofBits_def, Ideal.ofBits_zero_f32, zero_add] <;> rfl

/-- The centred decoder image (the copy that is squared). -/
theorem centred_dec (j : Fin 512) :
    val_main_v13 (F := Ideal) x1 x4 x5 (ix4 n t s j) = centred (dec 𝒲 (frameRow x1 n t s)) j := by
  rw [val_main_v13_apply, val_main_v12_apply]
  simp only [idx12, dec_eq x0 x1 x2 x3 x4 x5 x6 x7 x8 x9 x10 x11 x12 x13 x14 x15 x16 x17 x18 x19, mean_dec x0 x1 x2 x3 x4 x5 x6 x7 x8 x9 x10 x11 x12 x13 x14 x15 x16 x17 x18 x19, Ideal.subf_def] <;> rfl

/-- The centred decoder image (the copy that is scaled). -/
theorem centred'_dec (j : Fin 512) :
    val_main_v20 (F := Ideal) x1 x4 x5 (ix4 n t s j) = centred (dec 𝒲 (frameRow x1 n t s)) j := by
  rw [val_main_v20_apply, val_main_v19_apply]
  simp only [idx19, dec_eq x0 x1 x2 x3 x4 x5 x6 x7 x8 x9 x10 x11 x12 x13 x14 x15 x16 x17 x18 x19, mean_dec x0 x1 x2 x3 x4 x5 x6 x7 x8 x9 x10 x11 x12 x13 x14 x15 x16 x17 x18 x19, Ideal.subf_def] <;> rfl

/-- The variance of the decoder image. -/
theorem variance_dec :
    val_main_v18 (F := Ideal) x1 x4 x5 (ix4 n t s (0 : Fin 1)) = variance (dec 𝒲 (frameRow x1 n t s)) := by
  rw [val_main_v18_apply, val_main_v16_apply, val_main_v15_apply, val_main_v17_apply, val_main_cst_1_apply, val_main_cst_2_apply]
  simp only [idx16, idx15, val_main_v14_apply, centred_dec x0 x1 x2 x3 x4 x5 x6 x7 x8 x9 x10 x11 x12 x13 x14 x15 x16 x17 x18 x19, Ideal.mulf_def, Ideal.hostDivf_def,
    Ideal.ofBits_def, Ideal.ofBits_zero_f32, zero_add] <;> rfl

/-- The normalised decoder image: the query input. -/
theorem qIn_eq (j : Fin 512) :
    val_main_v31 (F := Ideal) x1 x4 x5 x6 x7 (ix4 n t s j) = qIn 𝒲 (frameRow x1 n t s) j := by
  rw [val_main_v31_apply, val_main_v28_apply, val_main_v25_apply, val_main_v24_apply, val_main_v23_apply,
    val_main_v22_apply, val_main_v21_apply, val_main_cst_3_apply, bias27 x0 x1 x2 x3 x4 x5 x6 x7 x8 x9 x10 x11 x12 x13 x14 x15 x16 x17 x18 x19, bias30 x0 x1 x2 x3 x4 x5 x6 x7 x8 x9 x10 x11 x12 x13 x14 x15 x16 x17 x18 x19]
  simp only [idx24, centred'_dec x0 x1 x2 x3 x4 x5 x6 x7 x8 x9 x10 x11 x12 x13 x14 x15 x16 x17 x18 x19, variance_dec x0 x1 x2 x3 x4 x5 x6 x7 x8 x9 x10 x11 x12 x13 x14 x15 x16 x17 x18 x19, Ideal.addf_def, Ideal.mulf_def,
    Ideal.hostUnary_rsqrt_def, Ideal.ofBits_def] <;> rfl

/-! ### The layer norm of the encoder image -/

/-- The mean of the encoder image. -/
theorem mean_enc : val_main_v35 (F := Ideal) x0 x2 x3 (ix4 n t s (0 : Fin 1)) = mean (enc 𝒲 (frameRow x0 n t s)) := by
  rw [val_main_v35_apply, val_main_v33_apply, val_main_v32_apply, val_main_v34_apply, val_main_cst_4_apply, val_main_cst_5_apply]
  simp only [idx33, idx32, enc_eq x0 x1 x2 x3 x4 x5 x6 x7 x8 x9 x10 x11 x12 x13 x14 x15 x16 x17 x18 x19, Ideal.hostDivf_def, Ideal.ofBits_def, Ideal.ofBits_zero_f32, zero_add] <;> rfl

/-- The centred encoder image (the copy that is squared). -/
theorem centred_enc (j : Fin 512) :
    val_main_v37 (F := Ideal) x0 x2 x3 (ix4 n t s j) = centred (enc 𝒲 (frameRow x0 n t s)) j := by
  rw [val_main_v37_apply, val_main_v36_apply]
  simp only [idx36, enc_eq x0 x1 x2 x3 x4 x5 x6 x7 x8 x9 x10 x11 x12 x13 x14 x15 x16 x17 x18 x19, mean_enc x0 x1 x2 x3 x4 x5 x6 x7 x8 x9 x10 x11 x12 x13 x14 x15 x16 x17 x18 x19, Ideal.subf_def] <;> rfl

/-- The centred encoder image (the copy that is scaled). -/
theorem centred'_enc (j : Fin 512) :
    val_main_v44 (F := Ideal) x0 x2 x3 (ix4 n t s j) = centred (enc 𝒲 (frameRow x0 n t s)) j := by
  rw [val_main_v44_apply, val_main_v43_apply]
  simp only [idx43, enc_eq x0 x1 x2 x3 x4 x5 x6 x7 x8 x9 x10 x11 x12 x13 x14 x15 x16 x17 x18 x19, mean_enc x0 x1 x2 x3 x4 x5 x6 x7 x8 x9 x10 x11 x12 x13 x14 x15 x16 x17 x18 x19, Ideal.subf_def] <;> rfl

/-- The variance of the encoder image. -/
theorem variance_enc :
    val_main_v42 (F := Ideal) x0 x2 x3 (ix4 n t s (0 : Fin 1)) = variance (enc 𝒲 (frameRow x0 n t s)) := by
  rw [val_main_v42_apply, val_main_v40_apply, val_main_v39_apply, val_main_v41_apply, val_main_cst_6_apply, val_main_cst_7_apply]
  simp only [idx40, idx39, val_main_v38_apply, centred_enc x0 x1 x2 x3 x4 x5 x6 x7 x8 x9 x10 x11 x12 x13 x14 x15 x16 x17 x18 x19, Ideal.mulf_def, Ideal.hostDivf_def,
    Ideal.ofBits_def, Ideal.ofBits_zero_f32, zero_add] <;> rfl

/-- The normalised encoder image: the key/value input. -/
theorem kvIn_eq (j : Fin 512) :
    val_main_v55 (F := Ideal) x0 x2 x3 x8 x9 (ix4 n t s j) = kvIn 𝒲 (frameRow x0 n t s) j := by
  rw [val_main_v55_apply, val_main_v52_apply, val_main_v49_apply, val_main_v48_apply, val_main_v47_apply,
    val_main_v46_apply, val_main_v45_apply, val_main_cst_8_apply, bias51 x0 x1 x2 x3 x4 x5 x6 x7 x8 x9 x10 x11 x12 x13 x14 x15 x16 x17 x18 x19, bias54 x0 x1 x2 x3 x4 x5 x6 x7 x8 x9 x10 x11 x12 x13 x14 x15 x16 x17 x18 x19]
  simp only [idx48, centred'_enc x0 x1 x2 x3 x4 x5 x6 x7 x8 x9 x10 x11 x12 x13 x14 x15 x16 x17 x18 x19, variance_enc x0 x1 x2 x3 x4 x5 x6 x7 x8 x9 x10 x11 x12 x13 x14 x15 x16 x17 x18 x19, Ideal.addf_def, Ideal.mulf_def,
    Ideal.hostUnary_rsqrt_def, Ideal.ofBits_def] <;> rfl

/-! ### Query, key, value -/

theorem query_eq (j : Fin 512) :
    val_main_v59 (F := Ideal) x1 x4 x5 x6 x7 x10 x11 (ix4 n t s j) = query 𝒲 (frameRow x1 n t s) j := by
  rw [val_main_v59_apply, val_main_v56_apply, bias58 x0 x1 x2 x3 x4 x5 x6 x7 x8 x9 x10 x11 x12 x13 x14 x15 x16 x17 x18 x19]
  simp only [lidx56, ridx56, qIn_eq x0 x1 x2 x3 x4 x5 x6 x7 x8 x9 x10 x11 x12 x13 x14 x15 x16 x17 x18 x19, Ideal.addf_def] <;> rfl

theorem key_eq (j : Fin 512) :
    val_main_v63 (F := Ideal) x0 x2 x3 x8 x9 x12 x13 (ix4 n t s j) = key 𝒲 (frameRow x0 n t s) j := by
  rw [val_main_v63_apply, val_main_v60_apply, bias62 x0 x1 x2 x3 x4 x5 x6 x7 x8 x9 x10 x11 x12 x13 x14 x15 x16 x17 x18 x19]
  simp only [lidx60, ridx60, kvIn_eq x0 x1 x2 x3 x4 x5 x6 x7 x8 x9 x10 x11 x12 x13 x14 x15 x16 x17 x18 x19, Ideal.addf_def] <;> rfl

theorem value_eq (j : Fin 512) :
    val_main_v67 (F := Ideal) x0 x2 x3 x8 x9 x14 x15 (ix4 n t s j) = value 𝒲 (frameRow x0 n t s) j := by
  rw [val_main_v67_apply, val_main_v64_apply, bias66 x0 x1 x2 x3 x4 x5 x6 x7 x8 x9 x10 x11 x12 x13 x14 x15 x16 x17 x18 x19]
  simp only [lidx64, ridx64, kvIn_eq x0 x1 x2 x3 x4 x5 x6 x7 x8 x9 x10 x11 x12 x13 x14 x15 x16 x17 x18 x19, Ideal.addf_def] <;> rfl

/-! ### The gate of a head, and the gated values -/

/-- The program's `1 / (1 + exp (-(Σ_d q·k) / 8))` over a head's 64 columns is the head's gate. -/
theorem gate_eq (h : Fin 8) :
    val_main_v81 (F := Ideal) x0 x1 x2 x3 x4 x5 x6 x7 x8 x9 x10 x11 x12 x13 (ix5 n t s h (0 : Fin 1)) = gate (query 𝒲 (frameRow x1 n t s)) (key 𝒲 (frameRow x0 n t s)) h := by
  rw [val_main_v81_apply, val_main_v80_apply, val_main_cst_12_apply, val_main_v79_apply, val_main_v78_apply, val_main_cst_11_apply,
    val_main_v77_apply, val_main_v76_apply, val_main_v75_apply, val_main_v74_apply, val_main_cst_10_apply, val_main_v73_apply,
    val_main_v72_apply, val_main_cst_9_apply]
  simp only [idx73, idx72, val_main_v71_apply, val_main_v68_apply, val_main_v69_apply, idx68, idx69, query_eq x0 x1 x2 x3 x4 x5 x6 x7 x8 x9 x10 x11 x12 x13 x14 x15 x16 x17 x18 x19,
    key_eq x0 x1 x2 x3 x4 x5 x6 x7 x8 x9 x10 x11 x12 x13 x14 x15 x16 x17 x18 x19, Ideal.hostDivf_def, Ideal.addf_def, Ideal.mulf_def, Ideal.hostUnary_exp_def, Ideal.hostNegf_def,
    Ideal.negf_def, Ideal.ofBits_def, Ideal.ofBits_zero_f32, zero_add, ofBits_one] <;> rfl

/-- Column `c` of the gated values: the gate of `c`'s head times `v c`. -/
theorem context_eq (c : Fin 512) :
    val_main_v84 (F := Ideal) x0 x1 x2 x3 x4 x5 x6 x7 x8 x9 x10 x11 x12 x13 x14 x15 (ix4 n t s c) = context 𝒲 (frameRow x0 n t s) (frameRow x1 n t s) c := by
  rw [val_main_v84_apply, val_main_v83_apply, val_main_v82_apply, val_main_v70_apply]
  simp only [idx84, idx82, idx70, colOf_headOf, gate_eq x0 x1 x2 x3 x4 x5 x6 x7 x8 x9 x10 x11 x12 x13 x14 x15 x16 x17 x18 x19, value_eq x0 x1 x2 x3 x4 x5 x6 x7 x8 x9 x10 x11 x12 x13 x14 x15 x16 x17 x18 x19, Ideal.mulf_def] <;> rfl

/-! ### The hidden row and the logits -/

theorem hidden_eq (j : Fin 512) :
    val_main_v90 (F := Ideal) x0 x1 x2 x3 x4 x5 x6 x7 x8 x9 x10 x11 x12 x13 x14 x15 x16 x17 (ix4 n t s j) = hidden 𝒲 (frameRow x0 n t s) (frameRow x1 n t s) j := by
  rw [val_main_v90_apply, val_main_v89_apply, val_main_v88_apply, val_main_v85_apply, bias87 x0 x1 x2 x3 x4 x5 x6 x7 x8 x9 x10 x11 x12 x13 x14 x15 x16 x17 x18 x19, dec_eq x0 x1 x2 x3 x4 x5 x6 x7 x8 x9 x10 x11 x12 x13 x14 x15 x16 x17 x18 x19]
  simp only [lidx85, ridx85, context_eq x0 x1 x2 x3 x4 x5 x6 x7 x8 x9 x10 x11 x12 x13 x14 x15 x16 x17 x18 x19, Ideal.addf_def, Ideal.hostUnary_tanh_def] <;> rfl

theorem logits_eq (v : Fin 2000) :
    val_main_v94 (F := Ideal) x0 x1 x2 x3 x4 x5 x6 x7 x8 x9 x10 x11 x12 x13 x14 x15 x16 x17 x18 x19 (ix4 n t s v) = logits 𝒲 (frameRow x0 n t s) (frameRow x1 n t s) v := by
  rw [val_main_v94_apply, val_main_v91_apply, bias93 x0 x1 x2 x3 x4 x5 x6 x7 x8 x9 x10 x11 x12 x13 x14 x15 x16 x17 x18 x19]
  simp only [lidx91, ridx91, hidden_eq x0 x1 x2 x3 x4 x5 x6 x7 x8 x9 x10 x11 x12 x13 x14 x15 x16 x17 x18 x19, Ideal.addf_def] <;> rfl

end Stages

/-- The reference's result array is the specification's: at `(n, t, s, v)`, logit `v` of frame `(n, t, s)`. -/
theorem ref_result (x0 x1 : (⟨S16x512x5x512, .f32⟩ : BufTy).Contents (Elt Ideal)) (x2 : (⟨S512x512, .f32⟩ : BufTy).Contents (Elt Ideal)) (x3 : (⟨S512, .f32⟩ : BufTy).Contents (Elt Ideal)) (x4 : (⟨S512x512, .f32⟩ : BufTy).Contents (Elt Ideal)) (x5 x6 x7 x8 x9 : (⟨S512, .f32⟩ : BufTy).Contents (Elt Ideal)) (x10 : (⟨S512x512, .f32⟩ : BufTy).Contents (Elt Ideal)) (x11 : (⟨S512, .f32⟩ : BufTy).Contents (Elt Ideal)) (x12 : (⟨S512x512, .f32⟩ : BufTy).Contents (Elt Ideal)) (x13 : (⟨S512, .f32⟩ : BufTy).Contents (Elt Ideal)) (x14 : (⟨S512x512, .f32⟩ : BufTy).Contents (Elt Ideal)) (x15 : (⟨S512, .f32⟩ : BufTy).Contents (Elt Ideal)) (x16 : (⟨S512x512, .f32⟩ : BufTy).Contents (Elt Ideal)) (x17 : (⟨S512, .f32⟩ : BufTy).Contents (Elt Ideal)) (x18 : (⟨S2000x512, .f32⟩ : BufTy).Contents (Elt Ideal)) (x19 : (⟨S2000, .f32⟩ : BufTy).Contents (Elt Ideal)) :
    Cert.ReferenceIdeal.Read.val_main_v94 (F := Ideal) x0 x1 x2 x3 x4 x5 x6 x7 x8 x9 x10 x11 x12 x13 x14 x15 x16 x17 x18 x19
      = Cert.Joiner.result x0 x1 x2 x3 x4 x5 x6 x7 x8 x9 x10 x11 x12 x13 x14 x15 x16 x17 x18 x19 := by
  funext i
  obtain ⟨n, t, s, v, rfl⟩ : ∃ n t s v, i = ValueIdx.ix4 n t s v := ⟨i 0, i 1, i 2, i 3, ValueIdx.eq_ix4 i⟩
  rw [logits_eq x0 x1 x2 x3 x4 x5 x6 x7 x8 x9 x10 x11 x12 x13 x14 x15 x16 x17 x18 x19]
  rfl

end Cert.Joiner.Ref

end
-- ==== Proof.lean ====
/-
  The five claims of this certificate.

  The three frames: the two kernel programs' frames are the generated frame certificates; the reference has no
  kernel, and its frame is its generated run with the result dropped.  The idealization rewrote nothing, so
  `preserves` is trivial.  The algebraic claim: on the extended reals both idealized programs end with the array
  `Joiner.result` of the twenty argument arrays — logit `v` of frame `(n, t, s)` at `(n, t, s, v)` — the kernel
  program by `Bridge.kernel_run` (the body read row by row, the 80 row blocks tiling the flattened result, the last
  reshape, the host's rearrangements of the weights undone), the reference by its generated run read one operation at
  a time (`Ref.ref_result`).  Neither side uses that the inputs are finite: the only laws involved are reindexing
  of finite sums and `x * 0 = 0`, `x * 1 = x`, which hold for infinite values too.
-/
import proofs.«170326_j47407849013430_1_alg».proof.Defs
import proofs.«170326_j47407849013430_1_alg».proof.Proof.Gen.Kernel
import proofs.«170326_j47407849013430_1_alg».proof.Proof.Gen.Kernel.Skeleton
import proofs.«170326_j47407849013430_1_alg».proof.Proof.Gen.Kernel.Launch
import proofs.«170326_j47407849013430_1_alg».proof.Proof.Gen.Kernel.Points
import proofs.«170326_j47407849013430_1_alg».proof.Proof.Gen.Kernel.Frame
import proofs.«170326_j47407849013430_1_alg».proof.Proof.Gen.KernelIdeal
import proofs.«170326_j47407849013430_1_alg».proof.Proof.Gen.KernelIdeal.Skeleton
import proofs.«170326_j47407849013430_1_alg».proof.Proof.Gen.KernelIdeal.Launch
import proofs.«170326_j47407849013430_1_alg».proof.Proof.Gen.KernelIdeal.Points
import proofs.«170326_j47407849013430_1_alg».proof.Proof.Gen.KernelIdeal.Frame
import proofs.«170326_j47407849013430_1_alg».proof.Proof.Gen.ReferenceIdeal
import proofs.«170326_j47407849013430_1_alg».proof.Proof.Gen.Pre_finite_inputs
import proofs.«170326_j47407849013430_1_alg».proof.Proof.Gen.ReferenceIdeal.Run
import proofs.«170326_j47407849013430_1_alg».proof.Proof.Gen.ReferenceIdeal.Read
import proofs.«170326_j47407849013430_1_alg».proof.Proof.KernelBridge
import proofs.«170326_j47407849013430_1_alg».proof.Proof.RefLogits
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end at `Joiner.result` of the (agreeing) argument arrays. -/
theorem algebraic : Cert.algebraic_KernelIdeal_ReferenceIdeal := by
  intro m ρ m' ρ' _ hagree
  refine ⟨fun c => Cert.Joiner.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)),
    Cert.Joiner.Bridge.kernel_run m ρ, ?_⟩
  refine (θ_run Cert.ReferenceIdeal.defs _ _).mono (fun _ h c => ⟨?_, (h c).2⟩)
    (Cert.ReferenceIdeal.Value.run (F := Ideal) m' ρ')
  obtain ⟨h0, h1, h2, h3, h4, h5, h6, h7, h8, h9, h10, h11, h12, h13, h14, h15, h16, h17, h18, h19⟩ := hagree c
  rw [(h c).1, Cert.ReferenceIdeal.Read.val_main_v94_eq, Cert.Joiner.Ref.ref_result, h0, h1, h2, h3, h4, h5, h6, h7, h8, h9, h10, h11, h12, h13, h14, h15, h16, h17, h18, h19]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
